-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x3 : Shape := ⟨3, ![32, 4096, 3]⟩
abbrev S32x1x4096 : Shape := ⟨3, ![32, 1, 4096]⟩
abbrev S128x3 : Shape := ⟨2, ![128, 3]⟩
abbrev S128 : Shape := ⟨1, ![128]⟩
abbrev S256x128 : Shape := ⟨2, ![256, 128]⟩
abbrev S256 : Shape := ⟨1, ![256]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S_ : Shape := ⟨0, ![]⟩

class Facts : Prop where
  bcast_S_S32x4096x3 : S_.BroadcastsInDim S32x4096x3 (![] : Fin 0 → Fin S32x4096x3.rank)
  reducesTo_S32x4096x3_S_d0_1_2 : S32x4096x3.ReducesTo [0, 1, 2] S_
  h_S_ : 0 < S_.numel
  bcast_S_S128x3 : S_.BroadcastsInDim S128x3 (![] : Fin 0 → Fin S128x3.rank)
  reducesTo_S128x3_S_d0_1 : S128x3.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg8 : FVec F S512 .f32) (main_arg9 : FVec F S512 .f32) (main_arg10 : FVec F S1024x512 .f32) (main_arg11 : FVec F S1024 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S1024x512 .f32 := Host.absf main_arg10
  let main_cst_16 : FVec F S_ .f32 := constant S_ .f32 0x7F800000#32
  let main_v45 : FVec F S1024x512 .f32 := broadcastInDim S1024x512 ![] bcast_S_S1024x512 main_cst_16
  let main_v46 : IVec S1024x512 1 := cmpf .olt main_v44 main_v45
  let main_c_17 : IVec S_ 1 := constantI S_ 1 1#1
  let main_v47 : IVec S_ 1 := (fun x v => Host.reduce IntOp.andi x v reducesTo_S1024x512_S_d0_1 h_S_) main_v46 main_c_17
  let main_v48 : IVec S_ 1 := andi main_v43 main_v47
  let main_v49 : FVec F S1024 .f32 := Host.absf main_arg11
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg5 : FVec F S256x128 .f32) (main_arg6 : FVec F S256 .f32) (main_arg7 : FVec F S512x512 .f32) (main_arg8 : FVec F S512 .f32) (main_arg9 : FVec F S512 .f32) (main_arg10 : FVec F S1024x512 .f32) (main_arg11 : FVec F S1024 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S32x4096x3 .f32) (main_arg1 : IVec S32x1x4096 32) (main_arg2 : FVec F S128x3 .f32) (main_arg3 : FVec F S128 .f32) (main_arg4 : FVec F S128 .f32) (main_arg5 : FVec F S256x128 .f32) (main_arg6 : FVec F S256 .f32) (main_arg7 : FVec F S512x512 .f32) (main_arg8 : FVec F S512 .f32) (main_arg9 : FVec F S512 .f32) (main_arg10 : FVec F S1024x512 .f32) (main_arg11 : FVec F S1024 .f32) : IVec S_ 1 :=
  let main_v0 : FVec F S32x4096x3 .f32 := Host.absf main_arg0
  let main_cst : FVec F S_ .f32 := constant S_ .f32 0x7F800000#32
  let main_v1 : FVec F S32x4096x3 .f32 := broadcastInDim S32x4096x3 ![] bcast_S_S32x4096x3 main_cst
  let main_v2 : IVec S32x4096x3 1 := cmpf .olt main_v0 main_v1
  let main_c : IVec S_ 1 := constantI S_ 1 1#1
  let main_v3 : IVec S_ 1 := (fun x v => Host.reduce IntOp.andi x v reducesTo_S32x4096x3_S_d0_1_2 h_S_) main_v2 main_c
  let main_v4 : FVec F S128x3 .f32 := Host.absf main_arg2
  let main_cst_0 : FVec F S_ .f32 := constant S_ .f32 0x7F800000#32
  let main_v5 : FVec F S128x3 .f32 := broadcastInDim S128x3 ![] bcast_S_S128x3 main_cst_0
  let main_v6 : IVec S128x3 1 := cmpf .olt main_v4 main_v5
  let main_c_1 : IVec S_ 1 := constantI S_ 1 1#1
  let main_v7 : IVec S_ 1 := (fun x v => Host.reduce IntOp.andi x v reducesTo_S128x3_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S32x4096x3 : Shape := ⟨3, ![32, 4096, 3]⟩
abbrev S32x1x4096 : Shape := ⟨3, ![32, 1, 4096]⟩
abbrev S128x3 : Shape := ⟨2, ![128, 3]⟩
abbrev S128 : Shape := ⟨1, ![128]⟩
abbrev S256x128 : Shape := ⟨2, ![256, 128]⟩
abbrev S256 : Shape := ⟨1, ![256]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S32x3x4096 : Shape := ⟨3, ![32, 3, 4096]⟩
abbrev S128x1 : Shape := ⟨2, ![128, 1]⟩
abbrev S256x1 : Shape := ⟨2, ![256, 1]⟩
abbrev S512x1 : Shape := ⟨2, ![512, 1]⟩
abbrev S1024x1 : Shape := ⟨2, ![1024, 1]⟩
abbrev S32x1x1024 : Shape := ⟨3, ![32, 1, 1024]⟩
abbrev S1x3x4096 : Shape := ⟨3, ![1, 3, 4096]⟩
abbrev S1x1x4096 : Shape := ⟨3, ![1, 1, 4096]⟩
abbrev S1x1x1024 : Shape := ⟨3, ![1, 1, 1024]⟩
abbrev S256x4096 : Shape := ⟨2, ![256, 4096]⟩
abbrev S3x4096 : Shape := ⟨2, ![3, 4096]⟩
abbrev S1x4096 : Shape := ⟨2, ![1, 4096]⟩
abbrev S128x4096 : Shape := ⟨2, ![128, 4096]⟩
abbrev S4096 : Shape := ⟨1, ![4096]⟩
abbrev S256x1024 : Shape := ⟨2, ![256, 1024]⟩
abbrev S1x1024 : Shape := ⟨2, ![1, 1024]⟩
abbrev S512x1024 : Shape := ⟨2, ![512, 1024]⟩
abbrev S1024x1024 : Shape := ⟨2, ![1024, 1024]⟩
abbrev S32x1024 : Shape := ⟨2, ![32, 1024]⟩

abbrev nBuf : Space → Nat
  | .hbm => 21
  | .vmem => 17
  | .smem => 0
  | _ => 0

abbrev bufTy : (tb : Table) → Fin (tcTables nBuf tb) → BufTy
  | .hbm, ⟨0, _⟩ => ⟨S32x4096x3, .f32⟩
  | .hbm, ⟨1, _⟩ => ⟨S32x1x4096, .i32⟩
  | .hbm, ⟨2, _⟩ => ⟨S128x3, .f32⟩
  | .hbm, ⟨3, _⟩ => ⟨S128, .f32⟩
  | .hbm, ⟨4, _⟩ => ⟨S128, .f32⟩
  | .hbm, ⟨5, _⟩ => ⟨S256x128, .f32⟩
  | .hbm, ⟨6, _⟩ => ⟨S256, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S1024x512, .f32⟩
  | .hbm, ⟨11, _⟩ => ⟨S1024, .f32⟩
  | .hbm, ⟨12, _⟩ => ⟨S32x3x4096, .f32⟩
  | .hbm, ⟨13, _⟩ => ⟨S128x1, .f32⟩
  | .hbm, ⟨14, _⟩ => ⟨S128x1, .f32⟩
  | .hbm, ⟨15, _⟩ => ⟨S256x1, .f32⟩
  | .hbm, ⟨16, _⟩ => ⟨S512x1, .f32⟩
  | .hbm, ⟨17, _⟩ => ⟨S512x1, .f32⟩
  | .hbm, ⟨18, _⟩ => ⟨S1024x1, .f32⟩
  | .hbm, ⟨19, _⟩ => ⟨S32x1x1024, .f32⟩
  | .hbm, ⟨20, _⟩ => ⟨S32x1024, .f32⟩
  | .local _ .vmem, ⟨0, _⟩ => ⟨S1x3x4096, .f32⟩
  | .local _ .vmem, ⟨1, _⟩ => ⟨S1x3x4096, .f32⟩
  | .local _ .vmem, ⟨2, _⟩ => ⟨S1x1x4096, .i32⟩
  | .local _ .vmem, ⟨3, _⟩ => ⟨S1x1x4096, .i32⟩
  | .local _ .vmem, ⟨4, _⟩ => ⟨S128x3, .f32⟩
  | .local _ .vmem, ⟨5, _⟩ => ⟨S128x1, .f32⟩
  | .local _ .vmem, ⟨6, _⟩ => ⟨S128x1, .f32⟩
  | .local _ .vmem, ⟨7, _⟩ => ⟨S256x128, .f32⟩
  | .local _ .vmem, ⟨8, _⟩ => ⟨S256x1, .f32⟩
  | .local _ .vmem, ⟨9, _⟩ => ⟨S512x512, .f32⟩
  | .local _ .vmem, ⟨10, _⟩ => ⟨S512x1, .f32⟩
  | .local _ .vmem, ⟨11, _⟩ => ⟨S512x1, .f32⟩
  | .local _ .vmem, ⟨12, _⟩ => ⟨S1024x512, .f32⟩
  | .local _ .vmem, ⟨13, _⟩ => ⟨S1024x1, .f32⟩
  | .local _ .vmem, ⟨14, _⟩ => ⟨S1x1x1024, .f32⟩
  | .local _ .vmem, ⟨15, _⟩ => ⟨S1x1x1024, .f32⟩
  | .local _ .vmem, ⟨16, _⟩ => ⟨S256x4096, .bf16⟩
  | _, _ => ⟨S32x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_36 : BitVec 32 := 0#32
  let c4_i32 : BitVec 32 := 4#32
  let v68 : BitVec 32 := Scalar.addi c0_i32_36 c4_i32
  let c1_i32 : BitVec 32 := 1#32
  ⟨c0_i32_36, v68, c1_i32⟩
def k0_mult1 (k0_t1 : Fin k0_t1_loop.trips) : BitVec 32 :=
  let c0_i32_36 : BitVec 32 := 0#32
  let c1_i32 : BitVec 32 := 1#32
  let arg15 : BitVec 32 := Scf.iv c0_i32_36 c1_i32 k0_t1
  let c1024_i32 : BitVec 32 := 1024#32
  let v74 : BitVec 32 := Scalar.muli arg15 c1024_i32
  v74
def k0_off1 (k0_t1 : Fin k0_t1_loop.trips) : Fin 2 → Nat :=
  let c0_41 : Index := 0#32
  let c0_i32_36 : BitVec 32 := 0#32
  let c1_i32 : BitVec 32 := 1#32
  let arg15 : BitVec 32 := Scf.iv c0_i32_36 c1_i32 k0_t1
  let c1024_i32 : BitVec 32 := 1024#32
  let v74 : BitVec 32 := Scalar.muli arg15 c1024_i32
  let v75 : BitVec 32 := v74
  let v76 : Index := Scalar.indexCast v75
  ![0, v76.toNat]
def k0_off2 (k0_t1 : Fin k0_t1_loop.trips) : Fin 3 → Nat :=
  let c0_42 : Index := 0#32
  let c0_43 : Index := 0#32
  let c0_i32_36 : BitVec 32 := 0#32
  let c1_i32 : BitVec 32 := 1#32
  let arg15 : BitVec 32 := Scf.iv c0_i32_36 c1_i32 k0_t1
  let c1024_i32 : BitVec 32 := 1024#32
  let v74 : BitVec 32 := Scalar.muli arg15 c1024_i32
  let v75 : BitVec 32 := v74
  let v78 : Index := Scalar.indexCast v75
  ![0, 0, v78.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S32x4096x3_S32x3x4096_0_2_1 : S32x4096x3.Transposes [0, 2, 1] S32x3x4096
  shapeCasts_S128_S128x1 : S128.ShapeCasts S128x1
  shapeCasts_S256_S256x1 : S256.ShapeCasts S256x1
  shapeCasts_S512_S512x1 : S512.ShapeCasts S512x1
  shapeCasts_S1024_S1024x1 : S1024.ShapeCasts S1024x1
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  natLt_1_32 : 1 < 32
  inb_S128x3_S128x3_0_0 : ∀ a, (![0, 0] : Fin 2 → Nat) a + S128x3.size a ≤ S128x3.size a
  h_S128x3 : 0 < S128x3.numel
  bitsLt_bf16_f32 : FTy.bits .bf16 < FTy.bits .f32
  reduces_S128x4096_S4096 : S128x4096.Reduces [0] S4096
  shapeCasts_S4096_S1x4096 : S4096.ShapeCasts S1x4096
  broadcasts_S1x4096_S128x4096 : S1x4096.Broadcasts S128x4096
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x4096 : S128x1.Broadcasts S128x4096
  inb_S256x128_S256x128_0_0 : ∀ a, (![0, 0] : Fin 2 → Nat) a + S256x128.size a ≤ S256x128.size a
  h_S256x128 : 0 < S256x128.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  reduces_S256x4096_S256 : S256x4096.Reduces [1] S256
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  packedbf16_S256x4096_S256x4096_0_0 : (Rect.unit (s := S256x4096) ![0, 0] S256x4096.size inb_S256x4096_S256x4096_0_0).PackedRows (EltTy.packing .bf16)
  inb_S512x512_S512x512_0_0 : ∀ a, (![0, 0] : Fin 2 → Nat) a + S512x512.size a ≤ S512x512.size a
  h_S512x512 : 0 < S512x512.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1024x512_S1024x512_0_0 : ∀ a, (![0, 0] : Fin 2 → Nat) a + S1024x512.size a ≤ S1024x512.size a
  h_S1024x512 : 0 < S1024x512.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S256x1024 : 0 < S256x1024.numel
  h_S1x1x1024 : 0 < S1x1x1024.numel
  shapeCasts_S1x1x1024_S1x1024 : S1x1x1024.ShapeCasts S1x1024
  broadcasts_S256x1_S256x1024 : S256x1.Broadcasts S256x1024
  concatenates_S256x1024_S256x1024_S512x1024_d0 : Shape.Concatenates [S256x1024, S256x1024] S512x1024 0
  reduces_S512x1024_S1024 : S512x1024.Reduces [0] S1024
  shapeCasts_S1024_S1x1024 : S1024.ShapeCasts S1x1024
  broadcasts_S1x1024_S512x1024 : S1x1024.Broadcasts S512x1024
  broadcasts_S512x1_S512x1024 : S512x1.Broadcasts S512x1024
  broadcasts_S1024x1_S1024x1024 : S1024x1.Broadcasts S1024x1024
  reduces_S1024x1024_S1024 : S1024x1024.Reduces [1] S1024
  transposes_S1024x1_p1_0_S1x1024 : S1024x1.Transposes [1, 0] S1x1024
  inb_S1x1x1024_S1x1x1024_0_0_0 : ∀ a, (![0, 0, 0] : Fin 3 → Nat) a + S1x1x1024.size a ≤ S1x1x1024.size a
  shapeCasts_S1x1024_S1x1x1024 : S1x1024.ShapeCasts S1x1x1024
  shapeCasts_S32x1x1024_S32x1024 : S32x1x1024.ShapeCasts S32x1024
  dot_S128x3_S3x4096_S128x4096_1_0_0_1_n_n_wf : DotDims.WF S128x3 S3x4096 S128x4096 [1] [0] [0] [1] [] []
  dot_S256x128_S128x4096_S256x4096_1_0_0_1_n_n_wf : DotDims.WF S256x128 S128x4096 S256x4096 [1] [0] [0] [1] [] []
  dot_S512x512_S512x1024_S512x1024_1_0_0_1_n_n_wf : DotDims.WF S512x512 S512x1024 S512x1024 [1] [0] [0] [1] [] []
  dot_S1024x512_S512x1024_S1024x1024_1_0_0_1_n_n_wf : DotDims.WF S1024x512 S512x1024 S1024x1024 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S256x1024.size a ≤ S256x4096.size a
  k0_off2_inb : ∀ k0_t1 : Fin k0_t1_loop.trips, ∀ a, (k0_off2 k0_t1) a + S1x1x1024.size a ≤ S1x1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x4096.size a ≤ S32x3x4096.size a
  hwx0_0 : ∀ i : grid0.Coords, EltTy.bits .f32 = 32 ∨ (Rect.block (s := S32x3x4096) S1x3x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S32x1x4096.size a
  hwx0_1 : ∀ i : grid0.Coords, EltTy.bits .i32 = 32 ∨ (Rect.block (s := S32x1x4096) S1x1x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x3.size a ≤ S128x3.size a
  hwx0_2 : ∀ i : grid0.Coords, EltTy.bits .f32 = 32 ∨ (Rect.block (s := S128x3) S128x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .f32 = 32 ∨ (Rect.block (s := S256x1) S256x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S512x1.size a
  hwx0_8 : ∀ i : grid0.Coords, EltTy.bits .f32 = 32 ∨ (Rect.block (s := S512x1) S512x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x1.size a ≤ S512x1.size a
  hwx0_9 : ∀ i : grid0.Coords, EltTy.bits .f32 = 32 ∨ (Rect.block (s := S512x1) S512x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x512.size a ≤ S1024x512.size a
  hwx0_10 : ∀ i : grid0.Coords, EltTy.bits .f32 = 32 ∨ (Rect.block (s := S1024x512) S1024x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x1.size a ≤ S1024x1.size a
  hwx0_11 : ∀ i : grid0.Coords, EltTy.bits .f32 = 32 ∨ (Rect.block (s := S1024x1) S1024x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x1024.size a ≤ S32x1x1024.size a
  hwx0_12 : ∀ i : grid0.Coords, EltTy.bits .f32 = 32 ∨ (Rect.block (s := S32x1x1024) S1x1x1024.size (cc0_transform_12 i) (hinb0_12 i)).WholeWords (EltTy.packing .f32)

variable [Facts₀]

def dot_S128x3_S3x4096_S128x4096_1_0_0_1_n_n : DotDims S128x3 S3x4096 S128x4096 where
  lhsContracting := [1]
  rhsContracting := [0]
  lhsNonContracting := [0]
  rhsNonContracting := [1]
  lhsBatch := []
  rhsBatch := []
  wf := dot_S128x3_S3x4096_S128x4096_1_0_0_1_n_n_wf
def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1x3x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S512x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S512x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1024x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S1024x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S1x1x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S32x4096x3 : Shape := ⟨3, ![32, 4096, 3]⟩
abbrev S32x1x4096 : Shape := ⟨3, ![32, 1, 4096]⟩
abbrev S128x3 : Shape := ⟨2, ![128, 3]⟩
abbrev S128 : Shape := ⟨1, ![128]⟩
abbrev S256x128 : Shape := ⟨2, ![256, 128]⟩
abbrev S256 : Shape := ⟨1, ![256]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S32x4096 : Shape := ⟨2, ![32, 4096]⟩
abbrev S_ : Shape := ⟨0, ![]⟩
abbrev S32x4096x1 : Shape := ⟨3, ![32, 4096, 1]⟩
abbrev S32x4096x128 : Shape := ⟨3, ![32, 4096, 128]⟩
abbrev S1x1x128 : Shape := ⟨3, ![1, 1, 128]⟩
abbrev S32x4096x256 : Shape := ⟨3, ![32, 4096, 256]⟩
abbrev S1x1x256 : Shape := ⟨3, ![1, 1, 256]⟩
abbrev S32x256 : Shape := ⟨2, ![32, 256]⟩
abbrev S32x1x256 : Shape := ⟨3, ![32, 1, 256]⟩
abbrev S32x4096x512 : Shape := ⟨3, ![32, 4096, 512]⟩
abbrev S1x1x512 : Shape := ⟨3, ![1, 1, 512]⟩
abbrev S32x4096x1024 : Shape := ⟨3, ![32, 4096, 1024]⟩
abbrev S1x1x1024 : Shape := ⟨3, ![1, 1, 1024]⟩
abbrev S32x1024 : Shape := ⟨2, ![32, 1024]⟩

abbrev nBuf : Space → Nat
  | .hbm => 103
  | .vmem => 0
  | .smem => 0
  | _ => 0

abbrev bufTy : (tb : Table) → Fin (tcTables nBuf tb) → BufTy
  | .hbm, ⟨0, _⟩ => ⟨S32x4096x3, .f32⟩
  | .hbm, ⟨1, _⟩ => ⟨S32x1x4096, .i32⟩
  | .hbm, ⟨2, _⟩ => ⟨S128x3, .f32⟩
  | .hbm, ⟨3, _⟩ => ⟨S128, .f32⟩
  | .hbm, ⟨4, _⟩ => ⟨S128, .f32⟩
  | .hbm, ⟨5, _⟩ => ⟨S256x128, .f32⟩
  | .hbm, ⟨6, _⟩ => ⟨S256, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S1024x512, .f32⟩
  | .hbm, ⟨11, _⟩ => ⟨S1024, .f32⟩
  | .hbm, ⟨12, _⟩ => ⟨S32x4096, .i32⟩
  | .hbm, ⟨13, _⟩ => ⟨S_, .i32⟩
  | .hbm, ⟨14, _⟩ => ⟨S32x4096, .i32⟩
  | .hbm, ⟨15, _⟩ => ⟨S32x4096, .i1⟩
  | .hbm, ⟨16, _⟩ => ⟨S32x4096, .f32⟩
  | .hbm, ⟨17, _⟩ => ⟨S32x4096x1, .f32⟩
  | .hbm, ⟨18, _⟩ => ⟨S32x4096x128, .f32⟩
  | .hbm, ⟨19, _⟩ => ⟨S_, .f32⟩
  | .hbm, ⟨20, _⟩ => ⟨S32x4096, .f32⟩
  | .hbm, ⟨21, _⟩ => ⟨S32x4096x1, .f32⟩
  | .hbm, ⟨22, _⟩ => ⟨S_, .f32⟩
  | .hbm, ⟨23, _⟩ => ⟨S32x4096x1, .f32⟩
  | .hbm, ⟨24, _⟩ => ⟨S32x4096x1, .f32⟩
  | .hbm, ⟨25, _⟩ => ⟨S32x4096x128, .f32⟩
  | .hbm, ⟨26, _⟩ => ⟨S32x4096x128, .f32⟩
  | .hbm, ⟨27, _⟩ => ⟨S32x4096x128, .f32⟩
  | .hbm, ⟨28, _⟩ => ⟨S_, .f32⟩
  | .hbm, ⟨29, _⟩ => ⟨S32x4096, .f32⟩
  | .hbm, ⟨30, _⟩ => ⟨S32x4096x1, .f32⟩
  | .hbm, ⟨31, _⟩ => ⟨S_, .f32⟩
  | .hbm, ⟨32, _⟩ => ⟨S32x4096x1, .f32⟩
  | .hbm, ⟨33, _⟩ => ⟨S32x4096x1, .f32⟩
  | .hbm, ⟨34, _⟩ => ⟨S32x4096x128, .f32⟩
  | .hbm, ⟨35, _⟩ => ⟨S32x4096x128, .f32⟩
  | .hbm, ⟨36, _⟩ => ⟨S_, .f32⟩
  | .hbm, ⟨37, _⟩ => ⟨S32x4096x1, .f32⟩
  | .hbm, ⟨38, _⟩ => ⟨S32x4096x1, .f32⟩
  | .hbm, ⟨39, _⟩ => ⟨S32x4096x1, .f32⟩
  | .hbm, ⟨40, _⟩ => ⟨S32x4096x128, .f32⟩
  | .hbm, ⟨41, _⟩ => ⟨S32x4096x128, .f32⟩
  | .hbm, ⟨42, _⟩ => ⟨S1x1x128, .f32⟩
  | .hbm, ⟨43, _⟩ => ⟨S32x4096x128, .f32⟩
  | .hbm, ⟨44, _⟩ => ⟨S32x4096x128, .f32⟩
  | .hbm, ⟨45, _⟩ => ⟨S1x1x128, .f32⟩
  | .hbm, ⟨46, _⟩ => ⟨S32x4096x128, .f32⟩
  | .hbm, ⟨47, _⟩ => ⟨S32x4096x128, .f32⟩
  | .hbm, ⟨48, _⟩ => ⟨S32x4096x128, .f32⟩
  | .hbm, ⟨49, _⟩ => ⟨S32x4096x128, .f32⟩
  | .hbm, ⟨50, _⟩ => ⟨S_, .f32⟩
  | .hbm, ⟨51, _⟩ => ⟨S32x4096x128, .f32⟩
  | .hbm, ⟨52, _⟩ => ⟨S32x4096x128, .f32⟩
  | .hbm, ⟨53, _⟩ => ⟨S32x4096x256, .f32⟩
  | .hbm, ⟨54, _⟩ => ⟨S1x1x256, .f32⟩
  | .hbm, ⟨55, _⟩ => ⟨S32x4096x256, .f32⟩
  | .hbm, ⟨56, _⟩ => ⟨S32x4096x256, .f32⟩
  | .hbm, ⟨57, _⟩ => ⟨S_, .f32⟩
  | .hbm, ⟨58, _⟩ => ⟨S32x256, .f32⟩
  | .hbm, ⟨59, _⟩ => ⟨S32x1x256, .f32⟩
  | .hbm, ⟨60, _⟩ => ⟨S32x4096x256, .f32⟩
  | .hbm, ⟨61, _⟩ => ⟨S32x4096x512, .f32⟩
  | .hbm, ⟨62, _⟩ => ⟨S32x4096x512, .f32⟩
  | .hbm, ⟨63, _⟩ => ⟨S_, .f32⟩
  | .hbm, ⟨64, _⟩ => ⟨S32x4096, .f32⟩
  | .hbm, ⟨65, _⟩ => ⟨S32x4096x1, .f32⟩
  | .hbm, ⟨66, _⟩ => ⟨S_, .f32⟩
  | .hbm, ⟨67, _⟩ => ⟨S32x4096x1, .f32⟩
  | .hbm, ⟨68, _⟩ => ⟨S32x4096x1, .f32⟩
  | .hbm, ⟨69, _⟩ => ⟨S32x4096x512, .f32⟩
  | .hbm, ⟨70, _⟩ => ⟨S32x4096x512, .f32⟩
  | .hbm, ⟨71, _⟩ => ⟨S32x4096x512, .f32⟩
  | .hbm, ⟨72, _⟩ => ⟨S_, .f32⟩
  | .hbm, ⟨73, _⟩ => ⟨S32x4096, .f32⟩
  | .hbm, ⟨74, _⟩ => ⟨S32x4096x1, .f32⟩
  | .hbm, ⟨75, _⟩ => ⟨S_, .f32⟩
  | .hbm, ⟨76, _⟩ => ⟨S32x4096x1, .f32⟩
  | .hbm, ⟨77, _⟩ => ⟨S32x4096x1, .f32⟩
  | .hbm, ⟨78, _⟩ => ⟨S32x4096x512, .f32⟩
  | .hbm, ⟨79, _⟩ => ⟨S32x4096x512, .f32⟩
  | .hbm, ⟨80, _⟩ => ⟨S_, .f32⟩
  | .hbm, ⟨81, _⟩ => ⟨S32x4096x1, .f32⟩
  | .hbm, ⟨82, _⟩ => ⟨S32x4096x1, .f32⟩
  | .hbm, ⟨83, _⟩ => ⟨S32x4096x1, .f32⟩
  | .hbm, ⟨84, _⟩ => ⟨S32x4096x512, .f32⟩
  | .hbm, ⟨85, _⟩ => ⟨S32x4096x512, .f32⟩
  | .hbm, ⟨86, _⟩ => ⟨S1x1x512, .f32⟩
  | .hbm, ⟨87, _⟩ => ⟨S32x4096x512, .f32⟩
  | .hbm, ⟨88, _⟩ => ⟨S32x4096x512, .f32⟩
  | .hbm, ⟨89, _⟩ => ⟨S1x1x512, .f32⟩
  | .hbm, ⟨90, _⟩ => ⟨S32x4096x512, .f32⟩
  | .hbm, ⟨91, _⟩ => ⟨S32x4096x512, .f32⟩
  | .hbm, ⟨92, _⟩ => ⟨S32x4096x512, .f32⟩
  | .hbm, ⟨93, _⟩ => ⟨S32x4096x512, .f32⟩
  | .hbm, ⟨94, _⟩ => ⟨S_, .f32⟩
  | .hbm, ⟨95, _⟩ => ⟨S32x4096x512, .f32⟩
  | .hbm, ⟨96, _⟩ => ⟨S32x4096x512, .f32⟩
  | .hbm, ⟨97, _⟩ => ⟨S32x4096x1024, .f32⟩
  | .hbm, ⟨98, _⟩ => ⟨S1x1x1024, .f32⟩
  | .hbm, ⟨99, _⟩ => ⟨S32x4096x1024, .f32⟩
  | .hbm, ⟨100, _⟩ => ⟨S32x4096x1024, .f32⟩
  | .hbm, ⟨101, _⟩ => ⟨S_, .f32⟩
  | .hbm, ⟨102, _⟩ => ⟨S32x1024, .f32⟩
  | _, _ => ⟨S32x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call0_cst : Ref sig .tc := ⟨.hbm, 50, rfl⟩
abbrev main_call0_v0 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_7 : Ref sig .tc := ⟨.hbm, 72, rfl⟩
abbrev main_v49 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_call1_cst : Ref sig .tc := ⟨.hbm, 94, rfl⟩
abbrev main_call1_v0 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_10 : Ref sig .tc := ⟨.hbm, 101, rfl⟩
abbrev main_v73 : Ref sig .tc := ⟨.hbm, 102, rfl⟩

abbrev nD : Nat := 1
abbrev τ : Topo := Topo.v7x

variable {F : FTy → Type} [FloatOps F]

class Facts₀ : Prop where
  shapeCasts_S32x1x4096_S32x4096 : S32x1x4096.ShapeCasts S32x4096
  bcast_S_S32x4096 : S_.BroadcastsInDim S32x4096 (![] : Fin 0 → Fin S32x4096.rank)
  bcast_S32x4096_S32x4096x1_0_1 : S32x4096.BroadcastsInDim S32x4096x1 (![0, 1] : Fin 2 → Fin S32x4096x1.rank)
  reducesTo_S32x4096x128_S32x4096_d2 : S32x4096x128.ReducesTo [2] S32x4096
  h_S_ : 0 < S_.numel
  bcast_S_S32x4096x1 : S_.BroadcastsInDim S32x4096x1 (![] : Fin 0 → Fin S32x4096x1.rank)
  bcast_S32x4096x1_S32x4096x128_0_1_2 : S32x4096x1.BroadcastsInDim S32x4096x128 (![0, 1, 2] : Fin 3 → Fin S32x4096x128.rank)
  bcast_S128_S1x1x128_2 : S128.BroadcastsInDim S1x1x128 (![2] : Fin 1 → Fin S1x1x128.rank)
  bcast_S1x1x128_S32x4096x128_0_1_2 : S1x1x128.BroadcastsInDim S32x4096x128 (![0, 1, 2] : Fin 3 → Fin S32x4096x128.rank)
  bcast_S_S32x4096x128 : S_.BroadcastsInDim S32x4096x128 (![] : Fin 0 → Fin S32x4096x128.rank)
  bcast_S256_S1x1x256_2 : S256.BroadcastsInDim S1x1x256 (![2] : Fin 1 → Fin S1x1x256.rank)
  bcast_S1x1x256_S32x4096x256_0_1_2 : S1x1x256.BroadcastsInDim S32x4096x256 (![0, 1, 2] : Fin 3 → Fin S32x4096x256.rank)
  reducesTo_S32x4096x256_S32x256_d1 : S32x4096x256.ReducesTo [1] S32x256
  bcast_S32x256_S32x1x256_0_2 : S32x256.BroadcastsInDim S32x1x256 (![0, 2] : Fin 2 → Fin S32x1x256.rank)
  bcast_S32x1x256_S32x4096x256_0_1_2 : S32x1x256.BroadcastsInDim S32x4096x256 (![0, 1, 2] : Fin 3 → Fin S32x4096x256.rank)
  concatenates_S32x4096x256_S32x4096x256_S32x4096x512_d2 : Shape.Concatenates [S32x4096x256, S32x4096x256] S32x4096x512 2
  reducesTo_S32x4096x512_S32x4096_d2 : S32x4096x512.ReducesTo [2] S32x4096
  bcast_S32x4096x1_S32x4096x512_0_1_2 : S32x4096x1.BroadcastsInDim S32x4096x512 (![0, 1, 2] : Fin 3 → Fin S32x4096x512.rank)
  bcast_S512_S1x1x512_2 : S512.BroadcastsInDim S1x1x512 (![2] : Fin 1 → Fin S1x1x512.rank)
  bcast_S1x1x512_S32x4096x512_0_1_2 : S1x1x512.BroadcastsInDim S32x4096x512 (![0, 1, 2] : Fin 3 → Fin S32x4096x512.rank)
  bcast_S_S32x4096x512 : S_.BroadcastsInDim S32x4096x512 (![] : Fin 0 → Fin S32x4096x512.rank)
  bcast_S1024_S1x1x1024_2 : S1024.BroadcastsInDim S1x1x1024 (![2] : Fin 1 → Fin S1x1x1024.rank)
  bcast_S1x1x1024_S32x4096x1024_0_1_2 : S1x1x1024.BroadcastsInDim S32x4096x1024 (![0, 1, 2] : Fin 3 → Fin S32x4096x1024.rank)
  reducesTo_S32x4096x1024_S32x1024_d1 : S32x4096x1024.ReducesTo [1] S32x1024
  dot_S32x4096x3_S128x3_S32x4096x128_2_1_01_0_n_n_wf : DotDims.WF S32x4096x3 S128x3 S32x4096x128 [2] [1] [0, 1] [0] [] []
  dot_S32x4096x128_S256x128_S32x4096x256_2_1_01_0_n_n_wf : DotDims.WF S32x4096x128 S256x128 S32x4096x256 [2] [1] [0, 1] [0] [] []
  dot_S32x4096x512_S512x512_S32x4096x512_2_1_01_0_n_n_wf : DotDims.WF S32x4096x512 S512x512 S32x4096x512 [2] [1] [0, 1] [0] [] []
  dot_S32x4096x512_S1024x512_S32x4096x1024_2_1_01_0_n_n_wf : DotDims.WF S32x4096x512 S1024x512 S32x4096x1024 [2] [1] [0, 1] [0] [] []

variable [Facts₀]

def dot_S32x4096x3_S128x3_S32x4096x128_2_1_01_0_n_n : DotDims S32x4096x3 S128x3 S32x4096x128 where
  lhsContracting := [2]
  rhsContracting := [1]
  lhsNonContracting := [0, 1]
  rhsNonContracting := [0]
  lhsBatch := []
  rhsBatch := []
  wf := dot_S32x4096x3_S128x3_S32x4096x128_2_1_01_0_n_n_wf
def dot_S32x4096x128_S256x128_S32x4096x256_2_1_01_0_n_n : DotDims S32x4096x128 S256x128 S32x4096x256 where
  lhsContracting := [2]
  rhsContracting := [1]
  lhsNonContracting := [0, 1]
  rhsNonContracting := [0]
  lhsBatch := []
  rhsBatch := []
  wf := dot_S32x4096x128_S256x128_S32x4096x256_2_1_01_0_n_n_wf
def dot_S32x4096x512_S512x512_S32x4096x512_2_1_01_0_n_n : DotDims S32x4096x512 S512x512 S32x4096x512 where
  lhsContracting := [2]
  rhsContracting := [1]
  lhsNonContracting := [0, 1]
  rhsNonContracting := [0]
  lhsBatch := []
  rhsBatch := []
  wf := dot_S32x4096x512_S512x512_S32x4096x512_2_1_01_0_n_n_wf
def dot_S32x4096x512_S1024x512_S32x4096x1024_2_1_01_0_n_n : DotDims S32x4096x512 S1024x512 S32x4096x1024 where
  lhsContracting := [2]
  rhsContracting := [1]
  lhsNonContracting := [0, 1]
  rhsNonContracting := [0]
  lhsBatch := []
  rhsBatch := []
  wf := dot_S32x4096x512_S1024x512_S32x4096x1024_2_1_01_0_n_n_wf

class Facts : Prop extends Facts₀ where

variable [Facts]
-- ==== Proof.KernelOpen.lean ====
import proofs.«116878_j73383811219637_2_alg».proof.Proof.Gen.KernelIdeal.Frame
import Idealize.ShloMosaic.PureOps.Ideal
import Idealize.ShloMosaic.Lib.Pipeline.Value
import Idealize.ShloMosaic.Lib.ValueIdx

set_option maxRecDepth 16384

/-
  What the kernel body leaves in its output block, opened once.

  On whole staging buffers holding the blocks `x0 … x11`, the body stores one piece into the output block: the column
  of running maxima after the loop's last trip, laid out as a row.  The loop starts from the splat of minus infinity and
  each trip takes the larger of the carried column and the row maxima of the second half of the network on one block
  of 1024 points, read from the kept second mix and from the mask block at the trip's offset.
-/
noncomputable section

namespace Cert.KernelIdeal.Open

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

theorem hz3 : (![0, 0, 0] : Fin 3 → Nat) = fun _ => 0 := funext fun a => by fin_cases a <;> rfl
theorem hz2 : (![0, 0] : Fin 2 → Nat) = fun _ => 0 := funext fun a => by fin_cases a <;> rfl

/-- One trip's yield: the larger of the carried column and the row maxima of the second half on the trip's block. -/
theorem tripR_eq (𝒱 : Variants) (c : Dev nD) (bd : Option 𝒱.V) (i : grid0.Coords) (arg1 : Memref sig .tc .vmem S1x3x4096 .f32) (harg1 : arg1.IsWhole) (arg2 : Memref sig .tc .vmem S1x1x4096 .i32) (harg2 : arg2.IsWhole) (arg3 : Memref sig .tc .vmem S128x3 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S256x128 .f32) (harg6 : arg6.IsWhole) (arg7 : Memref sig .tc .vmem S256x1 .f32) (harg7 : arg7.IsWhole) (arg8 : Memref sig .tc .vmem S512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S1024x512 .f32) (harg11 : arg11.IsWhole) (arg12 : Memref sig .tc .vmem S1024x1 .f32) (harg12 : arg12.IsWhole) (arg13 : Memref sig .tc .vmem S1x1x1024 .f32) (harg13 : arg13.IsWhole) (arg14 : Memref sig .tc .vmem S256x4096 .bf16) (harg14 : arg14.IsWhole) (v39 : FVec Ideal S128x4096 .f32) (v42 : Vec Ideal S256x128 .f32) (v46 : Vec Ideal S256x1 .f32) (v57 : Vec Ideal S512x512 .f32) (v59 : Vec Ideal S512x1 .f32) (v61 : Vec Ideal S512x1 .f32) (v63 : Vec Ideal S1024x512 .f32) (v65 : Vec Ideal S1024x1 .f32) (X_arg2 : BufTy.Contents (Elt Ideal) arg2.view.ty) (X_arg14 : BufTy.Contents (Elt Ideal) arg14.view.ty) (k : Fin k0_t1_loop.trips) (acc : FVec Ideal S1024x1 .f32) :
    tripR_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v39 v42 v46 v57 v59 v61 v63 v65 X_arg2 X_arg14 k acc
      = k0_pay13 (F := Ideal) acc (k0_pay2 (F := Ideal) (k0_pay5 v39 v42 v46) (k0_pay7 v57) (k0_pay8 v59) (k0_pay9 v61) (k0_pay10 v63) (k0_pay11 v65)
          (View.readAt (Elt Ideal) arg14.view (Rect.unit (s := S256x4096) (k0_off1 k) S256x1024.size (k0_off1_inb k)).toLoadRect X_arg14)
          (View.readAt (Elt Ideal) arg2.view (Rect.unit (s := S1x1x4096) (k0_off2 k) S1x1x1024.size (k0_off2_inb k)).toLoadRect X_arg2)) := by
  show (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v39 v42 v46 v57 v59 v61 v63 v65 X_arg2 X_arg14 k).1 acc = _
  unfold trip_k0_t1
  dsimp only
  sl_unfold_run_names
  rfl

/-- The output block after the body: the last carried column, as a row. -/
theorem out0_eq (c : Dev nD) (i : grid0.Coords) (arg1 : Memref sig .tc .vmem S1x3x4096 .f32) (harg1 : arg1.IsWhole) (arg2 : Memref sig .tc .vmem S1x1x4096 .i32) (harg2 : arg2.IsWhole) (arg3 : Memref sig .tc .vmem S128x3 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S256x128 .f32) (harg6 : arg6.IsWhole) (arg7 : Memref sig .tc .vmem S256x1 .f32) (harg7 : arg7.IsWhole) (arg8 : Memref sig .tc .vmem S512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S1024x512 .f32) (harg11 : arg11.IsWhole) (arg12 : Memref sig .tc .vmem S1024x1 .f32) (harg12 : arg12.IsWhole) (arg13 : Memref sig .tc .vmem S1x1x1024 .f32) (harg13 : arg13.IsWhole) (arg14 : Memref sig .tc .vmem S256x4096 .bf16) (harg14 : arg14.IsWhole)
    (x0 : Vec Ideal S1x3x4096 .f32) (x1 : Vec Ideal S1x1x4096 .i32) (x2 : Vec Ideal S128x3 .f32) (x3 : Vec Ideal S128x1 .f32) (x4 : Vec Ideal S128x1 .f32) (x5 : Vec Ideal S256x128 .f32) (x6 : Vec Ideal S256x1 .f32) (x7 : Vec Ideal S512x512 .f32) (x8 : Vec Ideal S512x1 .f32) (x9 : Vec Ideal S512x1 .f32) (x10 : Vec Ideal S1024x512 .f32) (x11 : Vec Ideal S1024x1 .f32) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11
      = k0_pay1 (F := Ideal) (k0_pay14 (F := Ideal) (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
          (k0_pay3 (F := Ideal) x0 x1 x2 x3 x4) x5 x6 x7 x8 x9 x10 x11 (harg2.unread x1) (arg14.view.writes (Elt Ideal) arg14.view.junk [⟨Rect.unit (s := S256x4096) ![0, 0] S256x4096.size inb_S256x4096_S256x4096_0_0, k0_pay6 (F := Ideal) (k0_pay3 (F := Ideal) x0 x1 x2 x3 x4) x5 x6⟩])
          (k0_pay12 (F := Ideal)) (Scf.trips k0_t1_loop.lb k0_t1_loop.ub k0_t1_loop.st))) := by
  unfold out0_A_12
  rw [View.read_writes_eq_canon _ _ _ (cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11)]
  unfold kernelRun0_A
  dsimp only
  sl_unfold_run_names
  rw [View.canon_unit_zero hz3]
  simp only [View.readAt_eq_ld, harg1.read_unread, harg2.read_unread, harg3.read_unread, harg4.read_unread, harg5.read_unread,
    harg6.read_unread, harg7.read_unread, harg8.read_unread, harg9.read_unread, harg10.read_unread, harg11.read_unread,
    harg12.read_unread, View.ld_unit_zero (S := S1x3x4096) hz3, View.ld_unit_zero (S := S1x1x4096) hz3,
    View.ld_unit_zero (S := S128x3) hz2, View.ld_unit_zero (S := S128x1) hz2, View.ld_unit_zero (S := S256x128) hz2,
    View.ld_unit_zero (S := S256x1) hz2, View.ld_unit_zero (S := S512x512) hz2, View.ld_unit_zero (S := S512x1) hz2,
    View.ld_unit_zero (S := S1024x512) hz2, View.ld_unit_zero (S := S1024x1) hz2]

/-- The loop runs four trips. -/
theorem trips_eq : Scf.trips k0_t1_loop.lb k0_t1_loop.ub k0_t1_loop.st = 4 := by decide

/-- A trip's block of the kept array: columns `1024 · k + j` of what the one whole store left there. -/
theorem scratch_read (arg14 : Memref sig .tc .vmem S256x4096 .bf16) (harg14 : arg14.IsWhole)
    (w : FVec Ideal S256x4096 .bf16) (kf : Fin k0_t1_loop.trips) (o : Fin 256) (j : Fin 1024)
    (hj : 1024 * kf.val + j.val < 4096) :
    View.readAt (Elt Ideal) arg14.view (Rect.unit (s := S256x4096) (k0_off1 kf) S256x1024.size (k0_off1_inb kf)).toLoadRect
        (arg14.view.writes (Elt Ideal) arg14.view.junk
          [⟨Rect.unit (s := S256x4096) ![0, 0] S256x4096.size inb_S256x4096_S256x4096_0_0, w⟩]) (ValueIdx.ix2 o j)
      = w (ValueIdx.ix2 o (⟨1024 * kf.val + j.val, hj⟩ : Fin 4096)) := by
  rw [View.readAt_eq_ld, View.read_writes_eq_canon _ _ _ (fun y => ⟨_, List.mem_singleton_self _, View.mem_set_unit_zero hz2 inb_S256x4096_S256x4096_0_0 y⟩),
    View.canon_unit_zero hz2]
  show w ((Rect.unit (s := S256x4096) (k0_off1 kf) S256x1024.size (k0_off1_inb kf)).idx (ValueIdx.ix2 o j)) = _
  refine congrArg w (funext fun a => Fin.ext ?_)
  match a with
  | ⟨0, _⟩ =>
    show k0_off1 kf 0 + 1 * o.val = o.val
    rw [k0_off1_eq]; simp
  | ⟨1, _⟩ =>
    show k0_off1 kf 1 + 1 * j.val = 1024 * kf.val + j.val
    rw [k0_off1_eq]; simp

/-- A trip's block of the mask: words `1024 · k + j` of the mask block. -/
theorem mask_read (arg2 : Memref sig .tc .vmem S1x1x4096 .i32) (harg2 : arg2.IsWhole) (x1 : Vec Ideal S1x1x4096 .i32)
    (kf : Fin k0_t1_loop.trips) (j : Fin 1024) (hj : 1024 * kf.val + j.val < 4096) :
    View.readAt (Elt Ideal) arg2.view (Rect.unit (s := S1x1x4096) (k0_off2 kf) S1x1x1024.size (k0_off2_inb kf)).toLoadRect
        (harg2.unread x1) (ValueIdx.ix3 (0 : Fin 1) (0 : Fin 1) j)
      = x1 (ValueIdx.ix3 (0 : Fin 1) (0 : Fin 1) (⟨1024 * kf.val + j.val, hj⟩ : Fin 4096)) := by
  rw [View.readAt_eq_ld, harg2.read_unread]
  show x1 ((Rect.unit (s := S1x1x4096) (k0_off2 kf) S1x1x1024.size (k0_off2_inb kf)).idx (ValueIdx.ix3 (0 : Fin 1) (0 : Fin 1) j)) = _
  refine congrArg x1 (funext fun a => Fin.ext ?_)
  match a with
  | ⟨0, _⟩ =>
    show k0_off2 kf 0 + 1 * 0 = 0
    rw [k0_off2_eq]; simp
  | ⟨1, _⟩ =>
    show k0_off2 kf 1 + 1 * 0 = 0
    rw [k0_off2_eq]; simp
  | ⟨2, _⟩ =>
    show k0_off2 kf 2 + 1 * j.val = 1024 * kf.val + j.val
    rw [k0_off2_eq]; simp

end Cert.KernelIdeal.Open
end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibChannelNorm.lean ====
/-
  Normalising a matrix along its first axis — general in the extents.

  An `a × b` matrix holds `a` channels (rows) at `b` points (columns).  Each column is centred by its mean over the
  channels, divided by the square root of its variance plus a constant (multiplied by the reciprocal square root),
  scaled by a per-channel gain, shifted by a per-channel offset and multiplied by a per-point factor.  Read at entry
  `(k, n)` this is `norm` of column `n` at channel `k`: a function of the column's `a` entries alone.  The mean and the
  variance are sums over the channels divided by a constant; over the extended reals the sums are plain finite sums.
-/
import Idealize.ShloMosaic.Lib.ValueIdx
import Idealize.ShloMosaic.Lib.ValueLayout
import Idealize.ShloMosaic.Lib.Pipeline.Value
import Idealize.ShloMosaic.PureOps.Ideal.Laws
import proofs.«116878_j73383811219637_2_alg».proof.Proof.LibColumns

noncomputable section

open scoped BigOperators

namespace Cert.LibNorm

open Idealize.ShloMosaic Idealize.ShloMosaic.ValueIdx

/-- One entry of a normalised vector of `K` channels: `((h k − μ) · rsqrt (σ² + eps) · g k + be k) · vis` with
    `μ = (∑ h) / cnt` and `σ² = (∑ (h − μ)²) / cnt`. -/
def norm {K : ℕ} (h g be : Fin K → EReal) (cnt eps vis : EReal) (k : Fin K) : EReal :=
  ((h k - Ideal.div (∑ j, h j) cnt)
      * Ideal.rsqrt (Ideal.div (∑ j, (h j - Ideal.div (∑ i, h i) cnt) * (h j - Ideal.div (∑ i, h i) cnt)) cnt + eps)
      * g k + be k) * vis

/-- A normalised entry depends on the vector, the gains and the offsets only through their values. -/
theorem norm_congr {K : ℕ} {h h' g g' be be' : Fin K → EReal} {cnt eps vis vis' : EReal}
    (hh : ∀ j, h j = h' j) (hg : ∀ j, g j = g' j) (hb : ∀ j, be j = be' j) (hv : vis = vis') (k : Fin K) :
    norm h g be cnt eps vis k = norm h' g' be' cnt eps vis' k := by
  have e1 : h = h' := funext hh
  have e2 : g = g' := funext hg
  have e3 : be = be' := funext hb
  rw [e1, e2, e3, hv]

variable {a b : ℕ}

/-- Over the extended reals the sum of an `a × b` matrix along its first axis reads, at `n`, `∑ₖ src (k, n)`. -/
theorem colSum_apply {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (n : Fin b) :
    multiReduction .add [0] ⟨1, ![b]⟩ src acc h hφ hacc (ix1 n) = ∑ k : Fin a, src (ix2 k n) := by
  refine (Ideal.multiReduction_add_single src acc h hφ hacc (ix1 n)).trans ?_
  refine Finset.sum_congr rfl fun k _ => congrArg src ?_
  funext c
  apply Fin.ext
  match c with
  | ⟨0, _⟩ => rfl
  | ⟨1, _⟩ => rfl

/-- The reciprocal square root of a vector, entry by entry. -/
theorem rsqrt_apply {s : Shape} {φ : FTy} (v : FVec Ideal s φ) (i : s.Idx) : rsqrt v i = Ideal.rsqrt (v i) := rfl

/-- The normalisation along the first axis as a vector unit spells it: column sums (`colsum`, the unit's reduction
    over the first axis), a cast of the row of sums to `1 × b`, a division by a splat constant, the row spread over the
    channels, and so on. -/
def normCols (colsum : FVec Ideal ⟨2, ![a, b]⟩ .f32 → FVec Ideal ⟨1, ![b]⟩ .f32)
    (h : FVec Ideal ⟨2, ![a, b]⟩ .f32) (g be : FVec Ideal ⟨2, ![a, 1]⟩ .f32) (vis : FVec Ideal ⟨2, ![1, b]⟩ .f32)
    (cw ew : BitVec 32)
    (hsc : (⟨1, ![b]⟩ : Shape).ShapeCasts ⟨2, ![1, b]⟩)
    (hb1 : (⟨2, ![1, b]⟩ : Shape).Broadcasts ⟨2, ![a, b]⟩)
    (hba : (⟨2, ![a, 1]⟩ : Shape).Broadcasts ⟨2, ![a, b]⟩) : FVec Ideal ⟨2, ![a, b]⟩ .f32 :=
  have v12 : FVec Ideal ⟨1, ![b]⟩ .f32 := colsum h
  have v13 : FVec Ideal ⟨2, ![1, b]⟩ .f32 := shapeCast ⟨2, ![1, b]⟩ v12 hsc
  have cst_8 : Ideal .f32 := Scalar.ofBits .f32 cw
  have v14 : FVec Ideal ⟨2, ![1, b]⟩ .f32 := broadcast ⟨2, ![1, b]⟩ cst_8
  have v15 : FVec Ideal ⟨2, ![1, b]⟩ .f32 := divf v13 v14
  have v16 : FVec Ideal ⟨2, ![a, b]⟩ .f32 := broadcastTo ⟨2, ![a, b]⟩ v15 hb1
  have v17 : FVec Ideal ⟨2, ![a, b]⟩ .f32 := subf h v16
  have v18 : FVec Ideal ⟨2, ![a, b]⟩ .f32 := mulf v17 v17
  have v19 : FVec Ideal ⟨1, ![b]⟩ .f32 := colsum v18
  have v20 : FVec Ideal ⟨2, ![1, b]⟩ .f32 := shapeCast ⟨2, ![1, b]⟩ v19 hsc
  have cst_10 : Ideal .f32 := Scalar.ofBits .f32 cw
  have v21 : FVec Ideal ⟨2, ![1, b]⟩ .f32 := broadcast ⟨2, ![1, b]⟩ cst_10
  have v22 : FVec Ideal ⟨2, ![1, b]⟩ .f32 := divf v20 v21
  have v23 : FVec Ideal ⟨2, ![a, b]⟩ .f32 := broadcastTo ⟨2, ![a, b]⟩ v15 hb1
  have v24 : FVec Ideal ⟨2, ![a, b]⟩ .f32 := subf h v23
  have cst_11 : Ideal .f32 := Scalar.ofBits .f32 ew
  have v25 : FVec Ideal ⟨2, ![1, b]⟩ .f32 := broadcast ⟨2, ![1, b]⟩ cst_11
  have v26 : FVec Ideal ⟨2, ![1, b]⟩ .f32 := addf v22 v25
  have v27 : FVec Ideal ⟨2, ![1, b]⟩ .f32 := rsqrt v26
  have v28 : FVec Ideal ⟨2, ![a, b]⟩ .f32 := broadcastTo ⟨2, ![a, b]⟩ v27 hb1
  have v29 : FVec Ideal ⟨2, ![a, b]⟩ .f32 := mulf v24 v28
  have v32 : FVec Ideal ⟨2, ![a, b]⟩ .f32 := broadcastTo ⟨2, ![a, b]⟩ g hba
  have v33 : FVec Ideal ⟨2, ![a, b]⟩ .f32 := mulf v29 v32
  have v36 : FVec Ideal ⟨2, ![a, b]⟩ .f32 := broadcastTo ⟨2, ![a, b]⟩ be hba
  have v37 : FVec Ideal ⟨2, ![a, b]⟩ .f32 := addf v33 v36
  have v38 : FVec Ideal ⟨2, ![a, b]⟩ .f32 := broadcastTo ⟨2, ![a, b]⟩ vis hb1
  have v39 : FVec Ideal ⟨2, ![a, b]⟩ .f32 := mulf v37 v38
  v39

/-- Entry `(k, n)` of the normalised matrix is `norm` of column `n` at channel `k`, whenever `colsum` sums the columns. -/
theorem normCols_apply (colsum : FVec Ideal ⟨2, ![a, b]⟩ .f32 → FVec Ideal ⟨1, ![b]⟩ .f32)
    (hcs : ∀ (src : FVec Ideal ⟨2, ![a, b]⟩ .f32) (n : Fin b), colsum src (ix1 n) = ∑ k : Fin a, src (ix2 k n))
    (h : FVec Ideal ⟨2, ![a, b]⟩ .f32) (g be : FVec Ideal ⟨2, ![a, 1]⟩ .f32)
    (vis : FVec Ideal ⟨2, ![1, b]⟩ .f32) (cw ew : BitVec 32)
    (hsc : (⟨1, ![b]⟩ : Shape).ShapeCasts ⟨2, ![1, b]⟩)
    (hb1 : (⟨2, ![1, b]⟩ : Shape).Broadcasts ⟨2, ![a, b]⟩)
    (hba : (⟨2, ![a, 1]⟩ : Shape).Broadcasts ⟨2, ![a, b]⟩) (k : Fin a) (n : Fin b) :
    normCols colsum h g be vis cw ew hsc hb1 hba (ix2 k n)
      = norm (fun j => h (ix2 j n)) (fun j => g (ix2 j (0 : Fin 1))) (fun j => be (ix2 j (0 : Fin 1)))
          (Ideal.ofBits .f32 cw) (Ideal.ofBits .f32 ew) (vis (ix2 (0 : Fin 1) n)) k := by
  unfold normCols norm
  simp only [mulf_apply, addf_apply, subf_apply, divf_apply, rsqrt_apply, broadcast_apply,
    broadcastTo_1b_ab_apply, Cert.LibColumns.broadcastTo_a1_ab_apply, shapeCast_a_1a_apply, hcs]
  rfl

end Cert.LibNorm

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.LibRowMax.lean ====
/-
  The largest entry of each row of a matrix, read at an index — general in the extents.

  Over the extended reals the maximum of an `n × m` matrix along its second axis reads, at `p`, the fold of `max`, from the
  accumulator's value, over the entries `(p, k)` of row `p`: `max` is commutative and associative, so the order in which the
  row is folded does not matter.
-/
import Idealize.ShloMosaic.Lib.ValueIdx
import Idealize.ShloMosaic.PureOps.Ideal.Laws

noncomputable section

namespace Cert.LibRowMax

open Idealize.ShloMosaic Idealize.ShloMosaic.ValueIdx

/-- Over the extended reals the maximum of an `n × m` matrix along its second axis reads, at `p`, the fold of `max` from the
    accumulator's value over `k` of the entries `(p, k)`. -/
theorem rowMax_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ)
    (p : Fin n) :
    multiReduction .maximumf [1] ⟨1, ![n]⟩ src acc h hφ hacc (ix1 p)
      = (Finset.univ : Finset (Fin m)).fold max (Ideal.ofBits φ acc) (fun k : Fin m => src (ix2 p k)) := by
  refine (Ideal.multiReduction_maximumf_single src acc h hφ hacc (ix1 p)).trans ?_
  have hf : (src ∘ h.lift (ix1 p)) = fun k : Fin m => src (ix2 p k) := funext fun k => congrArg src
    (funext fun c => Fin.ext (by match c with | ⟨0, _⟩ => rfl | ⟨1, _⟩ => rfl))
  exact congrArg (fun f => Finset.fold max (Ideal.ofBits φ acc) f (Finset.univ : Finset (Fin m))) hf

end Cert.LibRowMax

end
-- ==== Proof.LibChannelOps.lean ====
/-
  Two matrices stacked along the first axis, read at an index — general in the extents.

  An `A1 × b` matrix on top of an `A2 × b` matrix is an `A × b` matrix whose rows below `A1` are the first matrix's
  and whose rows from `A1` on are the second's.
-/
import Idealize.ShloMosaic.Lib.ValueIdx
import Idealize.ShloMosaic.Lib.Pipeline.Value

noncomputable section

namespace Cert.LibChannelOps

open Idealize.ShloMosaic Idealize.ShloMosaic.ValueIdx

variable {A A1 A2 b : ℕ} {α : Type}

/-- Rows below the first matrix's extent are the first matrix's. -/
theorem concatRows_left (x₁ : (⟨2, ![A1, b]⟩ : Shape).Idx → α) (x₂ : (⟨2, ![A2, b]⟩ : Shape).Idx → α)
    (h : Shape.Concatenates [(⟨2, ![A1, b]⟩ : Shape), (⟨2, ![A2, b]⟩ : Shape)] (⟨2, ![A, b]⟩ : Shape) 0)
    (q : Fin A) (n : Fin b) (hq : q.val < A1) :
    concatenate (⟨2, ![A, b]⟩ : Shape) 0 [⟨_, x₁⟩, ⟨_, x₂⟩] h (ix2 q n) = x₁ (ix2 ⟨q.val, hq⟩ n) :=
  concatenate_pair_apply_left 0 x₁ x₂ h (ix2 q n) rfl (ix2 ⟨q.val, hq⟩ n) (fun c => by
    match c with
    | ⟨0, _⟩ => rfl
    | ⟨1, _⟩ => rfl)

/-- Rows from the first matrix's extent on are the second matrix's. -/
theorem concatRows_right (x₁ : (⟨2, ![A1, b]⟩ : Shape).Idx → α) (x₂ : (⟨2, ![A2, b]⟩ : Shape).Idx → α)
    (h : Shape.Concatenates [(⟨2, ![A1, b]⟩ : Shape), (⟨2, ![A2, b]⟩ : Shape)] (⟨2, ![A, b]⟩ : Shape) 0)
    (q : Fin A) (n : Fin b) (hq : A1 ≤ q.val) (hlt : q.val - A1 < A2) :
    concatenate (⟨2, ![A, b]⟩ : Shape) 0 [⟨_, x₁⟩, ⟨_, x₂⟩] h (ix2 q n) = x₂ (ix2 ⟨q.val - A1, hlt⟩ n) :=
  concatenate_pair_apply_right 0 x₁ x₂ h (ix2 q n) rfl rfl (ix2 ⟨q.val - A1, hlt⟩ n) (fun c hc => by
    match c with
    | ⟨0, _⟩ => exact absurd rfl hc
    | ⟨1, _⟩ => rfl) (by
    show (q.val - A1) + A1 = q.val
    omega)

end Cert.LibChannelOps

end
-- ==== Proof.KernelStages.lean ====
/-
  The kernel body's values read at an index.

  One grid point handles one cloud, channels on the rows and points on the columns.  Its values, as functions of the
  blocks it loads: the first mix normalised over the channels and masked (`k0_pay3`), the rectifier and the second mix
  with its bias (`k0_pay4`), each of its rows' maximum over the points (`k0_pay5`), and, for a block of 1024 points,
  that column of maxima stacked on the block's columns, mixed, normalised, masked, rectified, mixed again with a bias
  (`k0_pay2`), whose row maxima are folded into a running maximum (`k0_pay13`).  Changes of float format are the
  identity on the extended reals.
-/
import proofs.«116878_j73383811219637_2_alg».proof.Proof.Gen.KernelIdeal.Skeleton
import proofs.«116878_j73383811219637_2_alg».proof.Proof.LibChannelNorm
import proofs.«116878_j73383811219637_2_alg».proof.Proof.LibPlainDot
import proofs.«116878_j73383811219637_2_alg».proof.Proof.LibRowMax
import proofs.«116878_j73383811219637_2_alg».proof.Proof.LibChannelOps
import Idealize.ShloMosaic.Lib.ValueLayout

noncomputable section

open scoped BigOperators

namespace Cert.KernelIdeal.Stages

open Cert.KernelIdeal Cert.KernelIdeal.Gen
open Idealize.ShloMosaic Idealize.ShloMosaic.ValueIdx Cert.LibNorm

theorem k1_l0 (i : S128x4096.Idx) (q : dot_S128x3_S3x4096_S128x4096_1_0_0_1_n_n.contr.Idx) : (dot_S128x3_S3x4096_S128x4096_1_0_0_1_n_n.lhsIdx i q 0).val = (i 0).val := by
  unfold DotDims.lhsIdx
  rw [dif_neg (show ¬(0 : Fin S128x3.rank) ∈ dot_S128x3_S3x4096_S128x4096_1_0_0_1_n_n.lhsBatch by decide), dif_pos (show (0 : Fin S128x3.rank) ∈ dot_S128x3_S3x4096_S128x4096_1_0_0_1_n_n.lhsNonContracting by decide)]
  rfl
theorem k1_l1 (i : S128x4096.Idx) (q : dot_S128x3_S3x4096_S128x4096_1_0_0_1_n_n.contr.Idx) : (dot_S128x3_S3x4096_S128x4096_1_0_0_1_n_n.lhsIdx i q 1).val = (q ⟨0, by decide⟩).val :=
  dot_S128x3_S3x4096_S128x4096_1_0_0_1_n_n.lhsIdx_val_of_single rfl i q
theorem k1_r0 (i : S128x4096.Idx) (q : dot_S128x3_S3x4096_S128x4096_1_0_0_1_n_n.contr.Idx) : (dot_S128x3_S3x4096_S128x4096_1_0_0_1_n_n.rhsIdx i q 0).val = (q ⟨0, by decide⟩).val :=
  dot_S128x3_S3x4096_S128x4096_1_0_0_1_n_n.rhsIdx_val_of_single rfl i q
theorem k1_r1 (i : S128x4096.Idx) (q : dot_S128x3_S3x4096_S128x4096_1_0_0_1_n_n.contr.Idx) : (dot_S128x3_S3x4096_S128x4096_1_0_0_1_n_n.rhsIdx i q 1).val = (i 1).val := by
  unfold DotDims.rhsIdx
  rw [dif_neg (show ¬(1 : Fin S3x4096.rank) ∈ dot_S128x3_S3x4096_S128x4096_1_0_0_1_n_n.rhsBatch by decide), dif_pos (show (1 : Fin S3x4096.rank) ∈ dot_S128x3_S3x4096_S128x4096_1_0_0_1_n_n.rhsNonContracting by decide)]
  rfl

theorem k2_l0 (i : S256x4096.Idx) (q : dot_S256x128_S128x4096_S256x4096_1_0_0_1_n_n.contr.Idx) : (dot_S256x128_S128x4096_S256x4096_1_0_0_1_n_n.lhsIdx i q 0).val = (i 0).val := by
  unfold DotDims.lhsIdx
  rw [dif_neg (show ¬(0 : Fin S256x128.rank) ∈ dot_S256x128_S128x4096_S256x4096_1_0_0_1_n_n.lhsBatch by decide), dif_pos (show (0 : Fin S256x128.rank) ∈ dot_S256x128_S128x4096_S256x4096_1_0_0_1_n_n.lhsNonContracting by decide)]
  rfl
theorem k2_l1 (i : S256x4096.Idx) (q : dot_S256x128_S128x4096_S256x4096_1_0_0_1_n_n.contr.Idx) : (dot_S256x128_S128x4096_S256x4096_1_0_0_1_n_n.lhsIdx i q 1).val = (q ⟨0, by decide⟩).val :=
  dot_S256x128_S128x4096_S256x4096_1_0_0_1_n_n.lhsIdx_val_of_single rfl i q
theorem k2_r0 (i : S256x4096.Idx) (q : dot_S256x128_S128x4096_S256x4096_1_0_0_1_n_n.contr.Idx) : (dot_S256x128_S128x4096_S256x4096_1_0_0_1_n_n.rhsIdx i q 0).val = (q ⟨0, by decide⟩).val :=
  dot_S256x128_S128x4096_S256x4096_1_0_0_1_n_n.rhsIdx_val_of_single rfl i q
theorem k2_r1 (i : S256x4096.Idx) (q : dot_S256x128_S128x4096_S256x4096_1_0_0_1_n_n.contr.Idx) : (dot_S256x128_S128x4096_S256x4096_1_0_0_1_n_n.rhsIdx i q 1).val = (i 1).val := by
  unfold DotDims.rhsIdx
  rw [dif_neg (show ¬(1 : Fin S128x4096.rank) ∈ dot_S256x128_S128x4096_S256x4096_1_0_0_1_n_n.rhsBatch by decide), dif_pos (show (1 : Fin S128x4096.rank) ∈ dot_S256x128_S128x4096_S256x4096_1_0_0_1_n_n.rhsNonContracting by decide)]
  rfl

theorem k3_l0 (i : S512x1024.Idx) (q : dot_S512x512_S512x1024_S512x1024_1_0_0_1_n_n.contr.Idx) : (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem k3_l1 (i : S512x1024.Idx) (q : dot_S512x512_S512x1024_S512x1024_1_0_0_1_n_n.contr.Idx) : (dot_S512x512_S512x1024_S512x1024_1_0_0_1_n_n.lhsIdx i q 1).val = (q ⟨0, by decide⟩).val :=
  dot_S512x512_S512x1024_S512x1024_1_0_0_1_n_n.lhsIdx_val_of_single rfl i q
theorem k3_r0 (i : S512x1024.Idx) (q : dot_S512x512_S512x1024_S512x1024_1_0_0_1_n_n.contr.Idx) : (dot_S512x512_S512x1024_S512x1024_1_0_0_1_n_n.rhsIdx i q 0).val = (q ⟨0, by decide⟩).val :=
  dot_S512x512_S512x1024_S512x1024_1_0_0_1_n_n.rhsIdx_val_of_single rfl i q
theorem k3_r1 (i : S512x1024.Idx) (q : dot_S512x512_S512x1024_S512x1024_1_0_0_1_n_n.contr.Idx) : (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

theorem k4_l0 (i : S1024x1024.Idx) (q : dot_S1024x512_S512x1024_S1024x1024_1_0_0_1_n_n.contr.Idx) : (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem k4_l1 (i : S1024x1024.Idx) (q : dot_S1024x512_S512x1024_S1024x1024_1_0_0_1_n_n.contr.Idx) : (dot_S1024x512_S512x1024_S1024x1024_1_0_0_1_n_n.lhsIdx i q 1).val = (q ⟨0, by decide⟩).val :=
  dot_S1024x512_S512x1024_S1024x1024_1_0_0_1_n_n.lhsIdx_val_of_single rfl i q
theorem k4_r0 (i : S1024x1024.Idx) (q : dot_S1024x512_S512x1024_S1024x1024_1_0_0_1_n_n.contr.Idx) : (dot_S1024x512_S512x1024_S1024x1024_1_0_0_1_n_n.rhsIdx i q 0).val = (q ⟨0, by decide⟩).val :=
  dot_S1024x512_S512x1024_S1024x1024_1_0_0_1_n_n.rhsIdx_val_of_single rfl i q
theorem k4_r1 (i : S1024x1024.Idx) (q : dot_S1024x512_S512x1024_S1024x1024_1_0_0_1_n_n.contr.Idx) : (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The per-point factor as the vector unit computes it from a mask word: the comparison's bit widened and converted. -/
def visK (w : BitVec 32) : EReal := FloatOps.sitofp (F := Ideal) .f32 ((IntOp.cmpi .ne w 0#32).setWidth 32)

/-- The unit's sums over the 128 channels of a block of 4096 points, and over the 512 channels of a block of 1024. -/
def cs4096 (src : FVec Ideal S128x4096 .f32) : FVec Ideal S4096 .f32 :=
  multiReduction .add [0] S4096 src 0x00000000#32 reduces_S128x4096_S4096 (.inl rfl) rfl
def cs1024 (src : FVec Ideal S512x1024 .f32) : FVec Ideal S1024 .f32 :=
  multiReduction .add [0] S1024 src 0x00000000#32 reduces_S512x1024_S1024 (.inl rfl) rfl

theorem cs4096_apply (src : FVec Ideal S128x4096 .f32) (n : Fin 4096) : cs4096 src (ix1 n) = ∑ k : Fin 128, src (ix2 k n) :=
  colSum_apply src _ reduces_S128x4096_S4096 _ _ n
theorem cs1024_apply (src : FVec Ideal S512x1024 .f32) (n : Fin 1024) : cs1024 src (ix1 n) = ∑ k : Fin 512, src (ix2 k n) :=
  colSum_apply src _ reduces_S512x1024_S1024 _ _ n

/-- The first mix, normalised and masked, at channel `k` and point `n`. -/
theorem pay3_apply (v0 : Vec Ideal S1x3x4096 .f32) (v2 : Vec Ideal S1x1x4096 .i32) (v8 : Vec Ideal S128x3 .f32)
    (v30 v34 : Vec Ideal S128x1 .f32) (k : Fin 128) (n : Fin 4096) :
    k0_pay3 (F := Ideal) v0 v2 v8 v30 v34 (ix2 k n)
      = norm (fun j => ∑ c : Fin 3, (v8 (ix2 j c) : EReal) * (v0 (ix3 (0 : Fin 1) c n) : EReal))
          (fun j => v30 (ix2 j (0 : Fin 1))) (fun j => v34 (ix2 j (0 : Fin 1)))
          (Ideal.ofBits .f32 0x43000000#32) (Ideal.ofBits .f32 0x3727C5AC#32)
          (visK (v2 (ix3 (0 : Fin 1) (0 : Fin 1) n))) k := by
  have e : k0_pay3 (F := Ideal) v0 v2 v8 v30 v34 = normCols (a := 128) (b := 4096) cs4096
      (matmul dot_S128x3_S3x4096_S128x4096_1_0_0_1_n_n none (truncf .bf16 v8 bitsLt_bf16_f32)
        (truncf .bf16 (shapeCast S3x4096 v0 shapeCasts_S1x3x4096_S3x4096) bitsLt_bf16_f32) (constant S128x4096 .f32 0x00000000#32))
      (shapeCast S128x1 v30 shapeCasts_S128x1_S128x1) (shapeCast S128x1 v34 shapeCasts_S128x1_S128x1)
      (sitofp .f32 (extui 32 (cmpi .ne (shapeCast S1x4096 v2 shapeCasts_S1x1x4096_S1x4096) (broadcast S1x4096 0#32)) natLt_1_32))
      0x43000000#32 0x3727C5AC#32 shapeCasts_S4096_S1x4096 broadcasts_S1x4096_S128x4096 broadcasts_S128x1_S128x4096 := rfl
  rw [e, normCols_apply cs4096 cs4096_apply]
  refine norm_congr (fun j => ?_) (fun j => ?_) (fun j => ?_) ?_ k
  · refine (Cert.PlainDot.matmul_zero_apply dot_S128x3_S3x4096_S128x4096_1_0_0_1_n_n rfl rfl k1_l0 k1_l1 k1_r0 k1_r1 none _ _ j n).trans ?_
    refine Finset.sum_congr rfl fun c _ => ?_
    rw [truncf_apply, truncf_apply, shapeCast_1ab_ab_apply]
  · rw [shapeCast_self]
  · rw [shapeCast_self]
  · show FloatOps.sitofp (F := Ideal) .f32 ((IntOp.cmpi .ne (shapeCast S1x4096 v2 shapeCasts_S1x1x4096_S1x4096 (ix2 (0 : Fin 1) n)) 0#32).setWidth 32) = _
    rw [shapeCast_1ab_ab_apply]
    rfl

/-- The rectifier and the second mix with its bias, at channel `o` and point `n`. -/
theorem pay4_apply (v39 : FVec Ideal S128x4096 .f32) (v42 : Vec Ideal S256x128 .f32) (v46 : Vec Ideal S256x1 .f32)
    (o : Fin 256) (n : Fin 4096) :
    k0_pay4 (F := Ideal) v39 v42 v46 (ix2 o n)
      = (∑ k : Fin 128, (v42 (ix2 o k) : EReal) * max (v39 (ix2 k n) : EReal) (Ideal.ofBits .f32 0x00000000#32))
          + v46 (ix2 o (0 : Fin 1)) := by
  have e : k0_pay4 (F := Ideal) v39 v42 v46 = addf
      (matmul dot_S256x128_S128x4096_S256x4096_1_0_0_1_n_n none (truncf .bf16 v42 bitsLt_bf16_f32)
        (truncf .bf16 (maximumf v39 (broadcast S128x4096 (Scalar.ofBits .f32 0x00000000#32))) bitsLt_bf16_f32)
        (constant S256x4096 .f32 0x00000000#32))
      (broadcastTo S256x4096 (shapeCast S256x1 v46 shapeCasts_S256x1_S256x1) broadcasts_S256x1_S256x4096) := rfl
  rw [e, addf_apply, Cert.LibColumns.broadcastTo_a1_ab_apply, shapeCast_self]
  refine congrArg (· + _) ?_
  refine (Cert.PlainDot.matmul_zero_apply dot_S256x128_S128x4096_S256x4096_1_0_0_1_n_n rfl rfl k2_l0 k2_l1 k2_r0 k2_r1 none _ _ o n).trans ?_
  refine Finset.sum_congr rfl fun k _ => ?_
  rw [truncf_apply, truncf_apply, maximumf_apply]
  rfl

set_option maxRecDepth 65536 in
/-- Each channel's maximum over the points. -/
theorem pay5_apply (v39 : FVec Ideal S128x4096 .f32) (v42 : Vec Ideal S256x128 .f32) (v46 : Vec Ideal S256x1 .f32)
    (o : Fin 256) (z : Fin 1) :
    k0_pay5 (F := Ideal) v39 v42 v46 (ix2 o z)
      = (Finset.univ : Finset (Fin 4096)).fold max (Ideal.ofBits .f32 0xFF800000#32)
          (fun n => k0_pay4 (F := Ideal) v39 v42 v46 (ix2 o n)) := by
  unfold k0_pay5
  try dsimp only
  refine (truncf_apply (ψ := .bf16) _ bitsLt_bf16_f32 (ix2 o z)).trans ?_
  refine (Cert.LibColumns.shapeCast_a_a1_apply _ _ o z).trans ?_
  exact Cert.LibRowMax.rowMax_apply _ _ _ _ _ o

/-- What is kept for the second half is the second mix itself. -/
theorem pay6_apply (v39 : FVec Ideal S128x4096 .f32) (v42 : Vec Ideal S256x128 .f32) (v46 : Vec Ideal S256x1 .f32)
    (i : S256x4096.Idx) : k0_pay6 (F := Ideal) v39 v42 v46 i = k0_pay4 (F := Ideal) v39 v42 v46 i := by
  unfold k0_pay6
  try dsimp only
  refine (congrFun (shapeCast_self _ _) i).trans ?_
  exact truncf_apply (ψ := .bf16) _ bitsLt_bf16_f32 i

/-- The column of maxima stacked on a block of the second mix. -/
def distK (v52 : FVec Ideal S256x1 .bf16) (v77 : Vec Ideal S256x1024 .bf16) : FVec Ideal S512x1024 .bf16 :=
  concatenate S512x1024 0
    [⟨S256x1024, broadcastTo S256x1024 (shapeCast S256x1 v52 shapeCasts_S256x1_S256x1) broadcasts_S256x1_S256x1024⟩,
     ⟨S256x1024, v77⟩] concatenates_S256x1024_S256x1024_S512x1024_d0

theorem distK_top (v52 : FVec Ideal S256x1 .bf16) (v77 : Vec Ideal S256x1024 .bf16) (q : Fin 512) (j : Fin 1024)
    (hq : q.val < 256) : distK v52 v77 (ix2 q j) = v52 (ix2 ⟨q.val, hq⟩ (0 : Fin 1)) := by
  unfold distK
  rw [Cert.LibChannelOps.concatRows_left _ _ _ q j hq, Cert.LibColumns.broadcastTo_a1_ab_apply, shapeCast_self]

theorem distK_bottom (v52 : FVec Ideal S256x1 .bf16) (v77 : Vec Ideal S256x1024 .bf16) (q : Fin 512) (j : Fin 1024)
    (hq : 256 ≤ q.val) (hlt : q.val - 256 < 256) : distK v52 v77 (ix2 q j) = v77 (ix2 ⟨q.val - 256, hlt⟩ j) := by
  unfold distK
  rw [Cert.LibChannelOps.concatRows_right _ _ _ q j hq hlt]

/-- The second half on a block of 1024 points, at channel `f` and point `j` of the block. -/
theorem pay2_apply (v52 : FVec Ideal S256x1 .bf16) (v58 : FVec Ideal S512x512 .bf16) (v60 v62 : FVec Ideal S512x1 .f32)
    (v64 : FVec Ideal S1024x512 .bf16) (v66 : FVec Ideal S1024x1 .f32) (v77 : Vec Ideal S256x1024 .bf16)
    (v79 : Vec Ideal S1x1x1024 .i32) (f : Fin 1024) (j : Fin 1024) :
    k0_pay2 (F := Ideal) v52 v58 v60 v62 v64 v66 v77 v79 (ix2 f j)
      = (∑ p : Fin 512, (v64 (ix2 f p) : EReal) * max
            (norm (fun p' => ∑ q : Fin 512, (v58 (ix2 p' q) : EReal) * (distK v52 v77 (ix2 q j) : EReal))
              (fun p' => v60 (ix2 p' (0 : Fin 1))) (fun p' => v62 (ix2 p' (0 : Fin 1)))
              (Ideal.ofBits .f32 0x44000000#32) (Ideal.ofBits .f32 0x3727C5AC#32)
              (visK (v79 (ix3 (0 : Fin 1) (0 : Fin 1) j))) p)
            (Ideal.ofBits .f32 0x00000000#32))
          + v66 (ix2 f (0 : Fin 1)) := by
  have e : k0_pay2 (F := Ideal) v52 v58 v60 v62 v64 v66 v77 v79 = addf
      (matmul dot_S1024x512_S512x1024_S1024x1024_1_0_0_1_n_n none v64
        (truncf .bf16 (maximumf
          (normCols (a := 512) (b := 1024) cs1024
            (matmul dot_S512x512_S512x1024_S512x1024_1_0_0_1_n_n none v58 (distK v52 v77) (constant S512x1024 .f32 0x00000000#32))
            v60 v62 (sitofp .f32 (extui 32 (cmpi .ne (shapeCast S1x1024 v79 shapeCasts_S1x1x1024_S1x1024) (broadcast S1x1024 0#32)) natLt_1_32))
            0x44000000#32 0x3727C5AC#32 shapeCasts_S1024_S1x1024 broadcasts_S1x1024_S512x1024 broadcasts_S512x1_S512x1024)
          (broadcast S512x1024 (Scalar.ofBits .f32 0x00000000#32))) bitsLt_bf16_f32)
        (constant S1024x1024 .f32 0x00000000#32))
      (broadcastTo S1024x1024 v66 broadcasts_S1024x1_S1024x1024) := rfl
  rw [e, addf_apply, Cert.LibColumns.broadcastTo_a1_ab_apply]
  refine congrArg (· + _) ?_
  refine (Cert.PlainDot.matmul_zero_apply dot_S1024x512_S512x1024_S1024x1024_1_0_0_1_n_n rfl rfl k4_l0 k4_l1 k4_r0 k4_r1 none _ _ f j).trans ?_
  refine Finset.sum_congr rfl fun p _ => ?_
  rw [truncf_apply, maximumf_apply, normCols_apply cs1024 cs1024_apply]
  refine congrArg (fun t => (v64 (ix2 f p) : EReal) * max t (Ideal.ofBits .f32 0x00000000#32)) ?_
  refine norm_congr (fun p' => ?_) (fun _ => rfl) (fun _ => rfl) ?_ p
  · exact Cert.PlainDot.matmul_zero_apply dot_S512x512_S512x1024_S512x1024_1_0_0_1_n_n rfl rfl k3_l0 k3_l1 k3_r0 k3_r1 none v58 (distK v52 v77) p' j
  · show FloatOps.sitofp (F := Ideal) .f32 ((IntOp.cmpi .ne (shapeCast S1x1024 v79 shapeCasts_S1x1x1024_S1x1024 (ix2 (0 : Fin 1) j)) 0#32).setWidth 32) = _
    rw [shapeCast_1ab_ab_apply]
    rfl

set_option maxRecDepth 65536 in
/-- The running maximum after one more block. -/
theorem pay13_apply (arg16 : FVec Ideal S1024x1 .f32) (v118 : FVec Ideal S1024x1024 .f32) (f : Fin 1024) (z : Fin 1) :
    k0_pay13 (F := Ideal) arg16 v118 (ix2 f z)
      = max (arg16 (ix2 f z) : EReal)
          ((Finset.univ : Finset (Fin 1024)).fold max (Ideal.ofBits .f32 0xFF800000#32) (fun j => v118 (ix2 f j))) := by
  unfold k0_pay13
  try dsimp only
  refine (maximumf_apply _ _ _).trans ?_
  refine congrArg (max (arg16 (ix2 f z) : EReal)) ?_
  refine (Cert.LibColumns.shapeCast_a_a1_apply _ _ f z).trans ?_
  exact Cert.LibRowMax.rowMax_apply _ _ _ _ _ f

/-- The column of running maxima laid out as the output block's row. -/
theorem pay1_pay14_apply (v69 : FVec Ideal S1024x1 .f32) (u w : Fin 1) (f : Fin 1024) :
    k0_pay1 (F := Ideal) (k0_pay14 (F := Ideal) v69) (ix3 u w f) = v69 (ix2 f (0 : Fin 1)) := by
  unfold k0_pay1 k0_pay14
  try dsimp only
  refine (shapeCast_ab_1ab_apply _ _ u w f).trans ?_
  refine (transpose_ix2_apply _ _ w f).trans ?_
  have hw : w = 0 := Fin.ext (by omega)
  rw [hw]

end Cert.KernelIdeal.Stages

end
-- ==== Proof.LibPointNorm.lean ====
/-
  Normalising a stack of point clouds along the channel axis, as the host spells it — general in the extents.

  A `B × N × K` array holds, for each of `B` clouds and `N` points, a vector of `K` channels.  The host centres each
  vector by its mean, multiplies by the reciprocal square root of its variance plus a constant, scales by a gain and
  shifts by an offset (both vectors of `K` entries), and multiplies by a per-point factor, keeping the reduced axis as
  a unit axis in between.  Read at `(p, n, k)` this is `norm` of the vector at `(p, n)` at channel `k`.
-/
import Idealize.ShloMosaic.Lib.ValueIdx
import Idealize.ShloMosaic.Lib.Pipeline.Value
import Idealize.ShloMosaic.PureOps.Ideal.Laws
import proofs.«116878_j73383811219637_2_alg».proof.Proof.LibChannelNorm

noncomputable section

open scoped BigOperators

namespace Cert.LibNorm

open Idealize.ShloMosaic Idealize.ShloMosaic.ValueIdx

variable {B N K : ℕ} {α : Type}

/-- The host's sum along the last axis of a `B × N × K` array reads, at `(p, n)`, the initial value plus `∑ₖ x (p, n, k)`. -/
theorem lastSum_apply {u : Shape} (x : FVec Ideal ⟨3, ![B, N, K]⟩ .f32) (init : u.Idx → Ideal .f32)
    (h' : (⟨3, ![B, N, K]⟩ : Shape).ReducesTo [2] ⟨2, ![B, N]⟩) (h : (⟨3, ![B, N, K]⟩ : Shape).Reduces [2] ⟨2, ![B, N]⟩)
    (hu : 0 < u.numel) (p : Fin B) (n : Fin N) :
    Host.reduceAdd x init h' hu (ix2 p n) = init (Shape.Idx.first hu) + ∑ k : Fin K, x (ix3 p n k) := by
  simp only [Host.reduceAdd, Ideal.hostReduceAdd_def]
  rw [Ideal.hostReduceAdd_single h' h]
  refine congrArg (_ + ·) (Finset.sum_congr rfl fun k _ => ?_)
  exact congrArg x (funext fun a => Fin.ext (by match a with | ⟨0, _⟩ => rfl | ⟨1, _⟩ => rfl | ⟨2, _⟩ => rfl))

/-- A `B × N` array given a trailing unit axis reads, at `(p, n, z)`, the array at `(p, n)`. -/
theorem bcast_BN_BN1_apply (v : (⟨2, ![B, N]⟩ : Shape).Idx → α)
    (h : (⟨2, ![B, N]⟩ : Shape).BroadcastsInDim ⟨3, ![B, N, 1]⟩ ![0, 1]) (p : Fin B) (n : Fin N) (z : Fin 1) :
    broadcastInDim ⟨3, ![B, N, 1]⟩ ![0, 1] h v (ix3 p n z) = v (ix2 p n) :=
  broadcastInDim_apply _ h v (ix3 p n z) (ix2 p n) (fun a => match a with
    | ⟨0, _⟩ => by
      show p.val = if B = 1 then 0 else p.val
      split
      · have := p.isLt; omega
      · rfl
    | ⟨1, _⟩ => by
      show n.val = if N = 1 then 0 else n.val
      split
      · have := n.isLt; omega
      · rfl)

/-- A scalar spread over any shape reads, anywhere, the scalar. -/
theorem bcast_scalar_apply {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 (fun a => a.elim0)

/-- A `B × N × 1` array spread along its unit axis reads, at `(p, n, k)`, the array at `(p, n, 0)`. -/
theorem bcast_BN1_BNK_apply (v : (⟨3, ![B, N, 1]⟩ : Shape).Idx → α)
    (h : (⟨3, ![B, N, 1]⟩ : Shape).BroadcastsInDim ⟨3, ![B, N, K]⟩ ![0, 1, 2]) (p : Fin B) (n : Fin N) (k : Fin K) :
    broadcastInDim ⟨3, ![B, N, K]⟩ ![0, 1, 2] h v (ix3 p n k) = v (ix3 p n (0 : Fin 1)) :=
  broadcastInDim_apply _ h v (ix3 p n k) (ix3 p n (0 : Fin 1)) (fun a => match a with
    | ⟨0, _⟩ => by
      show p.val = if B = 1 then 0 else p.val
      split
      · have := p.isLt; omega
      · rfl
    | ⟨1, _⟩ => by
      show n.val = if N = 1 then 0 else n.val
      split
      · have := n.isLt; omega
      · rfl
    | ⟨2, _⟩ => by
      show 0 = if (1 : ℕ) = 1 then 0 else k.val
      rw [if_pos rfl])

/-- A vector of `K` entries given two leading unit axes reads, at `(u, w, k)`, the vector at `k`. -/
theorem bcast_K_11K_apply (v : (⟨1, ![K]⟩ : Shape).Idx → α)
    (h : (⟨1, ![K]⟩ : Shape).BroadcastsInDim ⟨3, ![1, 1, K]⟩ ![2]) (u w : Fin 1) (k : Fin K) :
    broadcastInDim ⟨3, ![1, 1, K]⟩ ![2] h v (ix3 u w k) = v (ix1 k) :=
  broadcastInDim_apply _ h v (ix3 u w k) (ix1 k) (fun a => match a with
    | ⟨0, _⟩ => by
      show k.val = if K = 1 then 0 else k.val
      split
      · have := k.isLt; omega
      · rfl)

/-- A `1 × 1 × K` array spread over `B × N × K` reads, at `(p, n, k)`, the array at `(0, 0, k)`. -/
theorem bcast_11K_BNK_apply (v : (⟨3, ![1, 1, K]⟩ : Shape).Idx → α)
    (h : (⟨3, ![1, 1, K]⟩ : Shape).BroadcastsInDim ⟨3, ![B, N, K]⟩ ![0, 1, 2]) (p : Fin B) (n : Fin N) (k : Fin K) :
    broadcastInDim ⟨3, ![B, N, K]⟩ ![0, 1, 2] h v (ix3 p n k) = v (ix3 (0 : Fin 1) (0 : Fin 1) k) :=
  broadcastInDim_apply _ h v (ix3 p n k) (ix3 (0 : Fin 1) (0 : Fin 1) k) (fun a => match a with
    | ⟨0, _⟩ => by
      show 0 = if (1 : ℕ) = 1 then 0 else p.val
      rw [if_pos rfl]
    | ⟨1, _⟩ => by
      show 0 = if (1 : ℕ) = 1 then 0 else n.val
      rw [if_pos rfl]
    | ⟨2, _⟩ => by
      show k.val = if K = 1 then 0 else k.val
      split
      · have := k.isLt; omega
      · rfl)

/-- The host's reciprocal square root and quotient, entry by entry. -/
theorem hostRsqrt_apply {s : Shape} (v : FVec Ideal s .f32) (i : s.Idx) : Host.rsqrt v i = Ideal.rsqrt (v i) := rfl
theorem hostDivf_apply {s : Shape} (x y : FVec Ideal s .f32) (i : s.Idx) : Host.divf x y i = Ideal.div (x i) (y i) := rfl

/-- Summed from the zero word, the host's sum along the last axis is the plain sum. -/
theorem lastSum0_apply (x : FVec Ideal ⟨3, ![B, N, K]⟩ .f32)
    (h' : (⟨3, ![B, N, K]⟩ : Shape).ReducesTo [2] ⟨2, ![B, N]⟩) (h : (⟨3, ![B, N, K]⟩ : Shape).Reduces [2] ⟨2, ![B, N]⟩)
    (hu : 0 < (⟨0, ![]⟩ : Shape).numel) (p : Fin B) (n : Fin N) :
    Host.reduceAdd x (constant (F := Ideal) ⟨0, ![]⟩ .f32 0x00000000#32) h' hu (ix2 p n) = ∑ k : Fin K, x (ix3 p n k) := by
  rw [lastSum_apply x _ h' h hu p n, constant_apply, Ideal.ofBits_zero_f32, zero_add]

/-- The normalisation along the last axis as the host spells it, over its layout operations: the sum along the
    channels (`sumLast`), a reduced array given back its unit axis (`keep`), a constant spread over the reduced
    shape (`splat`), a reduced array spread along the channels (`spread`) and a vector of channels spread over the
    clouds and points (`chan`). -/
def normLast (sumLast : FVec Ideal ⟨3, ![B, N, K]⟩ .f32 → FVec Ideal ⟨2, ![B, N]⟩ .f32)
    (keep : FVec Ideal ⟨2, ![B, N]⟩ .f32 → FVec Ideal ⟨3, ![B, N, 1]⟩ .f32)
    (splat : BitVec 32 → FVec Ideal ⟨3, ![B, N, 1]⟩ .f32)
    (spread : FVec Ideal ⟨3, ![B, N, 1]⟩ .f32 → FVec Ideal ⟨3, ![B, N, K]⟩ .f32)
    (chan : FVec Ideal ⟨1, ![K]⟩ .f32 → FVec Ideal ⟨3, ![B, N, K]⟩ .f32)
    (h : FVec Ideal ⟨3, ![B, N, K]⟩ .f32) (g be : FVec Ideal ⟨1, ![K]⟩ .f32) (vis : FVec Ideal ⟨3, ![B, N, 1]⟩ .f32)
    (cw ew : BitVec 32) : FVec Ideal ⟨3, ![B, N, K]⟩ .f32 :=
  have v6 : FVec Ideal ⟨2, ![B, N]⟩ .f32 := sumLast h
  have v7 : FVec Ideal ⟨3, ![B, N, 1]⟩ .f32 := keep v6
  have v8 : FVec Ideal ⟨3, ![B, N, 1]⟩ .f32 := splat cw
  have v9 : FVec Ideal ⟨3, ![B, N, 1]⟩ .f32 := Host.divf v7 v8
  have v10 : FVec Ideal ⟨3, ![B, N, K]⟩ .f32 := spread v9
  have v11 : FVec Ideal ⟨3, ![B, N, K]⟩ .f32 := subf h v10
  have v12 : FVec Ideal ⟨3, ![B, N, K]⟩ .f32 := mulf v11 v11
  have v13 : FVec Ideal ⟨2, ![B, N]⟩ .f32 := sumLast v12
  have v14 : FVec Ideal ⟨3, ![B, N, 1]⟩ .f32 := keep v13
  have v15 : FVec Ideal ⟨3, ![B, N, 1]⟩ .f32 := splat cw
  have v16 : FVec Ideal ⟨3, ![B, N, 1]⟩ .f32 := Host.divf v14 v15
  have v17 : FVec Ideal ⟨3, ![B, N, K]⟩ .f32 := spread v9
  have v18 : FVec Ideal ⟨3, ![B, N, K]⟩ .f32 := subf h v17
  have v19 : FVec Ideal ⟨3, ![B, N, 1]⟩ .f32 := splat ew
  have v20 : FVec Ideal ⟨3, ![B, N, 1]⟩ .f32 := addf v16 v19
  have v21 : FVec Ideal ⟨3, ![B, N, 1]⟩ .f32 := Host.rsqrt v20
  have v22 : FVec Ideal ⟨3, ![B, N, K]⟩ .f32 := spread v21
  have v23 : FVec Ideal ⟨3, ![B, N, K]⟩ .f32 := mulf v18 v22
  have v25 : FVec Ideal ⟨3, ![B, N, K]⟩ .f32 := chan g
  have v26 : FVec Ideal ⟨3, ![B, N, K]⟩ .f32 := mulf v23 v25
  have v28 : FVec Ideal ⟨3, ![B, N, K]⟩ .f32 := chan be
  have v29 : FVec Ideal ⟨3, ![B, N, K]⟩ .f32 := addf v26 v28
  have v30 : FVec Ideal ⟨3, ![B, N, K]⟩ .f32 := spread vis
  have v31 : FVec Ideal ⟨3, ![B, N, K]⟩ .f32 := mulf v29 v30
  v31

/-- Entry `(p, n, k)` of the normalised array is `norm` of the vector at `(p, n)` at channel `k`, whenever the layout
    operations read as their names say. -/
theorem normLast_apply (sumLast : FVec Ideal ⟨3, ![B, N, K]⟩ .f32 → FVec Ideal ⟨2, ![B, N]⟩ .f32)
    (keep : FVec Ideal ⟨2, ![B, N]⟩ .f32 → FVec Ideal ⟨3, ![B, N, 1]⟩ .f32)
    (splat : BitVec 32 → FVec Ideal ⟨3, ![B, N, 1]⟩ .f32)
    (spread : FVec Ideal ⟨3, ![B, N, 1]⟩ .f32 → FVec Ideal ⟨3, ![B, N, K]⟩ .f32)
    (chan : FVec Ideal ⟨1, ![K]⟩ .f32 → FVec Ideal ⟨3, ![B, N, K]⟩ .f32)
    (hsum : ∀ (x : FVec Ideal ⟨3, ![B, N, K]⟩ .f32) (p : Fin B) (n : Fin N), sumLast x (ix2 p n) = ∑ k : Fin K, x (ix3 p n k))
    (hkeep : ∀ (v : FVec Ideal ⟨2, ![B, N]⟩ .f32) (p : Fin B) (n : Fin N) (z : Fin 1), keep v (ix3 p n z) = v (ix2 p n))
    (hsplat : ∀ (w : BitVec 32) (p : Fin B) (n : Fin N) (z : Fin 1), splat w (ix3 p n z) = Ideal.ofBits .f32 w)
    (hspread : ∀ (v : FVec Ideal ⟨3, ![B, N, 1]⟩ .f32) (p : Fin B) (n : Fin N) (k : Fin K),
      spread v (ix3 p n k) = v (ix3 p n (0 : Fin 1)))
    (hchan : ∀ (v : FVec Ideal ⟨1, ![K]⟩ .f32) (p : Fin B) (n : Fin N) (k : Fin K), chan v (ix3 p n k) = v (ix1 k))
    (h : FVec Ideal ⟨3, ![B, N, K]⟩ .f32) (g be : FVec Ideal ⟨1, ![K]⟩ .f32)
    (vis : FVec Ideal ⟨3, ![B, N, 1]⟩ .f32) (cw ew : BitVec 32) (p : Fin B) (n : Fin N) (k : Fin K) :
    normLast sumLast keep splat spread chan h g be vis cw ew (ix3 p n k)
      = norm (fun j => h (ix3 p n j)) (fun j => g (ix1 j)) (fun j => be (ix1 j))
          (Ideal.ofBits .f32 cw) (Ideal.ofBits .f32 ew) (vis (ix3 p n (0 : Fin 1))) k := by
  unfold normLast norm
  simp only [mulf_apply, addf_apply, subf_apply, hostDivf_apply, hostRsqrt_apply, hsum, hkeep, hsplat, hspread, hchan]

end Cert.LibNorm

end
-- ==== Proof.RefStages.lean ====
/-
  The reference network, stage by stage.

  Each stage is the host's array after one layer, as a function of the argument arrays: the per-point factor `vis`
  (1 where the mask word is not 0, else 0), the first channel mix `h0`, its normalisation over the channels `h1`, the
  rectifier `h2`, the second mix with its bias `h3`, the largest value of each of its channels over the points
  `gmax`, that row spread over the points `gmaxB` and joined in front of every point's channels `dist`, the third mix `h4`, its normalisation `h5`, the
  rectifier `h6`, the fourth mix with its bias `h7`, and the largest value of each channel over the points `out`.
-/
import proofs.«116878_j73383811219637_2_alg».proof.Proof.Gen.ReferenceIdeal
import proofs.«116878_j73383811219637_2_alg».proof.Proof.LibPointNorm

noncomputable section

namespace Cert.ReferenceIdeal.Stages

open Cert.ReferenceIdeal Cert.ReferenceIdeal.Gen Idealize.ShloMosaic Idealize.ShloMosaic.TcCoe Idealize.SL.Sem
open Cert.LibNorm

variable (x0 : FVec Ideal S32x4096x3 .f32) (x1 : IVec S32x1x4096 32) (x2 : FVec Ideal S128x3 .f32)
  (x3 x4 : FVec Ideal S128 .f32) (x5 : FVec Ideal S256x128 .f32) (x6 : FVec Ideal S256 .f32)
  (x7 : FVec Ideal S512x512 .f32) (x8 x9 : FVec Ideal S512 .f32) (x10 : FVec Ideal S1024x512 .f32)
  (x11 : FVec Ideal S1024 .f32)

def vis : FVec Ideal S32x4096x1 .f32 :=
  broadcastInDim S32x4096x1 ![0, 1] bcast_S32x4096_S32x4096x1_0_1
    (uitofp .f32 (cmpi .ne (shapeCast _ x1 shapeCasts_S32x1x4096_S32x4096)
      (broadcastInDim S32x4096 ![] bcast_S_S32x4096 (constantI S_ 32 0#32))))

def h0 : FVec Ideal S32x4096x128 .f32 :=
  Host.dotGeneral dot_S32x4096x3_S128x3_S32x4096x128_2_1_01_0_n_n none x0 x2

def h1 : FVec Ideal S32x4096x128 .f32 :=
  normLast (B := 32) (N := 4096) (K := 128)
    (fun x => Host.reduceAdd x (constant S_ .f32 0x00000000#32) reducesTo_S32x4096x128_S32x4096_d2 h_S_)
    (fun v => broadcastInDim S32x4096x1 ![0, 1] bcast_S32x4096_S32x4096x1_0_1 v)
    (fun w => broadcastInDim S32x4096x1 ![] bcast_S_S32x4096x1 (constant S_ .f32 w))
    (fun v => broadcastInDim S32x4096x128 ![0, 1, 2] bcast_S32x4096x1_S32x4096x128_0_1_2 v)
    (fun v => broadcastInDim S32x4096x128 ![0, 1, 2] bcast_S1x1x128_S32x4096x128_0_1_2
      (broadcastInDim S1x1x128 ![2] bcast_S128_S1x1x128_2 v))
    (h0 x0 x2) x3 x4 (vis x1) 0x43000000#32 0x3727C5AC#32

def h2 : FVec Ideal S32x4096x128 .f32 :=
  maximumf (h1 x0 x1 x2 x3 x4) (broadcastInDim S32x4096x128 ![] bcast_S_S32x4096x128 (constant S_ .f32 0x00000000#32))

def h3 : FVec Ideal S32x4096x256 .f32 :=
  addf (Host.dotGeneral dot_S32x4096x128_S256x128_S32x4096x256_2_1_01_0_n_n none (h2 x0 x1 x2 x3 x4) x5)
    (broadcastInDim S32x4096x256 ![0, 1, 2] bcast_S1x1x256_S32x4096x256_0_1_2
      (broadcastInDim S1x1x256 ![2] bcast_S256_S1x1x256_2 x6))

def gmax : FVec Ideal S32x256 .f32 :=
  Host.reduce FloatOps.maximumf (h3 x0 x1 x2 x3 x4 x5 x6) (constant S_ .f32 0xFF800000#32)
    reducesTo_S32x4096x256_S32x256_d1 h_S_

def gmaxB : FVec Ideal S32x4096x256 .f32 :=
  broadcastInDim S32x4096x256 ![0, 1, 2] bcast_S32x1x256_S32x4096x256_0_1_2
    (broadcastInDim S32x1x256 ![0, 2] bcast_S32x256_S32x1x256_0_2 (gmax x0 x1 x2 x3 x4 x5 x6))

def dist : FVec Ideal S32x4096x512 .f32 :=
  concatenate S32x4096x512 2
    [⟨S32x4096x256, (gmaxB x0 x1 x2 x3 x4 x5 x6)⟩,
     ⟨S32x4096x256, (h3 x0 x1 x2 x3 x4 x5 x6)⟩]
    concatenates_S32x4096x256_S32x4096x256_S32x4096x512_d2

def h4 : FVec Ideal S32x4096x512 .f32 :=
  Host.dotGeneral dot_S32x4096x512_S512x512_S32x4096x512_2_1_01_0_n_n none (dist x0 x1 x2 x3 x4 x5 x6) x7

def h5 : FVec Ideal S32x4096x512 .f32 :=
  normLast (B := 32) (N := 4096) (K := 512)
    (fun x => Host.reduceAdd x (constant S_ .f32 0x00000000#32) reducesTo_S32x4096x512_S32x4096_d2 h_S_)
    (fun v => broadcastInDim S32x4096x1 ![0, 1] bcast_S32x4096_S32x4096x1_0_1 v)
    (fun w => broadcastInDim S32x4096x1 ![] bcast_S_S32x4096x1 (constant S_ .f32 w))
    (fun v => broadcastInDim S32x4096x512 ![0, 1, 2] bcast_S32x4096x1_S32x4096x512_0_1_2 v)
    (fun v => broadcastInDim S32x4096x512 ![0, 1, 2] bcast_S1x1x512_S32x4096x512_0_1_2
      (broadcastInDim S1x1x512 ![2] bcast_S512_S1x1x512_2 v))
    (h4 x0 x1 x2 x3 x4 x5 x6 x7) x8 x9 (vis x1) 0x44000000#32 0x3727C5AC#32

def h6 : FVec Ideal S32x4096x512 .f32 :=
  maximumf (h5 x0 x1 x2 x3 x4 x5 x6 x7 x8 x9)
    (broadcastInDim S32x4096x512 ![] bcast_S_S32x4096x512 (constant S_ .f32 0x00000000#32))

def h7 : FVec Ideal S32x4096x1024 .f32 :=
  addf (Host.dotGeneral dot_S32x4096x512_S1024x512_S32x4096x1024_2_1_01_0_n_n none (h6 x0 x1 x2 x3 x4 x5 x6 x7 x8 x9) x10)
    (broadcastInDim S32x4096x1024 ![0, 1, 2] bcast_S1x1x1024_S32x4096x1024_0_1_2
      (broadcastInDim S1x1x1024 ![2] bcast_S1024_S1x1x1024_2 x11))

def out : FVec Ideal S32x1024 .f32 :=
  Host.reduce FloatOps.maximumf (h7 x0 x1 x2 x3 x4 x5 x6 x7 x8 x9 x10 x11) (constant S_ .f32 0xFF800000#32)
    reducesTo_S32x4096x1024_S32x1024_d1 h_S_

end Cert.ReferenceIdeal.Stages

end
-- ==== Proof.LibPointOps.lean ====
/-
  Host operations on a stack of point clouds `B × N × K` read at an index — general in the extents.

  * a product contracting the channel axis against the rows of an `M × K` matrix reads, at `(p, n, o)`,
    `∑ₖ lhs (p, n, k) · rhs (o, k)`;
  * the maximum over the points reads, at `(p, k)`, the fold of `max` from the initial value over `n` of `x (p, n, k)`:
    `max` is commutative and associative, so the order of the fold does not matter;
  * two arrays joined along the channel axis read the first array below its extent and the second past it;
  * a `B × K` array given a middle unit axis, and a `B × 1 × K` array spread over the points.
-/
import Idealize.ShloMosaic.Lib.ValueIdx
import Idealize.ShloMosaic.Lib.Pipeline.Value
import Idealize.ShloMosaic.PureOps.Ideal.Laws

noncomputable section

open scoped BigOperators

namespace Cert.LibPointOps

open Idealize.ShloMosaic Idealize.ShloMosaic.ValueIdx

variable {B N K M : ℕ} {α : Type}

/-- The host's product over the channel axis, at `(p, n, o)`: `∑ₖ lhs (p, n, k) · rhs (o, k)`. -/
theorem dotLast_apply {φ₁ φ₂ : FTy}
    (D : DotDims (⟨3, ![B, N, K]⟩ : Shape) (⟨2, ![M, K]⟩ : Shape) (⟨3, ![B, N, M]⟩ : Shape))
    (hr : D.contr.rank = 1) (hs : D.contr.size ⟨0, by omega⟩ = K)
    (l0 : ∀ (i : (⟨3, ![B, N, M]⟩ : Shape).Idx) (q : D.contr.Idx), (D.lhsIdx i q 0).val = (i 0).val)
    (l1 : ∀ (i : (⟨3, ![B, N, M]⟩ : Shape).Idx) (q : D.contr.Idx), (D.lhsIdx i q 1).val = (i 1).val)
    (l2 : ∀ (i : (⟨3, ![B, N, M]⟩ : Shape).Idx) (q : D.contr.Idx), (D.lhsIdx i q 2).val = (q ⟨0, by omega⟩).val)
    (r0 : ∀ (i : (⟨3, ![B, N, M]⟩ : Shape).Idx) (q : D.contr.Idx), (D.rhsIdx i q 0).val = (i 2).val)
    (r1 : ∀ (i : (⟨3, ![B, N, M]⟩ : Shape).Idx) (q : D.contr.Idx), (D.rhsIdx i q 1).val = (q ⟨0, by omega⟩).val)
    (prec : Option ContractPrecision)
    (lhs : FVec Ideal (⟨3, ![B, N, K]⟩ : Shape) φ₁) (rhs : FVec Ideal (⟨2, ![M, K]⟩ : Shape) φ₂)
    (p : Fin B) (n : Fin N) (o : Fin M) :
    Host.dotGeneral D prec lhs rhs (ix3 p n o) = ∑ k : Fin K, (lhs (ix3 p n k) : EReal) * (rhs (ix2 o k) : EReal) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix3 p n o) ((contrEquiv1 D K hr hs).symm k) = ix3 p n k := funext fun a => Fin.ext (by
    match a with
    | ⟨0, _⟩ => exact l0 _ _
    | ⟨1, _⟩ => exact l1 _ _
    | ⟨2, _⟩ => exact (l2 _ _).trans hk)
  have er : D.rhsIdx (ix3 p n o) ((contrEquiv1 D K hr hs).symm k) = ix2 o k := funext fun a => Fin.ext (by
    match a with
    | ⟨0, _⟩ => exact r0 _ _
    | ⟨1, _⟩ => exact (r1 _ _).trans hk)
  rw [el, er]

/-- The host's maximum over the points, at `(p, k)`: the fold of `max` from the initial value over `n`. -/
theorem hostMidMax_apply {φ : FTy} {u : Shape} (x : FVec Ideal ⟨3, ![B, N, K]⟩ φ) (init : u.Idx → Ideal φ)
    (h' : (⟨3, ![B, N, K]⟩ : Shape).ReducesTo [1] ⟨2, ![B, K]⟩) (h : (⟨3, ![B, N, K]⟩ : Shape).Reduces [1] ⟨2, ![B, K]⟩)
    (hu : 0 < u.numel) (p : Fin B) (k : Fin K) :
    Host.reduce FloatOps.maximumf x init h' hu (ix2 p k)
      = (Finset.univ : Finset (Fin N)).fold max (init (Shape.Idx.first hu)) (fun n : Fin N => x (ix3 p n k)) := by
  refine (Host.reduce_eq_fold_single FloatOps.maximumf x init h' h hu (ix2 p k)).trans ?_
  have hf : (x ∘ h.lift (ix2 p k)) = fun n : Fin N => x (ix3 p n k) := funext fun n => congrArg x
    (funext fun c => Fin.ext (by match c with | ⟨0, _⟩ => rfl | ⟨1, _⟩ => rfl | ⟨2, _⟩ => rfl))
  exact congrArg (fun f => Finset.fold max (init (Shape.Idx.first hu)) f (Finset.univ : Finset (Fin N))) hf

variable {K1 K2 : ℕ}

/-- Two arrays joined along the channel axis: below the first array's extent, the first array. -/
theorem concatLast_left (x₁ : (⟨3, ![B, N, K1]⟩ : Shape).Idx → α) (x₂ : (⟨3, ![B, N, K2]⟩ : Shape).Idx → α)
    (h : Shape.Concatenates [(⟨3, ![B, N, K1]⟩ : Shape), (⟨3, ![B, N, K2]⟩ : Shape)] (⟨3, ![B, N, K]⟩ : Shape) 2)
    (p : Fin B) (n : Fin N) (q : Fin K) (hq : q.val < K1) :
    concatenate (⟨3, ![B, N, K]⟩ : Shape) 2 [⟨_, x₁⟩, ⟨_, x₂⟩] h (ix3 p n q) = x₁ (ix3 p n ⟨q.val, hq⟩) :=
  concatenate_pair_apply_left 2 x₁ x₂ h (ix3 p n q) rfl (ix3 p n ⟨q.val, hq⟩) (fun c => by
    match c with
    | ⟨0, _⟩ => rfl
    | ⟨1, _⟩ => rfl
    | ⟨2, _⟩ => rfl)

/-- Two arrays joined along the channel axis: past the first array's extent, the second array. -/
theorem concatLast_right (x₁ : (⟨3, ![B, N, K1]⟩ : Shape).Idx → α) (x₂ : (⟨3, ![B, N, K2]⟩ : Shape).Idx → α)
    (h : Shape.Concatenates [(⟨3, ![B, N, K1]⟩ : Shape), (⟨3, ![B, N, K2]⟩ : Shape)] (⟨3, ![B, N, K]⟩ : Shape) 2)
    (p : Fin B) (n : Fin N) (q : Fin K) (hq : K1 ≤ q.val) (hlt : q.val - K1 < K2) :
    concatenate (⟨3, ![B, N, K]⟩ : Shape) 2 [⟨_, x₁⟩, ⟨_, x₂⟩] h (ix3 p n q) = x₂ (ix3 p n ⟨q.val - K1, hlt⟩) :=
  concatenate_pair_apply_right 2 x₁ x₂ h (ix3 p n q) rfl rfl (ix3 p n ⟨q.val - K1, hlt⟩) (fun c hc => by
    match c with
    | ⟨0, _⟩ => rfl
    | ⟨1, _⟩ => rfl
    | ⟨2, _⟩ => exact absurd rfl hc) (by
    show (q.val - K1) + K1 = q.val
    omega)

/-- A `B × K` array given a middle unit axis reads, at `(p, z, k)`, the array at `(p, k)`. -/
theorem bcast_BK_B1K_apply (v : (⟨2, ![B, K]⟩ : Shape).Idx → α)
    (h : (⟨2, ![B, K]⟩ : Shape).BroadcastsInDim ⟨3, ![B, 1, K]⟩ ![0, 2]) (p : Fin B) (z : Fin 1) (k : Fin K) :
    broadcastInDim ⟨3, ![B, 1, K]⟩ ![0, 2] h v (ix3 p z k) = v (ix2 p k) :=
  broadcastInDim_apply _ h v (ix3 p z k) (ix2 p k) (fun a => match a with
    | ⟨0, _⟩ => by
      show p.val = if B = 1 then 0 else p.val
      split
      · have := p.isLt; omega
      · rfl
    | ⟨1, _⟩ => by
      show k.val = if K = 1 then 0 else k.val
      split
      · have := k.isLt; omega
      · rfl)

/-- A `B × 1 × K` array spread over the points reads, at `(p, n, k)`, the array at `(p, 0, k)`. -/
theorem bcast_B1K_BNK_apply (v : (⟨3, ![B, 1, K]⟩ : Shape).Idx → α)
    (h : (⟨3, ![B, 1, K]⟩ : Shape).BroadcastsInDim ⟨3, ![B, N, K]⟩ ![0, 1, 2]) (p : Fin B) (n : Fin N) (k : Fin K) :
    broadcastInDim ⟨3, ![B, N, K]⟩ ![0, 1, 2] h v (ix3 p n k) = v (ix3 p (0 : Fin 1) k) :=
  broadcastInDim_apply _ h v (ix3 p n k) (ix3 p (0 : Fin 1) k) (fun a => match a with
    | ⟨0, _⟩ => by
      show p.val = if B = 1 then 0 else p.val
      split
      · have := p.isLt; omega
      · rfl
    | ⟨1, _⟩ => by
      show 0 = if (1 : ℕ) = 1 then 0 else n.val
      rw [if_pos rfl]
    | ⟨2, _⟩ => by
      show k.val = if K = 1 then 0 else k.val
      split
      · have := k.isLt; omega
      · rfl)

/-- A `B × 1 × N` array with its unit axis dropped reads, at `(p, n)`, the array at `(p, 0, n)`. -/
theorem shapeCast_B1N_BN_apply (x : (⟨3, ![B, 1, N]⟩ : Shape).Idx → α)
    (h : (⟨3, ![B, 1, N]⟩ : Shape).ShapeCasts ⟨2, ![B, N]⟩) (p : Fin B) (n : Fin N) :
    shapeCast ⟨2, ![B, N]⟩ x h (ix2 p n) = x (ix3 p (0 : Fin 1) n) :=
  shapeCast_apply x h _ _ (by
    rw [Shape.rowMajor_val_three, Shape.rowMajor_val_two]
    show (p.val * 1 + 0) * N + n.val = p.val * N + n.val
    rw [Nat.mul_one, Nat.add_zero])

/-- An `B × 1 × K` array with its unit axis dropped, the other way: a `B × K` array cast to `B × 1 × K`. -/
theorem shapeCast_BN_B1N_apply (x : (⟨2, ![B, N]⟩ : Shape).Idx → α)
    (h : (⟨2, ![B, N]⟩ : Shape).ShapeCasts ⟨3, ![B, 1, N]⟩) (p : Fin B) (z : Fin 1) (n : Fin N) :
    shapeCast ⟨3, ![B, 1, N]⟩ x h (ix3 p z n) = x (ix2 p n) :=
  shapeCast_apply x h _ _ (by
    have hz : z.val = 0 := by omega
    rw [Shape.rowMajor_val_three, Shape.rowMajor_val_two]
    show p.val * N + n.val = (p.val * 1 + z.val) * N + n.val
    rw [hz, Nat.mul_one, Nat.add_zero])

end Cert.LibPointOps

end
-- ==== Proof.RefRead.lean ====
/-
  The reference network's stages read at an index.

  At cloud `b`, point `n` and a channel, each stage is a function of the previous stage at the same cloud and point
  (the mixes and the normalisations, over that point's channels), or, for the two maxima, of the previous stage at
  the same cloud and channel over all points.
-/
import proofs.«116878_j73383811219637_2_alg».proof.Proof.RefStages
import proofs.«116878_j73383811219637_2_alg».proof.Proof.LibPointOps

noncomputable section

open scoped BigOperators

namespace Cert.ReferenceIdeal.Stages

open Cert.ReferenceIdeal Cert.ReferenceIdeal.Gen Idealize.ShloMosaic Idealize.ShloMosaic.TcCoe Idealize.SL.Sem
open Idealize.ShloMosaic.ValueIdx Cert.LibNorm Cert.LibPointOps

theorem d1_l0 (i : S32x4096x128.Idx) (q : dot_S32x4096x3_S128x3_S32x4096x128_2_1_01_0_n_n.contr.Idx) : (dot_S32x4096x3_S128x3_S32x4096x128_2_1_01_0_n_n.lhsIdx i q 0).val = (i 0).val := by
  unfold DotDims.lhsIdx
  rw [dif_neg (show ¬(0 : Fin S32x4096x3.rank) ∈ dot_S32x4096x3_S128x3_S32x4096x128_2_1_01_0_n_n.lhsBatch by decide), dif_pos (show (0 : Fin S32x4096x3.rank) ∈ dot_S32x4096x3_S128x3_S32x4096x128_2_1_01_0_n_n.lhsNonContracting by decide)]
  rfl
theorem d1_l1 (i : S32x4096x128.Idx) (q : dot_S32x4096x3_S128x3_S32x4096x128_2_1_01_0_n_n.contr.Idx) : (dot_S32x4096x3_S128x3_S32x4096x128_2_1_01_0_n_n.lhsIdx i q 1).val = (i 1).val := by
  unfold DotDims.lhsIdx
  rw [dif_neg (show ¬(1 : Fin S32x4096x3.rank) ∈ dot_S32x4096x3_S128x3_S32x4096x128_2_1_01_0_n_n.lhsBatch by decide), dif_pos (show (1 : Fin S32x4096x3.rank) ∈ dot_S32x4096x3_S128x3_S32x4096x128_2_1_01_0_n_n.lhsNonContracting by decide)]
  rfl
theorem d1_l2 (i : S32x4096x128.Idx) (q : dot_S32x4096x3_S128x3_S32x4096x128_2_1_01_0_n_n.contr.Idx) : (dot_S32x4096x3_S128x3_S32x4096x128_2_1_01_0_n_n.lhsIdx i q 2).val = (q ⟨0, by decide⟩).val :=
  dot_S32x4096x3_S128x3_S32x4096x128_2_1_01_0_n_n.lhsIdx_val_of_single rfl i q
theorem d1_r0 (i : S32x4096x128.Idx) (q : dot_S32x4096x3_S128x3_S32x4096x128_2_1_01_0_n_n.contr.Idx) : (dot_S32x4096x3_S128x3_S32x4096x128_2_1_01_0_n_n.rhsIdx i q 0).val = (i 2).val := by
  unfold DotDims.rhsIdx
  rw [dif_neg (show ¬(0 : Fin S128x3.rank) ∈ dot_S32x4096x3_S128x3_S32x4096x128_2_1_01_0_n_n.rhsBatch by decide), dif_pos (show (0 : Fin S128x3.rank) ∈ dot_S32x4096x3_S128x3_S32x4096x128_2_1_01_0_n_n.rhsNonContracting by decide)]
  rfl
theorem d1_r1 (i : S32x4096x128.Idx) (q : dot_S32x4096x3_S128x3_S32x4096x128_2_1_01_0_n_n.contr.Idx) : (dot_S32x4096x3_S128x3_S32x4096x128_2_1_01_0_n_n.rhsIdx i q 1).val = (q ⟨0, by decide⟩).val :=
  dot_S32x4096x3_S128x3_S32x4096x128_2_1_01_0_n_n.rhsIdx_val_of_single rfl i q

theorem d2_l0 (i : S32x4096x256.Idx) (q : dot_S32x4096x128_S256x128_S32x4096x256_2_1_01_0_n_n.contr.Idx) : (dot_S32x4096x128_S256x128_S32x4096x256_2_1_01_0_n_n.lhsIdx i q 0).val = (i 0).val := by
  unfold DotDims.lhsIdx
  rw [dif_neg (show ¬(0 : Fin S32x4096x128.rank) ∈ dot_S32x4096x128_S256x128_S32x4096x256_2_1_01_0_n_n.lhsBatch by decide), dif_pos (show (0 : Fin S32x4096x128.rank) ∈ dot_S32x4096x128_S256x128_S32x4096x256_2_1_01_0_n_n.lhsNonContracting by decide)]
  rfl
theorem d2_l1 (i : S32x4096x256.Idx) (q : dot_S32x4096x128_S256x128_S32x4096x256_2_1_01_0_n_n.contr.Idx) : (dot_S32x4096x128_S256x128_S32x4096x256_2_1_01_0_n_n.lhsIdx i q 1).val = (i 1).val := by
  unfold DotDims.lhsIdx
  rw [dif_neg (show ¬(1 : Fin S32x4096x128.rank) ∈ dot_S32x4096x128_S256x128_S32x4096x256_2_1_01_0_n_n.lhsBatch by decide), dif_pos (show (1 : Fin S32x4096x128.rank) ∈ dot_S32x4096x128_S256x128_S32x4096x256_2_1_01_0_n_n.lhsNonContracting by decide)]
  rfl
theorem d2_l2 (i : S32x4096x256.Idx) (q : dot_S32x4096x128_S256x128_S32x4096x256_2_1_01_0_n_n.contr.Idx) : (dot_S32x4096x128_S256x128_S32x4096x256_2_1_01_0_n_n.lhsIdx i q 2).val = (q ⟨0, by decide⟩).val :=
  dot_S32x4096x128_S256x128_S32x4096x256_2_1_01_0_n_n.lhsIdx_val_of_single rfl i q
theorem d2_r0 (i : S32x4096x256.Idx) (q : dot_S32x4096x128_S256x128_S32x4096x256_2_1_01_0_n_n.contr.Idx) : (dot_S32x4096x128_S256x128_S32x4096x256_2_1_01_0_n_n.rhsIdx i q 0).val = (i 2).val := by
  unfold DotDims.rhsIdx
  rw [dif_neg (show ¬(0 : Fin S256x128.rank) ∈ dot_S32x4096x128_S256x128_S32x4096x256_2_1_01_0_n_n.rhsBatch by decide), dif_pos (show (0 : Fin S256x128.rank) ∈ dot_S32x4096x128_S256x128_S32x4096x256_2_1_01_0_n_n.rhsNonContracting by decide)]
  rfl
theorem d2_r1 (i : S32x4096x256.Idx) (q : dot_S32x4096x128_S256x128_S32x4096x256_2_1_01_0_n_n.contr.Idx) : (dot_S32x4096x128_S256x128_S32x4096x256_2_1_01_0_n_n.rhsIdx i q 1).val = (q ⟨0, by decide⟩).val :=
  dot_S32x4096x128_S256x128_S32x4096x256_2_1_01_0_n_n.rhsIdx_val_of_single rfl i q

theorem d3_l0 (i : S32x4096x512.Idx) (q : dot_S32x4096x512_S512x512_S32x4096x512_2_1_01_0_n_n.contr.Idx) : (dot_S32x4096x512_S512x512_S32x4096x512_2_1_01_0_n_n.lhsIdx i q 0).val = (i 0).val := by
  unfold DotDims.lhsIdx
  rw [dif_neg (show ¬(0 : Fin S32x4096x512.rank) ∈ dot_S32x4096x512_S512x512_S32x4096x512_2_1_01_0_n_n.lhsBatch by decide), dif_pos (show (0 : Fin S32x4096x512.rank) ∈ dot_S32x4096x512_S512x512_S32x4096x512_2_1_01_0_n_n.lhsNonContracting by decide)]
  rfl
theorem d3_l1 (i : S32x4096x512.Idx) (q : dot_S32x4096x512_S512x512_S32x4096x512_2_1_01_0_n_n.contr.Idx) : (dot_S32x4096x512_S512x512_S32x4096x512_2_1_01_0_n_n.lhsIdx i q 1).val = (i 1).val := by
  unfold DotDims.lhsIdx
  rw [dif_neg (show ¬(1 : Fin S32x4096x512.rank) ∈ dot_S32x4096x512_S512x512_S32x4096x512_2_1_01_0_n_n.lhsBatch by decide), dif_pos (show (1 : Fin S32x4096x512.rank) ∈ dot_S32x4096x512_S512x512_S32x4096x512_2_1_01_0_n_n.lhsNonContracting by decide)]
  rfl
theorem d3_l2 (i : S32x4096x512.Idx) (q : dot_S32x4096x512_S512x512_S32x4096x512_2_1_01_0_n_n.contr.Idx) : (dot_S32x4096x512_S512x512_S32x4096x512_2_1_01_0_n_n.lhsIdx i q 2).val = (q ⟨0, by decide⟩).val :=
  dot_S32x4096x512_S512x512_S32x4096x512_2_1_01_0_n_n.lhsIdx_val_of_single rfl i q
theorem d3_r0 (i : S32x4096x512.Idx) (q : dot_S32x4096x512_S512x512_S32x4096x512_2_1_01_0_n_n.contr.Idx) : (dot_S32x4096x512_S512x512_S32x4096x512_2_1_01_0_n_n.rhsIdx i q 0).val = (i 2).val := by
  unfold DotDims.rhsIdx
  rw [dif_neg (show ¬(0 : Fin S512x512.rank) ∈ dot_S32x4096x512_S512x512_S32x4096x512_2_1_01_0_n_n.rhsBatch by decide), dif_pos (show (0 : Fin S512x512.rank) ∈ dot_S32x4096x512_S512x512_S32x4096x512_2_1_01_0_n_n.rhsNonContracting by decide)]
  rfl
theorem d3_r1 (i : S32x4096x512.Idx) (q : dot_S32x4096x512_S512x512_S32x4096x512_2_1_01_0_n_n.contr.Idx) : (dot_S32x4096x512_S512x512_S32x4096x512_2_1_01_0_n_n.rhsIdx i q 1).val = (q ⟨0, by decide⟩).val :=
  dot_S32x4096x512_S512x512_S32x4096x512_2_1_01_0_n_n.rhsIdx_val_of_single rfl i q

theorem d4_l0 (i : S32x4096x1024.Idx) (q : dot_S32x4096x512_S1024x512_S32x4096x1024_2_1_01_0_n_n.contr.Idx) : (dot_S32x4096x512_S1024x512_S32x4096x1024_2_1_01_0_n_n.lhsIdx i q 0).val = (i 0).val := by
  unfold DotDims.lhsIdx
  rw [dif_neg (show ¬(0 : Fin S32x4096x512.rank) ∈ dot_S32x4096x512_S1024x512_S32x4096x1024_2_1_01_0_n_n.lhsBatch by decide), dif_pos (show (0 : Fin S32x4096x512.rank) ∈ dot_S32x4096x512_S1024x512_S32x4096x1024_2_1_01_0_n_n.lhsNonContracting by decide)]
  rfl
theorem d4_l1 (i : S32x4096x1024.Idx) (q : dot_S32x4096x512_S1024x512_S32x4096x1024_2_1_01_0_n_n.contr.Idx) : (dot_S32x4096x512_S1024x512_S32x4096x1024_2_1_01_0_n_n.lhsIdx i q 1).val = (i 1).val := by
  unfold DotDims.lhsIdx
  rw [dif_neg (show ¬(1 : Fin S32x4096x512.rank) ∈ dot_S32x4096x512_S1024x512_S32x4096x1024_2_1_01_0_n_n.lhsBatch by decide), dif_pos (show (1 : Fin S32x4096x512.rank) ∈ dot_S32x4096x512_S1024x512_S32x4096x1024_2_1_01_0_n_n.lhsNonContracting by decide)]
  rfl
theorem d4_l2 (i : S32x4096x1024.Idx) (q : dot_S32x4096x512_S1024x512_S32x4096x1024_2_1_01_0_n_n.contr.Idx) : (dot_S32x4096x512_S1024x512_S32x4096x1024_2_1_01_0_n_n.lhsIdx i q 2).val = (q ⟨0, by decide⟩).val :=
  dot_S32x4096x512_S1024x512_S32x4096x1024_2_1_01_0_n_n.lhsIdx_val_of_single rfl i q
theorem d4_r0 (i : S32x4096x1024.Idx) (q : dot_S32x4096x512_S1024x512_S32x4096x1024_2_1_01_0_n_n.contr.Idx) : (dot_S32x4096x512_S1024x512_S32x4096x1024_2_1_01_0_n_n.rhsIdx i q 0).val = (i 2).val := by
  unfold DotDims.rhsIdx
  rw [dif_neg (show ¬(0 : Fin S1024x512.rank) ∈ dot_S32x4096x512_S1024x512_S32x4096x1024_2_1_01_0_n_n.rhsBatch by decide), dif_pos (show (0 : Fin S1024x512.rank) ∈ dot_S32x4096x512_S1024x512_S32x4096x1024_2_1_01_0_n_n.rhsNonContracting by decide)]
  rfl
theorem d4_r1 (i : S32x4096x1024.Idx) (q : dot_S32x4096x512_S1024x512_S32x4096x1024_2_1_01_0_n_n.contr.Idx) : (dot_S32x4096x512_S1024x512_S32x4096x1024_2_1_01_0_n_n.rhsIdx i q 1).val = (q ⟨0, by decide⟩).val :=
  dot_S32x4096x512_S1024x512_S32x4096x1024_2_1_01_0_n_n.rhsIdx_val_of_single rfl i q

variable (x0 : FVec Ideal S32x4096x3 .f32) (x1 : IVec S32x1x4096 32) (x2 : FVec Ideal S128x3 .f32)
  (x3 x4 : FVec Ideal S128 .f32) (x5 : FVec Ideal S256x128 .f32) (x6 : FVec Ideal S256 .f32)
  (x7 : FVec Ideal S512x512 .f32) (x8 x9 : FVec Ideal S512 .f32) (x10 : FVec Ideal S1024x512 .f32)
  (x11 : FVec Ideal S1024 .f32)

/-- The per-point factor of a mask word: 1 where the word is not 0, else 0. -/
def visW (w : BitVec 32) : EReal := FloatOps.uitofp (F := Ideal) .f32 (IntOp.cmpi .ne w 0#32)

theorem vis_apply (b : Fin 32) (n : Fin 4096) (z : Fin 1) : vis x1 (ix3 b n z) = visW (x1 (ix3 b (0 : Fin 1) n)) := by
  unfold vis
  rw [bcast_BN_BN1_apply]
  show FloatOps.uitofp (F := Ideal) .f32 (IntOp.cmpi .ne (shapeCast _ x1 shapeCasts_S32x1x4096_S32x4096 (ix2 b n))
    (broadcastInDim S32x4096 ![] bcast_S_S32x4096 (constantI S_ 32 0#32) (ix2 b n))) = _
  rw [bcast_scalar_apply, shapeCast_B1N_BN_apply]
  rfl

theorem h0_apply (b : Fin 32) (n : Fin 4096) (k : Fin 128) :
    h0 x0 x2 (ix3 b n k) = ∑ c : Fin 3, (x0 (ix3 b n c) : EReal) * (x2 (ix2 k c) : EReal) := by
  unfold h0
  exact dotLast_apply dot_S32x4096x3_S128x3_S32x4096x128_2_1_01_0_n_n rfl rfl d1_l0 d1_l1 d1_l2 d1_r0 d1_r1 none x0 x2 b n k

theorem h1_apply (b : Fin 32) (n : Fin 4096) (k : Fin 128) :
    h1 x0 x1 x2 x3 x4 (ix3 b n k)
      = norm (fun j => h0 x0 x2 (ix3 b n j)) (fun j => x3 (ix1 j)) (fun j => x4 (ix1 j))
          (Ideal.ofBits .f32 0x43000000#32) (Ideal.ofBits .f32 0x3727C5AC#32) (visW (x1 (ix3 b (0 : Fin 1) n))) k := by
  unfold h1
  have hsum : ∀ (x : FVec Ideal S32x4096x128 .f32) (p : Fin 32) (n : Fin 4096),
      Host.reduceAdd x (constant S_ .f32 0x00000000#32) reducesTo_S32x4096x128_S32x4096_d2 h_S_ (ix2 p n)
        = ∑ k : Fin 128, x (ix3 p n k) := fun x p n => lastSum0_apply x _ (by decide) h_S_ p n
  have hkeep : ∀ (v : FVec Ideal S32x4096 .f32) (p : Fin 32) (n : Fin 4096) (z : Fin 1),
      broadcastInDim S32x4096x1 ![0, 1] bcast_S32x4096_S32x4096x1_0_1 v (ix3 p n z) = v (ix2 p n) :=
    fun v p n z => bcast_BN_BN1_apply v _ p n z
  have hsplat : ∀ (w : BitVec 32) (p : Fin 32) (n : Fin 4096) (z : Fin 1),
      broadcastInDim S32x4096x1 ![] bcast_S_S32x4096x1 (constant (F := Ideal) S_ .f32 w) (ix3 p n z) = Ideal.ofBits .f32 w :=
    fun w p n z => (bcast_scalar_apply _ _ _).trans rfl
  have hspread : ∀ (v : FVec Ideal S32x4096x1 .f32) (p : Fin 32) (n : Fin 4096) (k : Fin 128),
      broadcastInDim S32x4096x128 ![0, 1, 2] bcast_S32x4096x1_S32x4096x128_0_1_2 v (ix3 p n k) = v (ix3 p n (0 : Fin 1)) :=
    fun v p n k => bcast_BN1_BNK_apply v _ p n k
  have hchan : ∀ (v : FVec Ideal S128 .f32) (p : Fin 32) (n : Fin 4096) (k : Fin 128),
      broadcastInDim S32x4096x128 ![0, 1, 2] bcast_S1x1x128_S32x4096x128_0_1_2
        (broadcastInDim S1x1x128 ![2] bcast_S128_S1x1x128_2 v) (ix3 p n k) = v (ix1 k) :=
    fun v p n k => (bcast_11K_BNK_apply _ _ p n k).trans (bcast_K_11K_apply v _ _ _ k)
  refine (normLast_apply _ _ _ _ _ hsum hkeep hsplat hspread hchan _ _ _ _ _ _ b n k).trans ?_
  rw [vis_apply]

theorem h2_apply (b : Fin 32) (n : Fin 4096) (k : Fin 128) :
    h2 x0 x1 x2 x3 x4 (ix3 b n k) = max (h1 x0 x1 x2 x3 x4 (ix3 b n k)) (Ideal.ofBits .f32 0x00000000#32) := by
  unfold h2
  rw [maximumf_apply, bcast_scalar_apply]
  rfl

theorem h3_apply (b : Fin 32) (n : Fin 4096) (o : Fin 256) :
    h3 x0 x1 x2 x3 x4 x5 x6 (ix3 b n o)
      = (∑ k : Fin 128, (h2 x0 x1 x2 x3 x4 (ix3 b n k) : EReal) * (x5 (ix2 o k) : EReal)) + x6 (ix1 o) := by
  unfold h3
  rw [addf_apply, bcast_11K_BNK_apply, bcast_K_11K_apply]
  exact congrArg (· + _) (dotLast_apply dot_S32x4096x128_S256x128_S32x4096x256_2_1_01_0_n_n rfl rfl d2_l0 d2_l1 d2_l2 d2_r0 d2_r1 none _ x5 b n o)

theorem gmax_apply (b : Fin 32) (o : Fin 256) :
    gmax x0 x1 x2 x3 x4 x5 x6 (ix2 b o)
      = (Finset.univ : Finset (Fin 4096)).fold max (Ideal.ofBits .f32 0xFF800000#32)
          (fun n => h3 x0 x1 x2 x3 x4 x5 x6 (ix3 b n o)) := by
  unfold gmax
  exact hostMidMax_apply _ _ reducesTo_S32x4096x256_S32x256_d1 (by decide) h_S_ b o

theorem dist_left (b : Fin 32) (n : Fin 4096) (q : Fin 512) (hq : q.val < 256) :
    dist x0 x1 x2 x3 x4 x5 x6 (ix3 b n q) = gmax x0 x1 x2 x3 x4 x5 x6 (ix2 b ⟨q.val, hq⟩) := by
  unfold dist gmaxB
  rw [concatLast_left _ _ _ b n q hq, bcast_B1K_BNK_apply, bcast_BK_B1K_apply]

theorem dist_right (b : Fin 32) (n : Fin 4096) (q : Fin 512) (hq : 256 ≤ q.val) (hlt : q.val - 256 < 256) :
    dist x0 x1 x2 x3 x4 x5 x6 (ix3 b n q) = h3 x0 x1 x2 x3 x4 x5 x6 (ix3 b n ⟨q.val - 256, hlt⟩) := by
  unfold dist
  rw [concatLast_right _ _ _ b n q hq hlt]

theorem h4_apply (b : Fin 32) (n : Fin 4096) (p : Fin 512) :
    h4 x0 x1 x2 x3 x4 x5 x6 x7 (ix3 b n p)
      = ∑ q : Fin 512, (dist x0 x1 x2 x3 x4 x5 x6 (ix3 b n q) : EReal) * (x7 (ix2 p q) : EReal) := by
  unfold h4
  exact dotLast_apply dot_S32x4096x512_S512x512_S32x4096x512_2_1_01_0_n_n rfl rfl d3_l0 d3_l1 d3_l2 d3_r0 d3_r1 none _ x7 b n p

theorem h5_apply (b : Fin 32) (n : Fin 4096) (p : Fin 512) :
    h5 x0 x1 x2 x3 x4 x5 x6 x7 x8 x9 (ix3 b n p)
      = norm (fun j => h4 x0 x1 x2 x3 x4 x5 x6 x7 (ix3 b n j)) (fun j => x8 (ix1 j)) (fun j => x9 (ix1 j))
          (Ideal.ofBits .f32 0x44000000#32) (Ideal.ofBits .f32 0x3727C5AC#32) (visW (x1 (ix3 b (0 : Fin 1) n))) p := by
  unfold h5
  have hsum : ∀ (x : FVec Ideal S32x4096x512 .f32) (p : Fin 32) (n : Fin 4096),
      Host.reduceAdd x (constant S_ .f32 0x00000000#32) reducesTo_S32x4096x512_S32x4096_d2 h_S_ (ix2 p n)
        = ∑ k : Fin 512, x (ix3 p n k) := fun x p n => lastSum0_apply x _ (by decide) h_S_ p n
  have hkeep : ∀ (v : FVec Ideal S32x4096 .f32) (p : Fin 32) (n : Fin 4096) (z : Fin 1),
      broadcastInDim S32x4096x1 ![0, 1] bcast_S32x4096_S32x4096x1_0_1 v (ix3 p n z) = v (ix2 p n) :=
    fun v p n z => bcast_BN_BN1_apply v _ p n z
  have hsplat : ∀ (w : BitVec 32) (p : Fin 32) (n : Fin 4096) (z : Fin 1),
      broadcastInDim S32x4096x1 ![] bcast_S_S32x4096x1 (constant (F := Ideal) S_ .f32 w) (ix3 p n z) = Ideal.ofBits .f32 w :=
    fun w p n z => (bcast_scalar_apply _ _ _).trans rfl
  have hspread : ∀ (v : FVec Ideal S32x4096x1 .f32) (p : Fin 32) (n : Fin 4096) (k : Fin 512),
      broadcastInDim S32x4096x512 ![0, 1, 2] bcast_S32x4096x1_S32x4096x512_0_1_2 v (ix3 p n k) = v (ix3 p n (0 : Fin 1)) :=
    fun v p n k => bcast_BN1_BNK_apply v _ p n k
  have hchan : ∀ (v : FVec Ideal S512 .f32) (p : Fin 32) (n : Fin 4096) (k : Fin 512),
      broadcastInDim S32x4096x512 ![0, 1, 2] bcast_S1x1x512_S32x4096x512_0_1_2
        (broadcastInDim S1x1x512 ![2] bcast_S512_S1x1x512_2 v) (ix3 p n k) = v (ix1 k) :=
    fun v p n k => (bcast_11K_BNK_apply _ _ p n k).trans (bcast_K_11K_apply v _ _ _ k)
  refine (normLast_apply _ _ _ _ _ hsum hkeep hsplat hspread hchan _ _ _ _ _ _ b n p).trans ?_
  rw [vis_apply]

theorem h6_apply (b : Fin 32) (n : Fin 4096) (p : Fin 512) :
    h6 x0 x1 x2 x3 x4 x5 x6 x7 x8 x9 (ix3 b n p)
      = max (h5 x0 x1 x2 x3 x4 x5 x6 x7 x8 x9 (ix3 b n p)) (Ideal.ofBits .f32 0x00000000#32) := by
  unfold h6
  rw [maximumf_apply, bcast_scalar_apply]
  rfl

set_option maxRecDepth 65536 in
theorem h7_apply (b : Fin 32) (n : Fin 4096) (f : Fin 1024) :
    h7 x0 x1 x2 x3 x4 x5 x6 x7 x8 x9 x10 x11 (ix3 b n f)
      = (∑ p : Fin 512, (h6 x0 x1 x2 x3 x4 x5 x6 x7 x8 x9 (ix3 b n p) : EReal) * (x10 (ix2 f p) : EReal)) + x11 (ix1 f) := by
  unfold h7
  rw [addf_apply, bcast_11K_BNK_apply, bcast_K_11K_apply]
  have e := dotLast_apply dot_S32x4096x512_S1024x512_S32x4096x1024_2_1_01_0_n_n rfl rfl d4_l0 d4_l1 d4_l2 d4_r0 d4_r1 none
    (h6 x0 x1 x2 x3 x4 x5 x6 x7 x8 x9) x10 b n f
  rw [e]

theorem out_apply (b : Fin 32) (f : Fin 1024) :
    out x0 x1 x2 x3 x4 x5 x6 x7 x8 x9 x10 x11 (ix2 b f)
      = (Finset.univ : Finset (Fin 4096)).fold max (Ideal.ofBits .f32 0xFF800000#32)
          (fun n => h7 x0 x1 x2 x3 x4 x5 x6 x7 x8 x9 x10 x11 (ix3 b n f)) := by
  unfold out
  exact hostMidMax_apply _ _ reducesTo_S32x4096x1024_S32x1024_d1 (by decide) h_S_ b f

end Cert.ReferenceIdeal.Stages

end
-- ==== Proof.LibChunkMax.lean ====
/-
  The maximum of a long row taken block by block.

  A row of `N` entries is cut into consecutive blocks of `bs` entries.  A running maximum starts at `i` and, block after
  block, becomes the larger of itself and the block's own maximum (itself folded from `i`).  Stated by upper bounds: the
  running maximum before block `k` is below `c` exactly when `i` is and so is every entry before position `bs · k`.
  After the last block this is the bound characterising the maximum of the whole row folded from `i`, so the two are
  equal.  Only that `max` is the least upper bound of two elements is used.
-/
import Mathlib.Data.Finset.Fold
import Mathlib.Order.Basic
import Mathlib.Tactic

namespace Cert.LibChunkMax

variable {β : Type*} [LinearOrder β] {N bs : ℕ}

/-- Before the first block nothing has been seen. -/
theorem bound_zero (f : Fin N → β) (i : β) (c : β) :
    i ≤ c ↔ i ≤ c ∧ ∀ n : Fin N, n.val < bs * 0 → f n ≤ c :=
  ⟨fun h => ⟨h, fun n hn => absurd hn (by simp)⟩, fun h => h.1⟩

/-- One more block: the bound moves `bs` positions on. -/
theorem bound_step (f : Fin N → β) (i acc blk : β) (k : ℕ) (e : Fin bs → Fin N)
    (he : ∀ j, (e j).val = bs * k + j.val)
    (hacc : ∀ c, acc ≤ c ↔ i ≤ c ∧ ∀ n : Fin N, n.val < bs * k → f n ≤ c)
    (hblk : blk = (Finset.univ : Finset (Fin bs)).fold max i (fun j => f (e j))) (c : β) :
    max acc blk ≤ c ↔ i ≤ c ∧ ∀ n : Fin N, n.val < bs * (k + 1) → f n ≤ c := by
  rw [max_le_iff, hacc, hblk, Finset.fold_max_le, Nat.mul_succ]
  constructor
  · rintro ⟨⟨hi, h1⟩, _, h2⟩
    refine ⟨hi, fun n hn => ?_⟩
    by_cases hlt : n.val < bs * k
    · exact h1 n hlt
    · have hj : n.val - bs * k < bs := by omega
      have hn' : n = e ⟨n.val - bs * k, hj⟩ := Fin.ext (by rw [he]; show n.val = bs * k + (n.val - bs * k); omega)
      rw [hn']
      exact h2 _ (Finset.mem_univ _)
  · rintro ⟨hi, h⟩
    refine ⟨⟨hi, fun n hn => h n (by omega)⟩, hi, fun j _ => h (e j) ?_⟩
    rw [he]
    have := j.isLt
    omega

/-- After the last block the running maximum is the maximum of the whole row. -/
theorem eq_fold_of_bound (f : Fin N → β) (i acc : β) (k : ℕ) (hk : bs * k = N)
    (hacc : ∀ c, acc ≤ c ↔ i ≤ c ∧ ∀ n : Fin N, n.val < bs * k → f n ≤ c) :
    acc = (Finset.univ : Finset (Fin N)).fold max i f := by
  refine eq_of_forall_ge_iff fun c => ?_
  rw [hacc, Finset.fold_max_le]
  constructor
  · rintro ⟨hi, h⟩
    exact ⟨hi, fun n _ => h n (by rw [hk]; exact n.isLt)⟩
  · rintro ⟨hi, h⟩
    exact ⟨hi, fun n _ => h n (Finset.mem_univ _)⟩

end Cert.LibChunkMax
-- ==== Proof.KernelBatch.lean ====
/-
  One cloud: the kernel body's output block is the reference's last stage at that cloud.

  Suppose the blocks a grid point loads are cloud `b`'s slices of the argument arrays (`Blocks`: the points block is
  the cloud's points with channels on the rows, the mask block the cloud's mask row, the weights whole, the gains,
  offsets and biases columns).  Then stage by stage the body's values are the reference's at cloud `b` — the two
  sides multiply in opposite orders and sum in different shapes, which over the extended reals changes nothing — and
  the running maximum over the four blocks of 1024 points is the maximum over all 4096 points.
-/
import proofs.«116878_j73383811219637_2_alg».proof.Proof.KernelOpen
import proofs.«116878_j73383811219637_2_alg».proof.Proof.KernelStages
import proofs.«116878_j73383811219637_2_alg».proof.Proof.RefRead
import proofs.«116878_j73383811219637_2_alg».proof.Proof.LibChunkMax

set_option maxRecDepth 16384

noncomputable section

open scoped BigOperators

namespace Cert.Bridge

open Idealize.ShloMosaic Idealize.ShloMosaic.ValueIdx Idealize.ShloMosaic.TcCoe Idealize.SL.Sem
open Cert.KernelIdeal Cert.LibNorm Cert.KernelIdeal.Gen Cert.KernelIdeal.Stages Cert.ReferenceIdeal.Stages

/-- The vector unit's per-point factor is the host's: a one-bit comparison widened and read signed is the bit read
    unsigned. -/
theorem visK_eq_visW (w : BitVec 32) : visK w = visW w := by
  unfold visK visW
  generalize IntOp.cmpi .ne w 0#32 = cbit
  show (((cbit.setWidth 32).toInt : ℝ) : EReal) = ((cbit.toNat : ℝ) : EReal)
  by_cases h1 : cbit = 1#1
  · subst h1
    have ha : ((1#1 : BitVec 1).setWidth 32).toInt = 1 := by decide
    have hb : (1#1 : BitVec 1).toNat = 1 := by decide
    rw [ha, hb]
    norm_num
  · have h0 := eq_zero_of_ne_one h1
    subst h0
    have ha : ((0#1 : BitVec 1).setWidth 32).toInt = 0 := by decide
    have hb : (0#1 : BitVec 1).toNat = 0 := by decide
    rw [ha, hb]
    norm_num

variable (b : Fin 32) (x0 : Vec Ideal Cert.KernelIdeal.S1x3x4096 .f32) (x1 : Vec Ideal Cert.KernelIdeal.S1x1x4096 .i32) (x2 : Vec Ideal Cert.KernelIdeal.S128x3 .f32) (x3 x4 : Vec Ideal Cert.KernelIdeal.S128x1 .f32) (x5 : Vec Ideal Cert.KernelIdeal.S256x128 .f32) (x6 : Vec Ideal Cert.KernelIdeal.S256x1 .f32) (x7 : Vec Ideal Cert.KernelIdeal.S512x512 .f32) (x8 x9 : Vec Ideal Cert.KernelIdeal.S512x1 .f32) (x10 : Vec Ideal Cert.KernelIdeal.S1024x512 .f32) (x11 : Vec Ideal Cert.KernelIdeal.S1024x1 .f32)
  (X0 : FVec Ideal Cert.ReferenceIdeal.S32x4096x3 .f32) (X1 : IVec Cert.ReferenceIdeal.S32x1x4096 32) (X2 : FVec Ideal Cert.ReferenceIdeal.S128x3 .f32) (X3 X4 : FVec Ideal Cert.ReferenceIdeal.S128 .f32) (X5 : FVec Ideal Cert.ReferenceIdeal.S256x128 .f32) (X6 : FVec Ideal Cert.ReferenceIdeal.S256 .f32) (X7 : FVec Ideal Cert.ReferenceIdeal.S512x512 .f32) (X8 X9 : FVec Ideal Cert.ReferenceIdeal.S512 .f32) (X10 : FVec Ideal Cert.ReferenceIdeal.S1024x512 .f32) (X11 : FVec Ideal Cert.ReferenceIdeal.S1024 .f32)

/-- The loaded blocks are cloud `b`'s slices of the argument arrays. -/
structure Blocks : Prop where
  e0 : ∀ (cc : Fin 3) (n : Fin 4096), (x0 (ix3 (0 : Fin 1) cc n) : EReal) = X0 (ix3 b n cc)
  e1 : ∀ n : Fin 4096, x1 (ix3 (0 : Fin 1) (0 : Fin 1) n) = X1 (ix3 b (0 : Fin 1) n)
  e2 : ∀ (k : Fin 128) (cc : Fin 3), (x2 (ix2 k cc) : EReal) = X2 (ix2 k cc)
  e3 : ∀ k : Fin 128, (x3 (ix2 k (0 : Fin 1)) : EReal) = X3 (ix1 k)
  e4 : ∀ k : Fin 128, (x4 (ix2 k (0 : Fin 1)) : EReal) = X4 (ix1 k)
  e5 : ∀ (o : Fin 256) (k : Fin 128), (x5 (ix2 o k) : EReal) = X5 (ix2 o k)
  e6 : ∀ o : Fin 256, (x6 (ix2 o (0 : Fin 1)) : EReal) = X6 (ix1 o)
  e7 : ∀ (p q : Fin 512), (x7 (ix2 p q) : EReal) = X7 (ix2 p q)
  e8 : ∀ p : Fin 512, (x8 (ix2 p (0 : Fin 1)) : EReal) = X8 (ix1 p)
  e9 : ∀ p : Fin 512, (x9 (ix2 p (0 : Fin 1)) : EReal) = X9 (ix1 p)
  e10 : ∀ (f : Fin 1024) (p : Fin 512), (x10 (ix2 f p) : EReal) = X10 (ix2 f p)
  e11 : ∀ f : Fin 1024, (x11 (ix2 f (0 : Fin 1)) : EReal) = X11 (ix1 f)

variable {b x0 x1 x2 x3 x4 x5 x6 x7 x8 x9 x10 x11 X0 X1 X2 X3 X4 X5 X6 X7 X8 X9 X10 X11}
variable (H : Blocks b x0 x1 x2 x3 x4 x5 x6 x7 x8 x9 x10 x11 X0 X1 X2 X3 X4 X5 X6 X7 X8 X9 X10 X11)
include H

/-- The first mix, normalised and masked. -/
theorem a1_eq (k : Fin 128) (n : Fin 4096) :
    k0_pay3 (F := Ideal) x0 x1 x2 x3 x4 (ix2 k n) = h1 X0 X1 X2 X3 X4 (ix3 b n k) := by
  rw [pay3_apply, h1_apply]
  refine norm_congr (fun j => ?_) (fun j => H.e3 j) (fun j => H.e4 j) ?_ k
  · try dsimp only
    rw [h0_apply]
    refine Finset.sum_congr rfl fun cc _ => ?_
    rw [H.e2, H.e0, mul_comm]
  · rw [H.e1, visK_eq_visW]

/-- The rectifier and the second mix with its bias. -/
theorem a3_eq (o : Fin 256) (n : Fin 4096) :
    k0_pay4 (F := Ideal) (k0_pay3 (F := Ideal) x0 x1 x2 x3 x4) x5 x6 (ix2 o n) = h3 X0 X1 X2 X3 X4 X5 X6 (ix3 b n o) := by
  rw [pay4_apply, h3_apply, H.e6]
  refine congrArg (· + _) (Finset.sum_congr rfl fun k _ => ?_)
  rw [h2_apply, a1_eq H, H.e5, mul_comm]

/-- Each channel's maximum over the points. -/
theorem gm_eq (o : Fin 256) (z : Fin 1) :
    k0_pay5 (F := Ideal) (k0_pay3 (F := Ideal) x0 x1 x2 x3 x4) x5 x6 (ix2 o z) = gmax X0 X1 X2 X3 X4 X5 X6 (ix2 b o) := by
  rw [pay5_apply, gmax_apply]
  exact congrArg (fun g => Finset.fold max (Ideal.ofBits .f32 0xFF800000#32) g (Finset.univ : Finset (Fin 4096)))
    (funext fun n => a3_eq H o n)

/-- The second half on block `kk` of 1024 points, given the block of the kept second mix and of the mask. -/
theorem a7_eq (kk : ℕ) (hk : kk < 4) (Hc : Vec Ideal Cert.KernelIdeal.S256x1024 .bf16) (Mc : Vec Ideal Cert.KernelIdeal.S1x1x1024 .i32)
    (hH : ∀ (o : Fin 256) (j : Fin 1024), (Hc (ix2 o j) : EReal)
        = k0_pay4 (F := Ideal) (k0_pay3 (F := Ideal) x0 x1 x2 x3 x4) x5 x6 (ix2 o (⟨1024 * kk + j.val, by have := j.isLt; omega⟩ : Fin 4096)))
    (hM : ∀ j : Fin 1024, Mc (ix3 (0 : Fin 1) (0 : Fin 1) j)
        = x1 (ix3 (0 : Fin 1) (0 : Fin 1) (⟨1024 * kk + j.val, by have := j.isLt; omega⟩ : Fin 4096)))
    (f : Fin 1024) (j : Fin 1024) :
    k0_pay2 (F := Ideal) (k0_pay5 (F := Ideal) (k0_pay3 (F := Ideal) x0 x1 x2 x3 x4) x5 x6) (k0_pay7 (F := Ideal) x7) (k0_pay8 (F := Ideal) x8)
        (k0_pay9 (F := Ideal) x9) (k0_pay10 (F := Ideal) x10) (k0_pay11 (F := Ideal) x11) Hc Mc (ix2 f j)
      = h7 X0 X1 X2 X3 X4 X5 X6 X7 X8 X9 X10 X11 (ix3 b (⟨1024 * kk + j.val, by have := j.isLt; omega⟩ : Fin 4096) f) := by
  rw [pay2_apply, h7_apply]
  have e11 : (k0_pay11 (F := Ideal) x11 (ix2 f (0 : Fin 1)) : EReal) = X11 (ix1 f) := by
    show shapeCast Cert.KernelIdeal.S1024x1 x11 _ (ix2 f (0 : Fin 1)) = _
    rw [shapeCast_self, H.e11]
  rw [e11]
  refine congrArg (· + _) (Finset.sum_congr rfl fun p _ => ?_)
  rw [h6_apply, h5_apply, mul_comm]
  have e10 : (k0_pay10 (F := Ideal) x10 (ix2 f p) : EReal) = X10 (ix2 f p) := H.e10 f p
  rw [e10]
  refine congrArg (fun t => max t (Ideal.ofBits .f32 0x00000000#32) * (X10 (ix2 f p) : EReal)) ?_
  refine norm_congr (fun p' => ?_) (fun p' => ?_) (fun p' => ?_) ?_ p
  · try dsimp only
    rw [h4_apply]
    refine Finset.sum_congr rfl fun q _ => ?_
    have e7 : (k0_pay7 (F := Ideal) x7 (ix2 p' q) : EReal) = X7 (ix2 p' q) := H.e7 p' q
    rw [e7, mul_comm]
    refine congrArg (· * (X7 (ix2 p' q) : EReal)) ?_
    by_cases hq : q.val < 256
    · rw [distK_top _ _ q j hq, dist_left _ _ _ _ _ _ _ b _ q hq, gm_eq H]
    · have hq1 : 256 ≤ q.val := Nat.le_of_not_lt hq
      have hq2 : q.val - 256 < 256 := by have := q.isLt; omega
      rw [distK_bottom _ _ q j hq1 hq2, dist_right _ _ _ _ _ _ _ b _ q hq1 hq2, hH, a3_eq H]
  · try dsimp only
    show shapeCast Cert.KernelIdeal.S512x1 x8 _ (ix2 p' (0 : Fin 1)) = _
    rw [shapeCast_self, H.e8]
  · try dsimp only
    show shapeCast Cert.KernelIdeal.S512x1 x9 _ (ix2 p' (0 : Fin 1)) = _
    rw [shapeCast_self, H.e9]
  · rw [hM, H.e1, visK_eq_visW]

/-- The carried column before trip `k`, by upper bounds: below `cc` exactly when minus infinity is and so is the last
    stage at every point before `1024 · k`. -/
theorem acc_bound (c : Dev nD) (i : grid0.Coords) (arg1 : Memref sig .tc .vmem S1x3x4096 .f32) (harg1 : arg1.IsWhole) (arg2 : Memref sig .tc .vmem S1x1x4096 .i32) (harg2 : arg2.IsWhole) (arg3 : Memref sig .tc .vmem S128x3 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S256x128 .f32) (harg6 : arg6.IsWhole) (arg7 : Memref sig .tc .vmem S256x1 .f32) (harg7 : arg7.IsWhole) (arg8 : Memref sig .tc .vmem S512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S1024x512 .f32) (harg11 : arg11.IsWhole) (arg12 : Memref sig .tc .vmem S1024x1 .f32) (harg12 : arg12.IsWhole) (arg13 : Memref sig .tc .vmem S1x1x1024 .f32) (harg13 : arg13.IsWhole) (arg14 : Memref sig .tc .vmem S256x4096 .bf16) (harg14 : arg14.IsWhole) (f : Fin 1024) (z : Fin 1) : ∀ k : ℕ, k ≤ 4 → ∀ cc : EReal,
    ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (k0_pay3 (F := Ideal) x0 x1 x2 x3 x4) x5 x6 x7 x8 x9 x10 x11 (harg2.unread x1) (arg14.view.writes (Elt Ideal) arg14.view.junk [⟨Rect.unit (s := S256x4096) ![0, 0] S256x4096.size inb_S256x4096_S256x4096_0_0, k0_pay6 (F := Ideal) (k0_pay3 (F := Ideal) x0 x1 x2 x3 x4) x5 x6⟩]) (k0_pay12 (F := Ideal)) k) (ix2 f z) : EReal) ≤ cc
      ↔ Ideal.ofBits .f32 0xFF800000#32 ≤ cc ∧ ∀ n : Fin 4096, n.val < 1024 * k → (fun n : Fin 4096 => (h7 X0 X1 X2 X3 X4 X5 X6 X7 X8 X9 X10 X11 (ix3 b n f) : EReal)) n ≤ cc := by
  intro k
  induction k with
  | zero =>
    intro _ cc
    exact Cert.LibChunkMax.bound_zero (bs := 1024) (fun n : Fin 4096 => (h7 X0 X1 X2 X3 X4 X5 X6 X7 X8 X9 X10 X11 (ix3 b n f) : EReal)) (Ideal.ofBits .f32 0xFF800000#32) cc
  | succ k ih =>
    intro hk cc
    have hk4 : k < 4 := by omega
    have hkt : k < k0_t1_loop.trips := by
      show k < Scf.trips k0_t1_loop.lb k0_t1_loop.ub k0_t1_loop.st
      rw [Cert.KernelIdeal.Open.trips_eq]; exact hk4
    have hs := st_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (k0_pay3 (F := Ideal) x0 x1 x2 x3 x4) x5 x6 x7 x8 x9 x10 x11
      (harg2.unread x1) (arg14.view.writes (Elt Ideal) arg14.view.junk [⟨Rect.unit (s := S256x4096) ![0, 0] S256x4096.size inb_S256x4096_S256x4096_0_0, k0_pay6 (F := Ideal) (k0_pay3 (F := Ideal) x0 x1 x2 x3 x4) x5 x6⟩]) (k0_pay12 (F := Ideal)) ⟨k, hkt⟩
    have hs' : (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (k0_pay3 (F := Ideal) x0 x1 x2 x3 x4) x5 x6 x7 x8 x9 x10 x11 (harg2.unread x1) (arg14.view.writes (Elt Ideal) arg14.view.junk [⟨Rect.unit (s := S256x4096) ![0, 0] S256x4096.size inb_S256x4096_S256x4096_0_0, k0_pay6 (F := Ideal) (k0_pay3 (F := Ideal) x0 x1 x2 x3 x4) x5 x6⟩]) (k0_pay12 (F := Ideal)) (k + 1)) = _ := hs
    rw [hs', Cert.KernelIdeal.Open.tripR_eq, pay13_apply]
    refine Cert.LibChunkMax.bound_step (N := 4096) (bs := 1024) (fun n : Fin 4096 => (h7 X0 X1 X2 X3 X4 X5 X6 X7 X8 X9 X10 X11 (ix3 b n f) : EReal)) (Ideal.ofBits .f32 0xFF800000#32) _ _ k
      (fun j => (⟨1024 * k + j.val, by have := j.isLt; omega⟩ : Fin 4096)) (fun j => rfl) (ih (by omega)) ?_ cc
    refine congrArg (fun g => Finset.fold max (Ideal.ofBits .f32 0xFF800000#32) g (Finset.univ : Finset (Fin 1024)))
      (funext fun j => ?_)
    exact a7_eq H k hk4 _ _
      (fun o j' => (Cert.KernelIdeal.Open.scratch_read arg14 harg14 _ ⟨k, hkt⟩ o j' (by have := j'.isLt; show 1024 * k + j'.val < 4096; omega)).trans
        (pay6_apply _ _ _ _))
      (fun j' => Cert.KernelIdeal.Open.mask_read arg2 harg2 x1 ⟨k, hkt⟩ j' (by have := j'.isLt; show 1024 * k + j'.val < 4096; omega))
      f j

/-- THE BLOCK: what the body leaves in the output block is the reference's last stage at cloud `b`. -/
theorem block_eq (c : Dev nD) (i : grid0.Coords) (arg1 : Memref sig .tc .vmem S1x3x4096 .f32) (harg1 : arg1.IsWhole) (arg2 : Memref sig .tc .vmem S1x1x4096 .i32) (harg2 : arg2.IsWhole) (arg3 : Memref sig .tc .vmem S128x3 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S256x128 .f32) (harg6 : arg6.IsWhole) (arg7 : Memref sig .tc .vmem S256x1 .f32) (harg7 : arg7.IsWhole) (arg8 : Memref sig .tc .vmem S512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S1024x512 .f32) (harg11 : arg11.IsWhole) (arg12 : Memref sig .tc .vmem S1024x1 .f32) (harg12 : arg12.IsWhole) (arg13 : Memref sig .tc .vmem S1x1x1024 .f32) (harg13 : arg13.IsWhole) (arg14 : Memref sig .tc .vmem S256x4096 .bf16) (harg14 : arg14.IsWhole) (u w : Fin 1) (f : Fin 1024) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 (ix3 u w f) = out X0 X1 X2 X3 X4 X5 X6 X7 X8 X9 X10 X11 (ix2 b f) := by
  rw [Cert.KernelIdeal.Open.out0_eq, pay1_pay14_apply, Cert.KernelIdeal.Open.trips_eq]
  have hb := acc_bound H c i arg1 harg1 arg2 harg2 arg3 harg3 arg4 harg4 arg5 harg5 arg6 harg6 arg7 harg7 arg8 harg8 arg9 harg9 arg10 harg10 arg11 harg11 arg12 harg12 arg13 harg13 arg14 harg14 f (0 : Fin 1) 4 le_rfl
  rw [Cert.LibChunkMax.eq_fold_of_bound (N := 4096) (bs := 1024) (fun n : Fin 4096 => (h7 X0 X1 X2 X3 X4 X5 X6 X7 X8 X9 X10 X11 (ix3 b n f) : EReal)) (Ideal.ofBits .f32 0xFF800000#32) _ 4 (by norm_num) hb,
    out_apply]

/-- The same at any index of the block. -/
theorem block_any (c : Dev nD) (i : grid0.Coords) (arg1 : Memref sig .tc .vmem S1x3x4096 .f32) (harg1 : arg1.IsWhole) (arg2 : Memref sig .tc .vmem S1x1x4096 .i32) (harg2 : arg2.IsWhole) (arg3 : Memref sig .tc .vmem S128x3 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S256x128 .f32) (harg6 : arg6.IsWhole) (arg7 : Memref sig .tc .vmem S256x1 .f32) (harg7 : arg7.IsWhole) (arg8 : Memref sig .tc .vmem S512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S1024x512 .f32) (harg11 : arg11.IsWhole) (arg12 : Memref sig .tc .vmem S1024x1 .f32) (harg12 : arg12.IsWhole) (arg13 : Memref sig .tc .vmem S1x1x1024 .f32) (harg13 : arg13.IsWhole) (arg14 : Memref sig .tc .vmem S256x4096 .bf16) (harg14 : arg14.IsWhole) (y : Cert.KernelIdeal.S1x1x1024.Idx) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 y = out X0 X1 X2 X3 X4 X5 X6 X7 X8 X9 X10 X11 (ix2 b (y 2)) := by
  have h := block_eq H c i arg1 harg1 arg2 harg2 arg3 harg3 arg4 harg4 arg5 harg5 arg6 harg6 arg7 harg7 arg8 harg8 arg9 harg9 arg10 harg10 arg11 harg11 arg12 harg12 arg13 harg13 arg14 harg14 (y 0) (y 1) (y 2)
  exact (congrArg (out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11) (eq_ix3 y)).trans h

end Cert.Bridge

end
-- ==== Proof.KernelValue.lean ====
import proofs.«116878_j73383811219637_2_alg».proof.Proof.KernelBatch
import Idealize.ShloMosaic.Lib.StableHlo.Run

set_option maxRecDepth 16384

/-
  The kernel program's run read as a value.

  The region's arrays as it finds them are the argument arrays, but for the points (transposed to channels on the
  rows) and the gains, offsets and biases (recast as columns).  Grid point `t` loads cloud `t`'s slices of them, so
  what it writes back is the reference's last stage at cloud `t`; the thirty-two blocks written back tile the
  `32 × 1 × 1024` output array, and the host's final recast drops its unit axis.
-/
noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

variable (m : (ℓ : Loc nD τ sig) → Buf (Elt Ideal) ℓ) (ρ : Dev nD → PrngReg)

/-- The cloud a grid point handles. -/
def cloud (t : Fin cfg0.N) : Fin 32 := ⟨t.val, Nat.lt_of_lt_of_eq t.isLt N_0⟩

/-! ## The arrays the host writes before the region -/

theorem V_v0 (c : Dev nD) : (V m c main_v0 : S32x3x4096.Idx → EReal)
    = transpose S32x3x4096 [0, 2, 1] (m ((c : Thread nD τ).loc main_arg0)) transposes_S32x4096x3_S32x3x4096_0_2_1 := by
  show StableHlo.after hostOps0 (fun b => m (c, b)) (Proc.devRef .tc main_v0) = _
  after_results

theorem V_v1 (c : Dev nD) : (V m c main_v1 : S128x1.Idx → EReal)
    = shapeCast S128x1 (m ((c : Thread nD τ).loc main_arg3)) shapeCasts_S128_S128x1 := by
  show StableHlo.after hostOps0 (fun b => m (c, b)) (Proc.devRef .tc main_v1) = _
  after_results
  rfl

theorem V_v2 (c : Dev nD) : (V m c main_v2 : S128x1.Idx → EReal)
    = shapeCast S128x1 (m ((c : Thread nD τ).loc main_arg4)) shapeCasts_S128_S128x1 := by
  show StableHlo.after hostOps0 (fun b => m (c, b)) (Proc.devRef .tc main_v2) = _
  after_results
  rfl

theorem V_v3 (c : Dev nD) : (V m c main_v3 : S256x1.Idx → EReal)
    = shapeCast S256x1 (m ((c : Thread nD τ).loc main_arg6)) shapeCasts_S256_S256x1 := by
  show StableHlo.after hostOps0 (fun b => m (c, b)) (Proc.devRef .tc main_v3) = _
  after_results
  rfl

theorem V_v4 (c : Dev nD) : (V m c main_v4 : S512x1.Idx → EReal)
    = shapeCast S512x1 (m ((c : Thread nD τ).loc main_arg8)) shapeCasts_S512_S512x1 := by
  show StableHlo.after hostOps0 (fun b => m (c, b)) (Proc.devRef .tc main_v4) = _
  after_results
  rfl

theorem V_v5 (c : Dev nD) : (V m c main_v5 : S512x1.Idx → EReal)
    = shapeCast S512x1 (m ((c : Thread nD τ).loc main_arg9)) shapeCasts_S512_S512x1 := by
  show StableHlo.after hostOps0 (fun b => m (c, b)) (Proc.devRef .tc main_v5) = _
  after_results
  rfl

theorem V_v6 (c : Dev nD) : (V m c main_v6 : S1024x1.Idx → EReal)
    = shapeCast S1024x1 (m ((c : Thread nD τ).loc main_arg11)) shapeCasts_S1024_S1024x1 := by
  show StableHlo.after hostOps0 (fun b => m (c, b)) (Proc.devRef .tc main_v6) = _
  after_results
  rfl

/-! ## The index maps, decided over the grid -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 3) = t.val ∧ win0_12.index t (1 : Fin 3) = 0 ∧ win0_12.index t (2 : Fin 3) = 0 :=
  (by decide +kernel : ∀ t : Fin grid0.N, _)

/-! ## What a grid point loads -/

theorem blk0 (c : Dev nD) (t : Fin cfg0.N) (cc : Fin 3) (n : Fin 4096) :
    (iblk m c 0 t (ix3 (0 : Fin 1) cc n) : EReal) = m ((c : Thread nD τ).loc main_arg0) (ix3 (cloud t) n cc) := by
  obtain ⟨e0, e1, e2⟩ := idx0 t
  show (V m c main_v0 : S32x3x4096.Idx → EReal) (((cfg0.win 0).blk t).view.emb (ix3 (0 : Fin 1) cc n)) = _
  have hemb : ((cfg0.win 0).blk t).view.emb (ix3 (0 : Fin 1) cc n) = ix3 (cloud t) cc n := by
    funext a; apply Fin.ext
    match a with
    | ⟨0, _⟩ => show win0_0.index t (0 : Fin 3) * 1 + 1 * 0 = t.val; omega
    | ⟨1, _⟩ => show win0_0.index t (1 : Fin 3) * 3 + 1 * cc.val = cc.val; omega
    | ⟨2, _⟩ => show win0_0.index t (2 : Fin 3) * 4096 + 1 * n.val = n.val; omega
  rw [hemb]
  refine (congrFun (V_v0 m c) _).trans ?_
  exact transpose_ix3_021_apply _ _ (cloud t) cc n

theorem blk1 (c : Dev nD) (t : Fin cfg0.N) (n : Fin 4096) :
    iblk m c 1 t (ix3 (0 : Fin 1) (0 : Fin 1) n) = m ((c : Thread nD τ).loc main_arg1) (ix3 (cloud t) (0 : Fin 1) n) := by
  obtain ⟨e0, e1, e2⟩ := idx1 t
  show V m c main_arg1 (((cfg0.win 1).blk t).view.emb (ix3 (0 : Fin 1) (0 : Fin 1) n)) = _
  have hemb : ((cfg0.win 1).blk t).view.emb (ix3 (0 : Fin 1) (0 : Fin 1) n) = ix3 (cloud t) (0 : Fin 1) n := by
    funext a; apply Fin.ext
    match a with
    | ⟨0, _⟩ => show win0_1.index t (0 : Fin 3) * 1 + 1 * 0 = t.val; omega
    | ⟨1, _⟩ => show win0_1.index t (1 : Fin 3) * 1 + 1 * 0 = 0; omega
    | ⟨2, _⟩ => show win0_1.index t (2 : Fin 3) * 4096 + 1 * n.val = n.val; omega
  rw [hemb, V_main_arg1]

theorem blk2 (c : Dev nD) (t : Fin cfg0.N) (p : Fin 128) (q : Fin 3) :
    (iblk m c 2 t (ix2 p q) : EReal) = m ((c : Thread nD τ).loc main_arg2) (ix2 p q) := by
  obtain ⟨e0, e1⟩ := idx2 t
  show V m c main_arg2 (((cfg0.win 2).blk t).view.emb (ix2 p q)) = _
  have hemb : ((cfg0.win 2).blk t).view.emb (ix2 p q) = ix2 p q := by
    funext a; apply Fin.ext
    match a with
    | ⟨0, _⟩ => show win0_2.index t (0 : Fin 2) * 128 + 1 * p.val = p.val; omega
    | ⟨1, _⟩ => show win0_2.index t (1 : Fin 2) * 3 + 1 * q.val = q.val; omega
  rw [hemb, V_main_arg2]

theorem blk3 (c : Dev nD) (t : Fin cfg0.N) (p : Fin 128) :
    (iblk m c 3 t (ix2 p (0 : Fin 1)) : EReal) = m ((c : Thread nD τ).loc main_arg3) (ix1 p) := by
  obtain ⟨e0, e1⟩ := idx3 t
  show (V m c main_v1 : S128x1.Idx → EReal) (((cfg0.win 3).blk t).view.emb (ix2 p (0 : Fin 1))) = _
  have hemb : ((cfg0.win 3).blk t).view.emb (ix2 p (0 : Fin 1)) = ix2 p (0 : Fin 1) := by
    funext a; apply Fin.ext
    match a with
    | ⟨0, _⟩ => show win0_3.index t (0 : Fin 2) * 128 + 1 * p.val = p.val; omega
    | ⟨1, _⟩ => show win0_3.index t (1 : Fin 2) * 1 + 1 * 0 = 0; omega
  rw [hemb]
  refine (congrFun (V_v1 m c) _).trans ?_
  exact Cert.LibColumns.shapeCast_a_a1_apply _ _ p (0 : Fin 1)

theorem blk4 (c : Dev nD) (t : Fin cfg0.N) (p : Fin 128) :
    (iblk m c 4 t (ix2 p (0 : Fin 1)) : EReal) = m ((c : Thread nD τ).loc main_arg4) (ix1 p) := by
  obtain ⟨e0, e1⟩ := idx4 t
  show (V m c main_v2 : S128x1.Idx → EReal) (((cfg0.win 4).blk t).view.emb (ix2 p (0 : Fin 1))) = _
  have hemb : ((cfg0.win 4).blk t).view.emb (ix2 p (0 : Fin 1)) = ix2 p (0 : Fin 1) := by
    funext a; apply Fin.ext
    match a with
    | ⟨0, _⟩ => show win0_4.index t (0 : Fin 2) * 128 + 1 * p.val = p.val; omega
    | ⟨1, _⟩ => show win0_4.index t (1 : Fin 2) * 1 + 1 * 0 = 0; omega
  rw [hemb]
  refine (congrFun (V_v2 m c) _).trans ?_
  exact Cert.LibColumns.shapeCast_a_a1_apply _ _ p (0 : Fin 1)

theorem blk5 (c : Dev nD) (t : Fin cfg0.N) (p : Fin 256) (q : Fin 128) :
    (iblk m c 5 t (ix2 p q) : EReal) = m ((c : Thread nD τ).loc main_arg5) (ix2 p q) := by
  obtain ⟨e0, e1⟩ := idx5 t
  show V m c main_arg5 (((cfg0.win 5).blk t).view.emb (ix2 p q)) = _
  have hemb : ((cfg0.win 5).blk t).view.emb (ix2 p q) = ix2 p q := by
    funext a; apply Fin.ext
    match a with
    | ⟨0, _⟩ => show win0_5.index t (0 : Fin 2) * 256 + 1 * p.val = p.val; omega
    | ⟨1, _⟩ => show win0_5.index t (1 : Fin 2) * 128 + 1 * q.val = q.val; omega
  rw [hemb, V_main_arg5]

theorem blk6 (c : Dev nD) (t : Fin cfg0.N) (p : Fin 256) :
    (iblk m c 6 t (ix2 p (0 : Fin 1)) : EReal) = m ((c : Thread nD τ).loc main_arg6) (ix1 p) := by
  obtain ⟨e0, e1⟩ := idx6 t
  show (V m c main_v3 : S256x1.Idx → EReal) (((cfg0.win 6).blk t).view.emb (ix2 p (0 : Fin 1))) = _
  have hemb : ((cfg0.win 6).blk t).view.emb (ix2 p (0 : Fin 1)) = ix2 p (0 : Fin 1) := by
    funext a; apply Fin.ext
    match a with
    | ⟨0, _⟩ => show win0_6.index t (0 : Fin 2) * 256 + 1 * p.val = p.val; omega
    | ⟨1, _⟩ => show win0_6.index t (1 : Fin 2) * 1 + 1 * 0 = 0; omega
  rw [hemb]
  refine (congrFun (V_v3 m c) _).trans ?_
  exact Cert.LibColumns.shapeCast_a_a1_apply _ _ p (0 : Fin 1)

theorem blk7 (c : Dev nD) (t : Fin cfg0.N) (p : Fin 512) (q : Fin 512) :
    (iblk m c 7 t (ix2 p q) : EReal) = m ((c : Thread nD τ).loc main_arg7) (ix2 p q) := by
  obtain ⟨e0, e1⟩ := idx7 t
  show V m c main_arg7 (((cfg0.win 7).blk t).view.emb (ix2 p q)) = _
  have hemb : ((cfg0.win 7).blk t).view.emb (ix2 p q) = ix2 p q := by
    funext a; apply Fin.ext
    match a with
    | ⟨0, _⟩ => show win0_7.index t (0 : Fin 2) * 512 + 1 * p.val = p.val; omega
    | ⟨1, _⟩ => show win0_7.index t (1 : Fin 2) * 512 + 1 * q.val = q.val; omega
  rw [hemb, V_main_arg7]

theorem blk8 (c : Dev nD) (t : Fin cfg0.N) (p : Fin 512) :
    (iblk m c 8 t (ix2 p (0 : Fin 1)) : EReal) = m ((c : Thread nD τ).loc main_arg8) (ix1 p) := by
  obtain ⟨e0, e1⟩ := idx8 t
  show (V m c main_v4 : S512x1.Idx → EReal) (((cfg0.win 8).blk t).view.emb (ix2 p (0 : Fin 1))) = _
  have hemb : ((cfg0.win 8).blk t).view.emb (ix2 p (0 : Fin 1)) = ix2 p (0 : Fin 1) := by
    funext a; apply Fin.ext
    match a with
    | ⟨0, _⟩ => show win0_8.index t (0 : Fin 2) * 512 + 1 * p.val = p.val; omega
    | ⟨1, _⟩ => show win0_8.index t (1 : Fin 2) * 1 + 1 * 0 = 0; omega
  rw [hemb]
  refine (congrFun (V_v4 m c) _).trans ?_
  exact Cert.LibColumns.shapeCast_a_a1_apply _ _ p (0 : Fin 1)

theorem blk9 (c : Dev nD) (t : Fin cfg0.N) (p : Fin 512) :
    (iblk m c 9 t (ix2 p (0 : Fin 1)) : EReal) = m ((c : Thread nD τ).loc main_arg9) (ix1 p) := by
  obtain ⟨e0, e1⟩ := idx9 t
  show (V m c main_v5 : S512x1.Idx → EReal) (((cfg0.win 9).blk t).view.emb (ix2 p (0 : Fin 1))) = _
  have hemb : ((cfg0.win 9).blk t).view.emb (ix2 p (0 : Fin 1)) = ix2 p (0 : Fin 1) := by
    funext a; apply Fin.ext
    match a with
    | ⟨0, _⟩ => show win0_9.index t (0 : Fin 2) * 512 + 1 * p.val = p.val; omega
    | ⟨1, _⟩ => show win0_9.index t (1 : Fin 2) * 1 + 1 * 0 = 0; omega
  rw [hemb]
  refine (congrFun (V_v5 m c) _).trans ?_
  exact Cert.LibColumns.shapeCast_a_a1_apply _ _ p (0 : Fin 1)

theorem blk10 (c : Dev nD) (t : Fin cfg0.N) (p : Fin 1024) (q : Fin 512) :
    (iblk m c 10 t (ix2 p q) : EReal) = m ((c : Thread nD τ).loc main_arg10) (ix2 p q) := by
  obtain ⟨e0, e1⟩ := idx10 t
  show V m c main_arg10 (((cfg0.win 10).blk t).view.emb (ix2 p q)) = _
  have hemb : ((cfg0.win 10).blk t).view.emb (ix2 p q) = ix2 p q := by
    funext a; apply Fin.ext
    match a with
    | ⟨0, _⟩ => show win0_10.index t (0 : Fin 2) * 1024 + 1 * p.val = p.val; omega
    | ⟨1, _⟩ => show win0_10.index t (1 : Fin 2) * 512 + 1 * q.val = q.val; omega
  rw [hemb, V_main_arg10]

theorem blk11 (c : Dev nD) (t : Fin cfg0.N) (p : Fin 1024) :
    (iblk m c 11 t (ix2 p (0 : Fin 1)) : EReal) = m ((c : Thread nD τ).loc main_arg11) (ix1 p) := by
  obtain ⟨e0, e1⟩ := idx11 t
  show (V m c main_v6 : S1024x1.Idx → EReal) (((cfg0.win 11).blk t).view.emb (ix2 p (0 : Fin 1))) = _
  have hemb : ((cfg0.win 11).blk t).view.emb (ix2 p (0 : Fin 1)) = ix2 p (0 : Fin 1) := by
    funext a; apply Fin.ext
    match a with
    | ⟨0, _⟩ => show win0_11.index t (0 : Fin 2) * 1024 + 1 * p.val = p.val; omega
    | ⟨1, _⟩ => show win0_11.index t (1 : Fin 2) * 1 + 1 * 0 = 0; omega
  rw [hemb]
  refine (congrFun (V_v6 m c) _).trans ?_
  exact Cert.LibColumns.shapeCast_a_a1_apply _ _ p (0 : Fin 1)

/-- Grid point `t` loads cloud `t`'s slices. -/
theorem blocks_at (c : Dev nD) (t : Fin cfg0.N) :
    Cert.Bridge.Blocks (cloud t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  ⟨blk0 m c t, blk1 m c t, blk2 m c t, blk3 m c t, blk4 m c t, blk5 m c t, blk6 m c t, blk7 m c t, blk8 m c t, blk9 m c t,
   blk10 m c t, blk11 m c t⟩

/-! ## From blocks to the array -/

/-- The output array: the reference's last stage with a middle unit axis. -/
def G (c : Dev nD) : S32x1x1024.Idx → EReal := fun i =>
  Cert.ReferenceIdeal.Stages.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 (i 0) (i 2))

theorem G_apply (c : Dev nD) (i : S32x1x1024.Idx) :
    G m c i = Cert.ReferenceIdeal.Stages.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 (i 0) (i 2)) := rfl

attribute [irreducible] G
attribute [local irreducible] Cert.ReferenceIdeal.Stages.out

/-- A block read entry by entry through point `t`'s rectangle of an array is that block of the array. -/
theorem cut_read (t : Fin cfg0.N) (Z : Vec Ideal S1x1x1024 .f32) (Gf : S32x1x1024.Idx → EReal)
    (h : ∀ y : S1x1x1024.Idx, (Z y : EReal) = Gf (((cfg0.win 12).blk t).view.emb y)) :
    (cfg0.win 12).cut (grid0.coords t) Z = ((cfg0.win 12).blk t).view.read (Elt Ideal) Gf := by
  funext y
  exact h y

/-- A block that reads as the reference's last stage at cloud `t` is block `t` of `G`. -/
theorem cut_eq (c : Dev nD) (t : Fin cfg0.N) (Z : Vec Ideal S1x1x1024 .f32)
    (hZ : ∀ y : S1x1x1024.Idx, (Z y : EReal) = Cert.ReferenceIdeal.Stages.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 (cloud t) (y 2))) :
    (cfg0.win 12).cut (grid0.coords t) Z = ((cfg0.win 12).blk t).view.read (Elt Ideal) (G m c) := by
  refine cut_read t Z (G m c) fun y => ?_
  obtain ⟨e0, e1, e2⟩ := idx12 t
  rw [hZ, G_apply]
  refine congrArg (Cert.ReferenceIdeal.Stages.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) ?_
  funext a; apply Fin.ext
  have hy1 : (y 0).val < 1 := (y 0).isLt
  have hy0 : (y 0).val = 0 := by omega
  match a with
  | ⟨0, _⟩ => show t.val = win0_12.index t (0 : Fin 3) * 1 + 1 * (y 0).val; omega
  | ⟨1, _⟩ => show (y 2).val = win0_12.index t (2 : Fin 3) * 1024 + 1 * (y 2).val; omega

/-- What point `t` writes back is block `t` of `G`. -/
theorem flushed_eq (c : Dev nD) (t : Fin cfg0.N) :
    (dats m 0 c).flushed 12 t = ((cfg0.win 12).blk t).view.read (Elt Ideal) (G m c) := by
  show (cfg0.win 12).cut (grid0.coords t) ((dats m 0 c).after 12 t) = _
  rw [after0_12]
  unfold outsAt0
  exact cut_eq m c t _ (fun y => Cert.Bridge.block_any (blocks_at m c t) c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) (ms0_7 t) (hs0_7 t) (ms0_8 t) (hs0_8 t)
    (ms0_9 t) (hs0_9 t) (ms0_10 t) (hs0_10 t) (ms0_11 t) (hs0_11 t) (ms0_12 t) (hs0_12 t) scM0_0 (Memref.isWhole_whole _) y)

theorem mem_blk12 (t : Fin cfg0.N) (i : S32x1x1024.Idx) :
    i ∈ ((cfg0.win 12).blk t).view.set ↔ ∀ a : Fin 3, win0_12.index t a * S1x1x1024.size a ≤ (i a).val
      ∧ (i a).val < win0_12.index t a * S1x1x1024.size a + S1x1x1024.size a := by
  show i ∈ ((View.whole main_v7).slice (win0_12.rect t)).set ↔ _
  rw [View.set_slice_whole, Rect.mem_set_unit]
  exact Iff.rfl

/-- The thirty-two blocks tile the output array. -/
theorem cover12 (i : S32x1x1024.Idx) :
    ∃ t : Fin cfg0.N, (cfg0.win 12).flush t = true ∧ i ∈ ((cfg0.win 12).blk t).view.set := by
  have h0 : (i 0).val < 32 := (i 0).isLt
  have h1 : (i 1).val < 1 := (i 1).isLt
  have h2 : (i 2).val < 1024 := (i 2).isLt
  let t : Fin cfg0.N := ⟨(i 0).val, Nat.lt_of_lt_of_eq h0 N_0.symm⟩
  obtain ⟨e0, e1, e2⟩ := idx12 t
  have et : t.val = (i 0).val := rfl
  refine ⟨t, flush0_12 t, ?_⟩
  rw [mem_blk12]
  intro a
  match a with
  | ⟨0, _⟩ => show win0_12.index t (0 : Fin 3) * 1 ≤ (i 0).val ∧ (i 0).val < win0_12.index t (0 : Fin 3) * 1 + 1; omega
  | ⟨1, _⟩ => show win0_12.index t (1 : Fin 3) * 1 ≤ (i 1).val ∧ (i 1).val < win0_12.index t (1 : Fin 3) * 1 + 1; omega
  | ⟨2, _⟩ => show win0_12.index t (2 : Fin 3) * 1024 ≤ (i 2).val ∧ (i 2).val < win0_12.index t (2 : Fin 3) * 1024 + 1024; omega

/-- The output array after the region. -/
theorem final12 (c : Dev nD) : (dats m 0 c).arrAt 12 cfg0.N = G m c :=
  (dats m 0 c).arrAt_eq_of_cover 12 (G m c) (fun t _ => flushed_eq m c t) (cover12)

/-- The result buffer after the host's final recast: the reference's last stage. -/
theorem tail_v8 (c : Dev nD) :
    (Pipeline.afterTail₀ cfgs (dats m) 0 (V0 m) [hostOps1] c main_v8 : S32x1024.Idx → EReal)
      = Cert.ReferenceIdeal.Stages.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  unfold Pipeline.afterTail₀
  show StableHlo.after hostOps1 _ (Proc.devRef .tc main_v8) = _
  after_results
  rw [show Pipeline.withArrays spec0 c (V0 m c) (fun w => (dats m 0 c).arrAt w cfg0.N) (Proc.devRef .tc main_v7) = G m c from
    (Pipeline.withArrays_arr spec0 launch0.win.arr_inj c _ _ 12).trans (final12 m c)]
  funext j
  obtain ⟨p, f, rfl⟩ : ∃ (p : Fin 32) (f : Fin 1024), j = ix2 p f := ⟨j 0, j 1, eq_ix2 j⟩
  show shapeCast S32x1024 (G m c) shapeCasts_S32x1x1024_S32x1024 (ix2 p f) = _
  rw [Cert.LibPointOps.shapeCast_B1N_BN_apply, G_apply]

/-- THE RUN: every weakly fair execution of the kernel program terminates with the result at the reference's last
    stage of the argument arrays and the arguments unchanged. -/
theorem run : θ_run defs (onTc (τ := τ) (main (F := Ideal))) ⟨m, fun _ => 0, ρ⟩ (fun r => ∀ c : Dev nD,
      r.2.mem ((c.tc : Thread nD τ).loc main_v8) = Cert.ReferenceIdeal.Stages.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_v8 (Pipeline.mem_restRefs_of main_v8 (by decide) (by decide))).trans (tail_v8 m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      ((h c).1 10).trans (((dats m 0 c).arrAt_in 10 rfl _).trans ((A_eq m c 10).trans (V_main_arg10 m c))),
      (((h c).2 main_arg11 (Pipeline.mem_restRefs_of main_arg11 (by decide) (by decide))).trans (W_main_arg11 m (dats m) c))⟩)
    (run_main m ρ)

end Cert.KernelIdeal.Hand
end
-- ==== Proof.RefRun.lean ====
/-
  The reference program's run read back.  Its @main is a straight line of 91 host operations; every weakly fair
  execution ends with each buffer at the operations' results folded over the launch contents.  The line is cut into
  thirteen stretches, one per stage of the network (the per-point factor, the four channel mixes, the two
  normalisations, the two rectifiers, the two maxima over the points, the spread of the first and the join), and each
  stretch is read from contents that already hold the earlier stages: the result buffer ends at the last stage of the
  argument arrays.
-/
import proofs.«116878_j73383811219637_2_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 91 operations, in order (a called function's operations stand in its call's place, spelt `TRef.…`). -/
abbrev ops : List (HloOp τ sig (Elt F)) :=
  [ reshape main_arg1 main_v0 rfl shapeCasts_S32x1x4096_S32x4096,
    nullary main_c (constantI S_ 32 0#32),
    unary main_c main_v1 (broadcastInDim S32x4096 ![] bcast_S_S32x4096 : (⟨S_, .i32⟩ : BufTy).Contents (Elt F) → (⟨S32x4096, .i32⟩ : BufTy).Contents (Elt F)),
    binary main_v0 main_v1 main_v2 (cmpi .ne : (⟨S32x4096, .i32⟩ : BufTy).Contents (Elt F) → (⟨S32x4096, .i32⟩ : BufTy).Contents (Elt F) → (⟨S32x4096, .i1⟩ : BufTy).Contents (Elt F)),
    unary main_v2 main_v3 (uitofp .f32 : (⟨S32x4096, .i1⟩ : BufTy).Contents (Elt F) → (⟨S32x4096, .f32⟩ : BufTy).Contents (Elt F)),
    unary main_v3 main_v4 (broadcastInDim S32x4096x1 ![0, 1] bcast_S32x4096_S32x4096x1_0_1 : (⟨S32x4096, .f32⟩ : BufTy).Contents (Elt F) → (⟨S32x4096x1, .f32⟩ : BufTy).Contents (Elt F)),
    binary main_arg0 main_arg2 main_v5 ((fun l r => Host.dotGeneral dot_S32x4096x3_S128x3_S32x4096x128_2_1_01_0_n_n none l r) : (⟨S32x4096x3, .f32⟩ : BufTy).Contents (Elt F) → (⟨S128x3, .f32⟩ : BufTy).Contents (Elt F) → (⟨S32x4096x128, .f32⟩ : BufTy).Contents (Elt F)),
    nullary main_cst (constant S_ .f32 0x00000000#32),
    binary main_v5 main_cst main_v6 ((fun x v => Host.reduceAdd x v reducesTo_S32x4096x128_S32x4096_d2 h_S_) : (⟨S32x4096x128, .f32⟩ : BufTy).Contents (Elt F) → (⟨S_, .f32⟩ : BufTy).Contents (Elt F) → (⟨S32x4096, .f32⟩ : BufTy).Contents (Elt F)),
    unary main_v6 main_v7 (broadcastInDim S32x4096x1 ![0, 1] bcast_S32x4096_S32x4096x1_0_1 : (⟨S32x4096, .f32⟩ : BufTy).Contents (Elt F) → (⟨S32x4096x1, .f32⟩ : BufTy).Contents (Elt F)),
    nullary main_cst_0 (constant S_ .f32 0x43000000#32),
    unary main_cst_0 main_v8 (broadcastInDim S32x4096x1 ![] bcast_S_S32x4096x1 : (⟨S_, .f32⟩ : BufTy).Contents (Elt F) → (⟨S32x4096x1, .f32⟩ : BufTy).Contents (Elt F)),
    binary main_v7 main_v8 main_v9 (Host.divf : (⟨S32x4096x1, .f32⟩ : BufTy).Contents (Elt F) → (⟨S32x4096x1, .f32⟩ : BufTy).Contents (Elt F) → (⟨S32x4096x1, .f32⟩ : BufTy).Contents (Elt F)),
    unary main_v9 main_v10 (broadcastInDim S32x4096x128 ![0, 1, 2] bcast_S32x4096x1_S32x4096x128_0_1_2 : (⟨S32x4096x1, .f32⟩ : BufTy).Contents (Elt F) → (⟨S32x4096x128, .f32⟩ : BufTy).Contents (Elt F)),
    binary main_v5 main_v10 main_v11 (subf : (⟨S32x4096x128, .f32⟩ : BufTy).Contents (Elt F) → (⟨S32x4096x128, .f32⟩ : BufTy).Contents (Elt F) → (⟨S32x4096x128, .f32⟩ : BufTy).Contents (Elt F)),
    binary main_v11 main_v11 main_v12 (mulf : (⟨S32x4096x128, .f32⟩ : BufTy).Contents (Elt F) → (⟨S32x4096x128, .f32⟩ : BufTy).Contents (Elt F) → (⟨S32x4096x128, .f32⟩ : BufTy).Contents (Elt F)),
    nullary main_cst_1 (constant S_ .f32 0x00000000#32),
    binary main_v12 main_cst_1 main_v13 ((fun x v => Host.reduceAdd x v reducesTo_S32x4096x128_S32x4096_d2 h_S_) : (⟨S32x4096x128, .f32⟩ : BufTy).Contents (Elt F) → (⟨S_, .f32⟩ : BufTy).Contents (Elt F) → (⟨S32x4096, .f32⟩ : BufTy).Contents (Elt F)),
    unary main_v13 main_v14 (broadcastInDim S32x4096x1 ![0, 1] bcast_S32x4096_S32x4096x1_0_1 : (⟨S32x4096, .f32⟩ : BufTy).Contents (Elt F) → (⟨S32x4096x1, .f32⟩ : BufTy).Contents (Elt F)),
    nullary main_cst_2 (constant S_ .f32 0x43000000#32),
    unary main_cst_2 main_v15 (broadcastInDim S32x4096x1 ![] bcast_S_S32x4096x1 : (⟨S_, .f32⟩ : BufTy).Contents (Elt F) → (⟨S32x4096x1, .f32⟩ : BufTy).Contents (Elt F)),
    binary main_v14 main_v15 main_v16 (Host.divf : (⟨S32x4096x1, .f32⟩ : BufTy).Contents (Elt F) → (⟨S32x4096x1, .f32⟩ : BufTy).Contents (Elt F) → (⟨S32x4096x1, .f32⟩ : BufTy).Contents (Elt F)),
    unary main_v9 main_v17 (broadcastInDim S32x4096x128 ![0, 1, 2] bcast_S32x4096x1_S32x4096x128_0_1_2 : (⟨S32x4096x1, .f32⟩ : BufTy).Contents (Elt F) → (⟨S32x4096x128, .f32⟩ : BufTy).Contents (Elt F)),
    binary main_v5 main_v17 main_v18 (subf : (⟨S32x4096x128, .f32⟩ : BufTy).Contents (Elt F) → (⟨S32x4096x128, .f32⟩ : BufTy).Contents (Elt F) → (⟨S32x4096x128, .f32⟩ : BufTy).Contents (Elt F)),
    nullary main_cst_3 (constant S_ .f32 0x3727C5AC#32),
    unary main_cst_3 main_v19 (broadcastInDim S32x4096x1 ![] bcast_S_S32x4096x1 : (⟨S_, .f32⟩ : BufTy).Contents (Elt F) → (⟨S32x4096x1, .f32⟩ : BufTy).Contents (Elt F)),
    binary main_v16 main_v19 main_v20 (addf : (⟨S32x4096x1, .f32⟩ : BufTy).Contents (Elt F) → (⟨S32x4096x1, .f32⟩ : BufTy).Contents (Elt F) → (⟨S32x4096x1, .f32⟩ : BufTy).Contents (Elt F)),
    unary main_v20 main_v21 (Host.rsqrt : (⟨S32x4096x1, .f32⟩ : BufTy).Contents (Elt F) → (⟨S32x4096x1, .f32⟩ : BufTy).Contents (Elt F)),
    unary main_v21 main_v22 (broadcastInDim S32x4096x128 ![0, 1, 2] bcast_S32x4096x1_S32x4096x128_0_1_2 : (⟨S32x4096x1, .f32⟩ : BufTy).Contents (Elt F) → (⟨S32x4096x128, .f32⟩ : BufTy).Contents (Elt F)),
    binary main_v18 main_v22 main_v23 (mulf : (⟨S32x4096x128, .f32⟩ : BufTy).Contents (Elt F) → (⟨S32x4096x128, .f32⟩ : BufTy).Contents (Elt F) → (⟨S32x4096x128, .f32⟩ : BufTy).Contents (Elt F)),
    unary main_arg3 main_v24 (broadcastInDim S1x1x128 ![2] bcast_S128_S1x1x128_2 : (⟨S128, .f32⟩ : BufTy).Contents (Elt F) → (⟨S1x1x128, .f32⟩ : BufTy).Contents (Elt F)),
    unary main_v24 main_v25 (broadcastInDim S32x4096x128 ![0, 1, 2] bcast_S1x1x128_S32x4096x128_0_1_2 : (⟨S1x1x128, .f32⟩ : BufTy).Contents (Elt F) → (⟨S32x4096x128, .f32⟩ : BufTy).Contents (Elt F)),
    binary main_v23 main_v25 main_v26 (mulf : (⟨S32x4096x128, .f32⟩ : BufTy).Contents (Elt F) → (⟨S32x4096x128, .f32⟩ : BufTy).Contents (Elt F) → (⟨S32x4096x128, .f32⟩ : BufTy).Contents (Elt F)),
    unary main_arg4 main_v27 (broadcastInDim S1x1x128 ![2] bcast_S128_S1x1x128_2 : (⟨S128, .f32⟩ : BufTy).Contents (Elt F) → (⟨S1x1x128, .f32⟩ : BufTy).Contents (Elt F)),
    unary main_v27 main_v28 (broadcastInDim S32x4096x128 ![0, 1, 2] bcast_S1x1x128_S32x4096x128_0_1_2 : (⟨S1x1x128, .f32⟩ : BufTy).Contents (Elt F) → (⟨S32x4096x128, .f32⟩ : BufTy).Contents (Elt F)),
    binary main_v26 main_v28 main_v29 (addf : (⟨S32x4096x128, .f32⟩ : BufTy).Contents (Elt F) → (⟨S32x4096x128, .f32⟩ : BufTy).Contents (Elt F) → (⟨S32x4096x128, .f32⟩ : BufTy).Contents (Elt F)),
    unary main_v4 main_v30 (broadcastInDim S32x4096x128 ![0, 1, 2] bcast_S32x4096x1_S32x4096x128_0_1_2 : (⟨S32x4096x1, .f32⟩ : BufTy).Contents (Elt F) → (⟨S32x4096x128, .f32⟩ : BufTy).Contents (Elt F)),
    binary main_v29 main_v30 main_v31 (mulf : (⟨S32x4096x128, .f32⟩ : BufTy).Contents (Elt F) → (⟨S32x4096x128, .f32⟩ : BufTy).Contents (Elt F) → (⟨S32x4096x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S32x4096x128, .f32⟩) main_call0_v0) (broadcastInDim S32x4096x128 ![] bcast_S_S32x4096x128),
    TRef.binary (TRef.of (T := ⟨S32x4096x128, .f32⟩) main_v31) (TRef.of (T := ⟨S32x4096x128, .f32⟩) main_call0_v0) (TRef.of (T := ⟨S32x4096x128, .f32⟩) main_v32) maximumf,
    binary main_v32 main_arg5 main_v33 ((fun l r => Host.dotGeneral dot_S32x4096x128_S256x128_S32x4096x256_2_1_01_0_n_n none l r) : (⟨S32x4096x128, .f32⟩ : BufTy).Contents (Elt F) → (⟨S256x128, .f32⟩ : BufTy).Contents (Elt F) → (⟨S32x4096x256, .f32⟩ : BufTy).Contents (Elt F)),
    unary main_arg6 main_v34 (broadcastInDim S1x1x256 ![2] bcast_S256_S1x1x256_2 : (⟨S256, .f32⟩ : BufTy).Contents (Elt F) → (⟨S1x1x256, .f32⟩ : BufTy).Contents (Elt F)),
    unary main_v34 main_v35 (broadcastInDim S32x4096x256 ![0, 1, 2] bcast_S1x1x256_S32x4096x256_0_1_2 : (⟨S1x1x256, .f32⟩ : BufTy).Contents (Elt F) → (⟨S32x4096x256, .f32⟩ : BufTy).Contents (Elt F)),
    binary main_v33 main_v35 main_v36 (addf : (⟨S32x4096x256, .f32⟩ : BufTy).Contents (Elt F) → (⟨S32x4096x256, .f32⟩ : BufTy).Contents (Elt F) → (⟨S32x4096x256, .f32⟩ : BufTy).Contents (Elt F)),
    nullary main_cst_4 (constant S_ .f32 0xFF800000#32),
    binary main_v36 main_cst_4 main_v37 ((fun x v => Host.reduce FloatOps.maximumf x v reducesTo_S32x4096x256_S32x256_d1 h_S_) : (⟨S32x4096x256, .f32⟩ : BufTy).Contents (Elt F) → (⟨S_, .f32⟩ : BufTy).Contents (Elt F) → (⟨S32x256, .f32⟩ : BufTy).Contents (Elt F)),
    unary main_v37 main_v38 (broadcastInDim S32x1x256 ![0, 2] bcast_S32x256_S32x1x256_0_2 : (⟨S32x256, .f32⟩ : BufTy).Contents (Elt F) → (⟨S32x1x256, .f32⟩ : BufTy).Contents (Elt F)),
    unary main_v38 main_v39 (broadcastInDim S32x4096x256 ![0, 1, 2] bcast_S32x1x256_S32x4096x256_0_1_2 : (⟨S32x1x256, .f32⟩ : BufTy).Contents (Elt F) → (⟨S32x4096x256, .f32⟩ : BufTy).Contents (Elt F)),
    binary main_v39 main_v36 main_v40 ((fun a b => concatenate S32x4096x512 2 [⟨S32x4096x256, a⟩, ⟨S32x4096x256, b⟩] concatenates_S32x4096x256_S32x4096x256_S32x4096x512_d2) : (⟨S32x4096x256, .f32⟩ : BufTy).Contents (Elt F) → (⟨S32x4096x256, .f32⟩ : BufTy).Contents (Elt F) → (⟨S32x4096x512, .f32⟩ : BufTy).Contents (Elt F)),
    binary main_v40 main_arg7 main_v41 ((fun l r => Host.dotGeneral dot_S32x4096x512_S512x512_S32x4096x512_2_1_01_0_n_n none l r) : (⟨S32x4096x512, .f32⟩ : BufTy).Contents (Elt F) → (⟨S512x512, .f32⟩ : BufTy).Contents (Elt F) → (⟨S32x4096x512, .f32⟩ : BufTy).Contents (Elt F)),
    nullary main_cst_5 (constant S_ .f32 0x00000000#32),
    binary main_v41 main_cst_5 main_v42 ((fun x v => Host.reduceAdd x v reducesTo_S32x4096x512_S32x4096_d2 h_S_) : (⟨S32x4096x512, .f32⟩ : BufTy).Contents (Elt F) → (⟨S_, .f32⟩ : BufTy).Contents (Elt F) → (⟨S32x4096, .f32⟩ : BufTy).Contents (Elt F)),
    unary main_v42 main_v43 (broadcastInDim S32x4096x1 ![0, 1] bcast_S32x4096_S32x4096x1_0_1 : (⟨S32x4096, .f32⟩ : BufTy).Contents (Elt F) → (⟨S32x4096x1, .f32⟩ : BufTy).Contents (Elt F)),
    nullary main_cst_6 (constant S_ .f32 0x44000000#32),
    unary main_cst_6 main_v44 (broadcastInDim S32x4096x1 ![] bcast_S_S32x4096x1 : (⟨S_, .f32⟩ : BufTy).Contents (Elt F) → (⟨S32x4096x1, .f32⟩ : BufTy).Contents (Elt F)),
    binary main_v43 main_v44 main_v45 (Host.divf : (⟨S32x4096x1, .f32⟩ : BufTy).Contents (Elt F) → (⟨S32x4096x1, .f32⟩ : BufTy).Contents (Elt F) → (⟨S32x4096x1, .f32⟩ : BufTy).Contents (Elt F)),
    unary main_v45 main_v46 (broadcastInDim S32x4096x512 ![0, 1, 2] bcast_S32x4096x1_S32x4096x512_0_1_2 : (⟨S32x4096x1, .f32⟩ : BufTy).Contents (Elt F) → (⟨S32x4096x512, .f32⟩ : BufTy).Contents (Elt F)),
    binary main_v41 main_v46 main_v47 (subf : (⟨S32x4096x512, .f32⟩ : BufTy).Contents (Elt F) → (⟨S32x4096x512, .f32⟩ : BufTy).Contents (Elt F) → (⟨S32x4096x512, .f32⟩ : BufTy).Contents (Elt F)),
    binary main_v47 main_v47 main_v48 (mulf : (⟨S32x4096x512, .f32⟩ : BufTy).Contents (Elt F) → (⟨S32x4096x512, .f32⟩ : BufTy).Contents (Elt F) → (⟨S32x4096x512, .f32⟩ : BufTy).Contents (Elt F)),
    nullary main_cst_7 (constant S_ .f32 0x00000000#32),
    binary main_v48 main_cst_7 main_v49 ((fun x v => Host.reduceAdd x v reducesTo_S32x4096x512_S32x4096_d2 h_S_) : (⟨S32x4096x512, .f32⟩ : BufTy).Contents (Elt F) → (⟨S_, .f32⟩ : BufTy).Contents (Elt F) → (⟨S32x4096, .f32⟩ : BufTy).Contents (Elt F)),
    unary main_v49 main_v50 (broadcastInDim S32x4096x1 ![0, 1] bcast_S32x4096_S32x4096x1_0_1 : (⟨S32x4096, .f32⟩ : BufTy).Contents (Elt F) → (⟨S32x4096x1, .f32⟩ : BufTy).Contents (Elt F)),
    nullary main_cst_8 (constant S_ .f32 0x44000000#32),
    unary main_cst_8 main_v51 (broadcastInDim S32x4096x1 ![] bcast_S_S32x4096x1 : (⟨S_, .f32⟩ : BufTy).Contents (Elt F) → (⟨S32x4096x1, .f32⟩ : BufTy).Contents (Elt F)),
    binary main_v50 main_v51 main_v52 (Host.divf : (⟨S32x4096x1, .f32⟩ : BufTy).Contents (Elt F) → (⟨S32x4096x1, .f32⟩ : BufTy).Contents (Elt F) → (⟨S32x4096x1, .f32⟩ : BufTy).Contents (Elt F)),
    unary main_v45 main_v53 (broadcastInDim S32x4096x512 ![0, 1, 2] bcast_S32x4096x1_S32x4096x512_0_1_2 : (⟨S32x4096x1, .f32⟩ : BufTy).Contents (Elt F) → (⟨S32x4096x512, .f32⟩ : BufTy).Contents (Elt F)),
    binary main_v41 main_v53 main_v54 (subf : (⟨S32x4096x512, .f32⟩ : BufTy).Contents (Elt F) → (⟨S32x4096x512, .f32⟩ : BufTy).Contents (Elt F) → (⟨S32x4096x512, .f32⟩ : BufTy).Contents (Elt F)),
    nullary main_cst_9 (constant S_ .f32 0x3727C5AC#32),
    unary main_cst_9 main_v55 (broadcastInDim S32x4096x1 ![] bcast_S_S32x4096x1 : (⟨S_, .f32⟩ : BufTy).Contents (Elt F) → (⟨S32x4096x1, .f32⟩ : BufTy).Contents (Elt F)),
    binary main_v52 main_v55 main_v56 (addf : (⟨S32x4096x1, .f32⟩ : BufTy).Contents (Elt F) → (⟨S32x4096x1, .f32⟩ : BufTy).Contents (Elt F) → (⟨S32x4096x1, .f32⟩ : BufTy).Contents (Elt F)),
    unary main_v56 main_v57 (Host.rsqrt : (⟨S32x4096x1, .f32⟩ : BufTy).Contents (Elt F) → (⟨S32x4096x1, .f32⟩ : BufTy).Contents (Elt F)),
    unary main_v57 main_v58 (broadcastInDim S32x4096x512 ![0, 1, 2] bcast_S32x4096x1_S32x4096x512_0_1_2 : (⟨S32x4096x1, .f32⟩ : BufTy).Contents (Elt F) → (⟨S32x4096x512, .f32⟩ : BufTy).Contents (Elt F)),
    binary main_v54 main_v58 main_v59 (mulf : (⟨S32x4096x512, .f32⟩ : BufTy).Contents (Elt F) → (⟨S32x4096x512, .f32⟩ : BufTy).Contents (Elt F) → (⟨S32x4096x512, .f32⟩ : BufTy).Contents (Elt F)),
    unary main_arg8 main_v60 (broadcastInDim S1x1x512 ![2] bcast_S512_S1x1x512_2 : (⟨S512, .f32⟩ : BufTy).Contents (Elt F) → (⟨S1x1x512, .f32⟩ : BufTy).Contents (Elt F)),
    unary main_v60 main_v61 (broadcastInDim S32x4096x512 ![0, 1, 2] bcast_S1x1x512_S32x4096x512_0_1_2 : (⟨S1x1x512, .f32⟩ : BufTy).Contents (Elt F) → (⟨S32x4096x512, .f32⟩ : BufTy).Contents (Elt F)),
    binary main_v59 main_v61 main_v62 (mulf : (⟨S32x4096x512, .f32⟩ : BufTy).Contents (Elt F) → (⟨S32x4096x512, .f32⟩ : BufTy).Contents (Elt F) → (⟨S32x4096x512, .f32⟩ : BufTy).Contents (Elt F)),
    unary main_arg9 main_v63 (broadcastInDim S1x1x512 ![2] bcast_S512_S1x1x512_2 : (⟨S512, .f32⟩ : BufTy).Contents (Elt F) → (⟨S1x1x512, .f32⟩ : BufTy).Contents (Elt F)),
    unary main_v63 main_v64 (broadcastInDim S32x4096x512 ![0, 1, 2] bcast_S1x1x512_S32x4096x512_0_1_2 : (⟨S1x1x512, .f32⟩ : BufTy).Contents (Elt F) → (⟨S32x4096x512, .f32⟩ : BufTy).Contents (Elt F)),
    binary main_v62 main_v64 main_v65 (addf : (⟨S32x4096x512, .f32⟩ : BufTy).Contents (Elt F) → (⟨S32x4096x512, .f32⟩ : BufTy).Contents (Elt F) → (⟨S32x4096x512, .f32⟩ : BufTy).Contents (Elt F)),
    unary main_v4 main_v66 (broadcastInDim S32x4096x512 ![0, 1, 2] bcast_S32x4096x1_S32x4096x512_0_1_2 : (⟨S32x4096x1, .f32⟩ : BufTy).Contents (Elt F) → (⟨S32x4096x512, .f32⟩ : BufTy).Contents (Elt F)),
    binary main_v65 main_v66 main_v67 (mulf : (⟨S32x4096x512, .f32⟩ : BufTy).Contents (Elt F) → (⟨S32x4096x512, .f32⟩ : BufTy).Contents (Elt F) → (⟨S32x4096x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S32x4096x512, .f32⟩) main_call1_v0) (broadcastInDim S32x4096x512 ![] bcast_S_S32x4096x512),
    TRef.binary (TRef.of (T := ⟨S32x4096x512, .f32⟩) main_v67) (TRef.of (T := ⟨S32x4096x512, .f32⟩) main_call1_v0) (TRef.of (T := ⟨S32x4096x512, .f32⟩) main_v68) maximumf,
    binary main_v68 main_arg10 main_v69 ((fun l r => Host.dotGeneral dot_S32x4096x512_S1024x512_S32x4096x1024_2_1_01_0_n_n none l r) : (⟨S32x4096x512, .f32⟩ : BufTy).Contents (Elt F) → (⟨S1024x512, .f32⟩ : BufTy).Contents (Elt F) → (⟨S32x4096x1024, .f32⟩ : BufTy).Contents (Elt F)),
    unary main_arg11 main_v70 (broadcastInDim S1x1x1024 ![2] bcast_S1024_S1x1x1024_2 : (⟨S1024, .f32⟩ : BufTy).Contents (Elt F) → (⟨S1x1x1024, .f32⟩ : BufTy).Contents (Elt F)),
    unary main_v70 main_v71 (broadcastInDim S32x4096x1024 ![0, 1, 2] bcast_S1x1x1024_S32x4096x1024_0_1_2 : (⟨S1x1x1024, .f32⟩ : BufTy).Contents (Elt F) → (⟨S32x4096x1024, .f32⟩ : BufTy).Contents (Elt F)),
    binary main_v69 main_v71 main_v72 (addf : (⟨S32x4096x1024, .f32⟩ : BufTy).Contents (Elt F) → (⟨S32x4096x1024, .f32⟩ : BufTy).Contents (Elt F) → (⟨S32x4096x1024, .f32⟩ : BufTy).Contents (Elt F)),
    nullary main_cst_10 (constant S_ .f32 0xFF800000#32),
    binary main_v72 main_cst_10 main_v73 ((fun x v => Host.reduce FloatOps.maximumf x v reducesTo_S32x4096x1024_S32x1024_d1 h_S_) : (⟨S32x4096x1024, .f32⟩ : BufTy).Contents (Elt F) → (⟨S_, .f32⟩ : BufTy).Contents (Elt F) → (⟨S32x1024, .f32⟩ : BufTy).Contents (Elt F)) ]

set_option maxRecDepth 131072 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 131072 in
theorem ops_sub : (ops : List (HloOp τ sig (Elt F))).Forall fun op => op.bufs ⊆ tcRefs τ sig :=
  ⟨reshape_bufs_sub .., nullary_bufs_sub .., unary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub ..⟩

/-! ## The operations in thirteen stretches, one per stage of the network

Each stretch is run from contents `W` that hold, at the buffers the stretch and the later ones read, the earlier
stages of the argument arrays `x0 … x11`; after it the buffers still to be read hold the next stage.  Read this way
no composed term is ever larger than one stage over the names of the earlier ones. -/

theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- Stretch 1: operations 1 … 6. -/
abbrev seg1 : List (HloOp τ sig (Elt F)) :=
  [ reshape main_arg1 main_v0 rfl shapeCasts_S32x1x4096_S32x4096,
    nullary main_c (constantI S_ 32 0#32),
    unary main_c main_v1 (broadcastInDim S32x4096 ![] bcast_S_S32x4096 : (⟨S_, .i32⟩ : BufTy).Contents (Elt F) → (⟨S32x4096, .i32⟩ : BufTy).Contents (Elt F)),
    binary main_v0 main_v1 main_v2 (cmpi .ne : (⟨S32x4096, .i32⟩ : BufTy).Contents (Elt F) → (⟨S32x4096, .i32⟩ : BufTy).Contents (Elt F) → (⟨S32x4096, .i1⟩ : BufTy).Contents (Elt F)),
    unary main_v2 main_v3 (uitofp .f32 : (⟨S32x4096, .i1⟩ : BufTy).Contents (Elt F) → (⟨S32x4096, .f32⟩ : BufTy).Contents (Elt F)),
    unary main_v3 main_v4 (broadcastInDim S32x4096x1 ![0, 1] bcast_S32x4096_S32x4096x1_0_1 : (⟨S32x4096, .f32⟩ : BufTy).Contents (Elt F) → (⟨S32x4096x1, .f32⟩ : BufTy).Contents (Elt F)) ]

/-- Stretch 2: operations 7 … 7. -/
abbrev seg2 : List (HloOp τ sig (Elt F)) :=
  [ binary main_arg0 main_arg2 main_v5 ((fun l r => Host.dotGeneral dot_S32x4096x3_S128x3_S32x4096x128_2_1_01_0_n_n none l r) : (⟨S32x4096x3, .f32⟩ : BufTy).Contents (Elt F) → (⟨S128x3, .f32⟩ : BufTy).Contents (Elt F) → (⟨S32x4096x128, .f32⟩ : BufTy).Contents (Elt F)) ]

/-- Stretch 3: operations 8 … 38. -/
abbrev seg3 : List (HloOp τ sig (Elt F)) :=
  [ nullary main_cst (constant S_ .f32 0x00000000#32),
    binary main_v5 main_cst main_v6 ((fun x v => Host.reduceAdd x v reducesTo_S32x4096x128_S32x4096_d2 h_S_) : (⟨S32x4096x128, .f32⟩ : BufTy).Contents (Elt F) → (⟨S_, .f32⟩ : BufTy).Contents (Elt F) → (⟨S32x4096, .f32⟩ : BufTy).Contents (Elt F)),
    unary main_v6 main_v7 (broadcastInDim S32x4096x1 ![0, 1] bcast_S32x4096_S32x4096x1_0_1 : (⟨S32x4096, .f32⟩ : BufTy).Contents (Elt F) → (⟨S32x4096x1, .f32⟩ : BufTy).Contents (Elt F)),
    nullary main_cst_0 (constant S_ .f32 0x43000000#32),
    unary main_cst_0 main_v8 (broadcastInDim S32x4096x1 ![] bcast_S_S32x4096x1 : (⟨S_, .f32⟩ : BufTy).Contents (Elt F) → (⟨S32x4096x1, .f32⟩ : BufTy).Contents (Elt F)),
    binary main_v7 main_v8 main_v9 (Host.divf : (⟨S32x4096x1, .f32⟩ : BufTy).Contents (Elt F) → (⟨S32x4096x1, .f32⟩ : BufTy).Contents (Elt F) → (⟨S32x4096x1, .f32⟩ : BufTy).Contents (Elt F)),
    unary main_v9 main_v10 (broadcastInDim S32x4096x128 ![0, 1, 2] bcast_S32x4096x1_S32x4096x128_0_1_2 : (⟨S32x4096x1, .f32⟩ : BufTy).Contents (Elt F) → (⟨S32x4096x128, .f32⟩ : BufTy).Contents (Elt F)),
    binary main_v5 main_v10 main_v11 (subf : (⟨S32x4096x128, .f32⟩ : BufTy).Contents (Elt F) → (⟨S32x4096x128, .f32⟩ : BufTy).Contents (Elt F) → (⟨S32x4096x128, .f32⟩ : BufTy).Contents (Elt F)),
    binary main_v11 main_v11 main_v12 (mulf : (⟨S32x4096x128, .f32⟩ : BufTy).Contents (Elt F) → (⟨S32x4096x128, .f32⟩ : BufTy).Contents (Elt F) → (⟨S32x4096x128, .f32⟩ : BufTy).Contents (Elt F)),
    nullary main_cst_1 (constant S_ .f32 0x00000000#32),
    binary main_v12 main_cst_1 main_v13 ((fun x v => Host.reduceAdd x v reducesTo_S32x4096x128_S32x4096_d2 h_S_) : (⟨S32x4096x128, .f32⟩ : BufTy).Contents (Elt F) → (⟨S_, .f32⟩ : BufTy).Contents (Elt F) → (⟨S32x4096, .f32⟩ : BufTy).Contents (Elt F)),
    unary main_v13 main_v14 (broadcastInDim S32x4096x1 ![0, 1] bcast_S32x4096_S32x4096x1_0_1 : (⟨S32x4096, .f32⟩ : BufTy).Contents (Elt F) → (⟨S32x4096x1, .f32⟩ : BufTy).Contents (Elt F)),
    nullary main_cst_2 (constant S_ .f32 0x43000000#32),
    unary main_cst_2 main_v15 (broadcastInDim S32x4096x1 ![] bcast_S_S32x4096x1 : (⟨S_, .f32⟩ : BufTy).Contents (Elt F) → (⟨S32x4096x1, .f32⟩ : BufTy).Contents (Elt F)),
    binary main_v14 main_v15 main_v16 (Host.divf : (⟨S32x4096x1, .f32⟩ : BufTy).Contents (Elt F) → (⟨S32x4096x1, .f32⟩ : BufTy).Contents (Elt F) → (⟨S32x4096x1, .f32⟩ : BufTy).Contents (Elt F)),
    unary main_v9 main_v17 (broadcastInDim S32x4096x128 ![0, 1, 2] bcast_S32x4096x1_S32x4096x128_0_1_2 : (⟨S32x4096x1, .f32⟩ : BufTy).Contents (Elt F) → (⟨S32x4096x128, .f32⟩ : BufTy).Contents (Elt F)),
    binary main_v5 main_v17 main_v18 (subf : (⟨S32x4096x128, .f32⟩ : BufTy).Contents (Elt F) → (⟨S32x4096x128, .f32⟩ : BufTy).Contents (Elt F) → (⟨S32x4096x128, .f32⟩ : BufTy).Contents (Elt F)),
    nullary main_cst_3 (constant S_ .f32 0x3727C5AC#32),
    unary main_cst_3 main_v19 (broadcastInDim S32x4096x1 ![] bcast_S_S32x4096x1 : (⟨S_, .f32⟩ : BufTy).Contents (Elt F) → (⟨S32x4096x1, .f32⟩ : BufTy).Contents (Elt F)),
    binary main_v16 main_v19 main_v20 (addf : (⟨S32x4096x1, .f32⟩ : BufTy).Contents (Elt F) → (⟨S32x4096x1, .f32⟩ : BufTy).Contents (Elt F) → (⟨S32x4096x1, .f32⟩ : BufTy).Contents (Elt F)),
    unary main_v20 main_v21 (Host.rsqrt : (⟨S32x4096x1, .f32⟩ : BufTy).Contents (Elt F) → (⟨S32x4096x1, .f32⟩ : BufTy).Contents (Elt F)),
    unary main_v21 main_v22 (broadcastInDim S32x4096x128 ![0, 1, 2] bcast_S32x4096x1_S32x4096x128_0_1_2 : (⟨S32x4096x1, .f32⟩ : BufTy).Contents (Elt F) → (⟨S32x4096x128, .f32⟩ : BufTy).Contents (Elt F)),
    binary main_v18 main_v22 main_v23 (mulf : (⟨S32x4096x128, .f32⟩ : BufTy).Contents (Elt F) → (⟨S32x4096x128, .f32⟩ : BufTy).Contents (Elt F) → (⟨S32x4096x128, .f32⟩ : BufTy).Contents (Elt F)),
    unary main_arg3 main_v24 (broadcastInDim S1x1x128 ![2] bcast_S128_S1x1x128_2 : (⟨S128, .f32⟩ : BufTy).Contents (Elt F) → (⟨S1x1x128, .f32⟩ : BufTy).Contents (Elt F)),
    unary main_v24 main_v25 (broadcastInDim S32x4096x128 ![0, 1, 2] bcast_S1x1x128_S32x4096x128_0_1_2 : (⟨S1x1x128, .f32⟩ : BufTy).Contents (Elt F) → (⟨S32x4096x128, .f32⟩ : BufTy).Contents (Elt F)),
    binary main_v23 main_v25 main_v26 (mulf : (⟨S32x4096x128, .f32⟩ : BufTy).Contents (Elt F) → (⟨S32x4096x128, .f32⟩ : BufTy).Contents (Elt F) → (⟨S32x4096x128, .f32⟩ : BufTy).Contents (Elt F)),
    unary main_arg4 main_v27 (broadcastInDim S1x1x128 ![2] bcast_S128_S1x1x128_2 : (⟨S128, .f32⟩ : BufTy).Contents (Elt F) → (⟨S1x1x128, .f32⟩ : BufTy).Contents (Elt F)),
    unary main_v27 main_v28 (broadcastInDim S32x4096x128 ![0, 1, 2] bcast_S1x1x128_S32x4096x128_0_1_2 : (⟨S1x1x128, .f32⟩ : BufTy).Contents (Elt F) → (⟨S32x4096x128, .f32⟩ : BufTy).Contents (Elt F)),
    binary main_v26 main_v28 main_v29 (addf : (⟨S32x4096x128, .f32⟩ : BufTy).Contents (Elt F) → (⟨S32x4096x128, .f32⟩ : BufTy).Contents (Elt F) → (⟨S32x4096x128, .f32⟩ : BufTy).Contents (Elt F)),
    unary main_v4 main_v30 (broadcastInDim S32x4096x128 ![0, 1, 2] bcast_S32x4096x1_S32x4096x128_0_1_2 : (⟨S32x4096x1, .f32⟩ : BufTy).Contents (Elt F) → (⟨S32x4096x128, .f32⟩ : BufTy).Contents (Elt F)),
    binary main_v29 main_v30 main_v31 (mulf : (⟨S32x4096x128, .f32⟩ : BufTy).Contents (Elt F) → (⟨S32x4096x128, .f32⟩ : BufTy).Contents (Elt F) → (⟨S32x4096x128, .f32⟩ : BufTy).Contents (Elt F)) ]

/-- Stretch 4: operations 39 … 41. -/
abbrev seg4 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S32x4096x128, .f32⟩) main_call0_v0) (broadcastInDim S32x4096x128 ![] bcast_S_S32x4096x128),
    TRef.binary (TRef.of (T := ⟨S32x4096x128, .f32⟩) main_v31) (TRef.of (T := ⟨S32x4096x128, .f32⟩) main_call0_v0) (TRef.of (T := ⟨S32x4096x128, .f32⟩) main_v32) maximumf ]

/-- Stretch 5: operations 42 … 45. -/
abbrev seg5 : List (HloOp τ sig (Elt F)) :=
  [ binary main_v32 main_arg5 main_v33 ((fun l r => Host.dotGeneral dot_S32x4096x128_S256x128_S32x4096x256_2_1_01_0_n_n none l r) : (⟨S32x4096x128, .f32⟩ : BufTy).Contents (Elt F) → (⟨S256x128, .f32⟩ : BufTy).Contents (Elt F) → (⟨S32x4096x256, .f32⟩ : BufTy).Contents (Elt F)),
    unary main_arg6 main_v34 (broadcastInDim S1x1x256 ![2] bcast_S256_S1x1x256_2 : (⟨S256, .f32⟩ : BufTy).Contents (Elt F) → (⟨S1x1x256, .f32⟩ : BufTy).Contents (Elt F)),
    unary main_v34 main_v35 (broadcastInDim S32x4096x256 ![0, 1, 2] bcast_S1x1x256_S32x4096x256_0_1_2 : (⟨S1x1x256, .f32⟩ : BufTy).Contents (Elt F) → (⟨S32x4096x256, .f32⟩ : BufTy).Contents (Elt F)),
    binary main_v33 main_v35 main_v36 (addf : (⟨S32x4096x256, .f32⟩ : BufTy).Contents (Elt F) → (⟨S32x4096x256, .f32⟩ : BufTy).Contents (Elt F) → (⟨S32x4096x256, .f32⟩ : BufTy).Contents (Elt F)) ]

/-- Stretch 6: operations 46 … 47. -/
abbrev seg6 : List (HloOp τ sig (Elt F)) :=
  [ nullary main_cst_4 (constant S_ .f32 0xFF800000#32),
    binary main_v36 main_cst_4 main_v37 ((fun x v => Host.reduce FloatOps.maximumf x v reducesTo_S32x4096x256_S32x256_d1 h_S_) : (⟨S32x4096x256, .f32⟩ : BufTy).Contents (Elt F) → (⟨S_, .f32⟩ : BufTy).Contents (Elt F) → (⟨S32x256, .f32⟩ : BufTy).Contents (Elt F)) ]

/-- Stretch 7: operations 48 … 49. -/
abbrev seg7 : List (HloOp τ sig (Elt F)) :=
  [ unary main_v37 main_v38 (broadcastInDim S32x1x256 ![0, 2] bcast_S32x256_S32x1x256_0_2 : (⟨S32x256, .f32⟩ : BufTy).Contents (Elt F) → (⟨S32x1x256, .f32⟩ : BufTy).Contents (Elt F)),
    unary main_v38 main_v39 (broadcastInDim S32x4096x256 ![0, 1, 2] bcast_S32x1x256_S32x4096x256_0_1_2 : (⟨S32x1x256, .f32⟩ : BufTy).Contents (Elt F) → (⟨S32x4096x256, .f32⟩ : BufTy).Contents (Elt F)) ]

/-- Stretch 8: operations 50 … 50. -/
abbrev seg8 : List (HloOp τ sig (Elt F)) :=
  [ binary main_v39 main_v36 main_v40 ((fun a b => concatenate S32x4096x512 2 [⟨S32x4096x256, a⟩, ⟨S32x4096x256, b⟩] concatenates_S32x4096x256_S32x4096x256_S32x4096x512_d2) : (⟨S32x4096x256, .f32⟩ : BufTy).Contents (Elt F) → (⟨S32x4096x256, .f32⟩ : BufTy).Contents (Elt F) → (⟨S32x4096x512, .f32⟩ : BufTy).Contents (Elt F)) ]

/-- Stretch 9: operations 51 … 51. -/
abbrev seg9 : List (HloOp τ sig (Elt F)) :=
  [ binary main_v40 main_arg7 main_v41 ((fun l r => Host.dotGeneral dot_S32x4096x512_S512x512_S32x4096x512_2_1_01_0_n_n none l r) : (⟨S32x4096x512, .f32⟩ : BufTy).Contents (Elt F) → (⟨S512x512, .f32⟩ : BufTy).Contents (Elt F) → (⟨S32x4096x512, .f32⟩ : BufTy).Contents (Elt F)) ]

/-- Stretch 10: operations 52 … 82. -/
abbrev seg10 : List (HloOp τ sig (Elt F)) :=
  [ nullary main_cst_5 (constant S_ .f32 0x00000000#32),
    binary main_v41 main_cst_5 main_v42 ((fun x v => Host.reduceAdd x v reducesTo_S32x4096x512_S32x4096_d2 h_S_) : (⟨S32x4096x512, .f32⟩ : BufTy).Contents (Elt F) → (⟨S_, .f32⟩ : BufTy).Contents (Elt F) → (⟨S32x4096, .f32⟩ : BufTy).Contents (Elt F)),
    unary main_v42 main_v43 (broadcastInDim S32x4096x1 ![0, 1] bcast_S32x4096_S32x4096x1_0_1 : (⟨S32x4096, .f32⟩ : BufTy).Contents (Elt F) → (⟨S32x4096x1, .f32⟩ : BufTy).Contents (Elt F)),
    nullary main_cst_6 (constant S_ .f32 0x44000000#32),
    unary main_cst_6 main_v44 (broadcastInDim S32x4096x1 ![] bcast_S_S32x4096x1 : (⟨S_, .f32⟩ : BufTy).Contents (Elt F) → (⟨S32x4096x1, .f32⟩ : BufTy).Contents (Elt F)),
    binary main_v43 main_v44 main_v45 (Host.divf : (⟨S32x4096x1, .f32⟩ : BufTy).Contents (Elt F) → (⟨S32x4096x1, .f32⟩ : BufTy).Contents (Elt F) → (⟨S32x4096x1, .f32⟩ : BufTy).Contents (Elt F)),
    unary main_v45 main_v46 (broadcastInDim S32x4096x512 ![0, 1, 2] bcast_S32x4096x1_S32x4096x512_0_1_2 : (⟨S32x4096x1, .f32⟩ : BufTy).Contents (Elt F) → (⟨S32x4096x512, .f32⟩ : BufTy).Contents (Elt F)),
    binary main_v41 main_v46 main_v47 (subf : (⟨S32x4096x512, .f32⟩ : BufTy).Contents (Elt F) → (⟨S32x4096x512, .f32⟩ : BufTy).Contents (Elt F) → (⟨S32x4096x512, .f32⟩ : BufTy).Contents (Elt F)),
    binary main_v47 main_v47 main_v48 (mulf : (⟨S32x4096x512, .f32⟩ : BufTy).Contents (Elt F) → (⟨S32x4096x512, .f32⟩ : BufTy).Contents (Elt F) → (⟨S32x4096x512, .f32⟩ : BufTy).Contents (Elt F)),
    nullary main_cst_7 (constant S_ .f32 0x00000000#32),
    binary main_v48 main_cst_7 main_v49 ((fun x v => Host.reduceAdd x v reducesTo_S32x4096x512_S32x4096_d2 h_S_) : (⟨S32x4096x512, .f32⟩ : BufTy).Contents (Elt F) → (⟨S_, .f32⟩ : BufTy).Contents (Elt F) → (⟨S32x4096, .f32⟩ : BufTy).Contents (Elt F)),
    unary main_v49 main_v50 (broadcastInDim S32x4096x1 ![0, 1] bcast_S32x4096_S32x4096x1_0_1 : (⟨S32x4096, .f32⟩ : BufTy).Contents (Elt F) → (⟨S32x4096x1, .f32⟩ : BufTy).Contents (Elt F)),
    nullary main_cst_8 (constant S_ .f32 0x44000000#32),
    unary main_cst_8 main_v51 (broadcastInDim S32x4096x1 ![] bcast_S_S32x4096x1 : (⟨S_, .f32⟩ : BufTy).Contents (Elt F) → (⟨S32x4096x1, .f32⟩ : BufTy).Contents (Elt F)),
    binary main_v50 main_v51 main_v52 (Host.divf : (⟨S32x4096x1, .f32⟩ : BufTy).Contents (Elt F) → (⟨S32x4096x1, .f32⟩ : BufTy).Contents (Elt F) → (⟨S32x4096x1, .f32⟩ : BufTy).Contents (Elt F)),
    unary main_v45 main_v53 (broadcastInDim S32x4096x512 ![0, 1, 2] bcast_S32x4096x1_S32x4096x512_0_1_2 : (⟨S32x4096x1, .f32⟩ : BufTy).Contents (Elt F) → (⟨S32x4096x512, .f32⟩ : BufTy).Contents (Elt F)),
    binary main_v41 main_v53 main_v54 (subf : (⟨S32x4096x512, .f32⟩ : BufTy).Contents (Elt F) → (⟨S32x4096x512, .f32⟩ : BufTy).Contents (Elt F) → (⟨S32x4096x512, .f32⟩ : BufTy).Contents (Elt F)),
    nullary main_cst_9 (constant S_ .f32 0x3727C5AC#32),
    unary main_cst_9 main_v55 (broadcastInDim S32x4096x1 ![] bcast_S_S32x4096x1 : (⟨S_, .f32⟩ : BufTy).Contents (Elt F) → (⟨S32x4096x1, .f32⟩ : BufTy).Contents (Elt F)),
    binary main_v52 main_v55 main_v56 (addf : (⟨S32x4096x1, .f32⟩ : BufTy).Contents (Elt F) → (⟨S32x4096x1, .f32⟩ : BufTy).Contents (Elt F) → (⟨S32x4096x1, .f32⟩ : BufTy).Contents (Elt F)),
    unary main_v56 main_v57 (Host.rsqrt : (⟨S32x4096x1, .f32⟩ : BufTy).Contents (Elt F) → (⟨S32x4096x1, .f32⟩ : BufTy).Contents (Elt F)),
    unary main_v57 main_v58 (broadcastInDim S32x4096x512 ![0, 1, 2] bcast_S32x4096x1_S32x4096x512_0_1_2 : (⟨S32x4096x1, .f32⟩ : BufTy).Contents (Elt F) → (⟨S32x4096x512, .f32⟩ : BufTy).Contents (Elt F)),
    binary main_v54 main_v58 main_v59 (mulf : (⟨S32x4096x512, .f32⟩ : BufTy).Contents (Elt F) → (⟨S32x4096x512, .f32⟩ : BufTy).Contents (Elt F) → (⟨S32x4096x512, .f32⟩ : BufTy).Contents (Elt F)),
    unary main_arg8 main_v60 (broadcastInDim S1x1x512 ![2] bcast_S512_S1x1x512_2 : (⟨S512, .f32⟩ : BufTy).Contents (Elt F) → (⟨S1x1x512, .f32⟩ : BufTy).Contents (Elt F)),
    unary main_v60 main_v61 (broadcastInDim S32x4096x512 ![0, 1, 2] bcast_S1x1x512_S32x4096x512_0_1_2 : (⟨S1x1x512, .f32⟩ : BufTy).Contents (Elt F) → (⟨S32x4096x512, .f32⟩ : BufTy).Contents (Elt F)),
    binary main_v59 main_v61 main_v62 (mulf : (⟨S32x4096x512, .f32⟩ : BufTy).Contents (Elt F) → (⟨S32x4096x512, .f32⟩ : BufTy).Contents (Elt F) → (⟨S32x4096x512, .f32⟩ : BufTy).Contents (Elt F)),
    unary main_arg9 main_v63 (broadcastInDim S1x1x512 ![2] bcast_S512_S1x1x512_2 : (⟨S512, .f32⟩ : BufTy).Contents (Elt F) → (⟨S1x1x512, .f32⟩ : BufTy).Contents (Elt F)),
    unary main_v63 main_v64 (broadcastInDim S32x4096x512 ![0, 1, 2] bcast_S1x1x512_S32x4096x512_0_1_2 : (⟨S1x1x512, .f32⟩ : BufTy).Contents (Elt F) → (⟨S32x4096x512, .f32⟩ : BufTy).Contents (Elt F)),
    binary main_v62 main_v64 main_v65 (addf : (⟨S32x4096x512, .f32⟩ : BufTy).Contents (Elt F) → (⟨S32x4096x512, .f32⟩ : BufTy).Contents (Elt F) → (⟨S32x4096x512, .f32⟩ : BufTy).Contents (Elt F)),
    unary main_v4 main_v66 (broadcastInDim S32x4096x512 ![0, 1, 2] bcast_S32x4096x1_S32x4096x512_0_1_2 : (⟨S32x4096x1, .f32⟩ : BufTy).Contents (Elt F) → (⟨S32x4096x512, .f32⟩ : BufTy).Contents (Elt F)),
    binary main_v65 main_v66 main_v67 (mulf : (⟨S32x4096x512, .f32⟩ : BufTy).Contents (Elt F) → (⟨S32x4096x512, .f32⟩ : BufTy).Contents (Elt F) → (⟨S32x4096x512, .f32⟩ : BufTy).Contents (Elt F)) ]

/-- Stretch 11: operations 83 … 85. -/
abbrev seg11 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S32x4096x512, .f32⟩) main_call1_v0) (broadcastInDim S32x4096x512 ![] bcast_S_S32x4096x512),
    TRef.binary (TRef.of (T := ⟨S32x4096x512, .f32⟩) main_v67) (TRef.of (T := ⟨S32x4096x512, .f32⟩) main_call1_v0) (TRef.of (T := ⟨S32x4096x512, .f32⟩) main_v68) maximumf ]

/-- Stretch 12: operations 86 … 89. -/
abbrev seg12 : List (HloOp τ sig (Elt F)) :=
  [ binary main_v68 main_arg10 main_v69 ((fun l r => Host.dotGeneral dot_S32x4096x512_S1024x512_S32x4096x1024_2_1_01_0_n_n none l r) : (⟨S32x4096x512, .f32⟩ : BufTy).Contents (Elt F) → (⟨S1024x512, .f32⟩ : BufTy).Contents (Elt F) → (⟨S32x4096x1024, .f32⟩ : BufTy).Contents (Elt F)),
    unary main_arg11 main_v70 (broadcastInDim S1x1x1024 ![2] bcast_S1024_S1x1x1024_2 : (⟨S1024, .f32⟩ : BufTy).Contents (Elt F) → (⟨S1x1x1024, .f32⟩ : BufTy).Contents (Elt F)),
    unary main_v70 main_v71 (broadcastInDim S32x4096x1024 ![0, 1, 2] bcast_S1x1x1024_S32x4096x1024_0_1_2 : (⟨S1x1x1024, .f32⟩ : BufTy).Contents (Elt F) → (⟨S32x4096x1024, .f32⟩ : BufTy).Contents (Elt F)),
    binary main_v69 main_v71 main_v72 (addf : (⟨S32x4096x1024, .f32⟩ : BufTy).Contents (Elt F) → (⟨S32x4096x1024, .f32⟩ : BufTy).Contents (Elt F) → (⟨S32x4096x1024, .f32⟩ : BufTy).Contents (Elt F)) ]

/-- Stretch 13: operations 90 … 91. -/
abbrev seg13 : List (HloOp τ sig (Elt F)) :=
  [ nullary main_cst_10 (constant S_ .f32 0xFF800000#32),
    binary main_v72 main_cst_10 main_v73 ((fun x v => Host.reduce FloatOps.maximumf x v reducesTo_S32x4096x1024_S32x1024_d1 h_S_) : (⟨S32x4096x1024, .f32⟩ : BufTy).Contents (Elt F) → (⟨S_, .f32⟩ : BufTy).Contents (Elt F) → (⟨S32x1024, .f32⟩ : BufTy).Contents (Elt F)) ]

theorem ops_eq : (ops : List (HloOp τ sig (Elt F))) = seg1 ++ seg2 ++ seg3 ++ seg4 ++ seg5 ++ seg6 ++ seg7 ++ seg8 ++ seg9 ++ seg10 ++ seg11 ++ seg12 ++ seg13 := rfl

set_option maxRecDepth 65536 in
theorem seg1_spec (W : Valuation τ sig (Elt Ideal)) (x0 : FVec Ideal S32x4096x3 .f32) (x1 : IVec S32x1x4096 32) (x2 : FVec Ideal S128x3 .f32) (x3 x4 : FVec Ideal S128 .f32) (x5 : FVec Ideal S256x128 .f32) (x6 : FVec Ideal S256 .f32) (x7 : FVec Ideal S512x512 .f32) (x8 x9 : FVec Ideal S512 .f32) (x10 : FVec Ideal S1024x512 .f32) (x11 : FVec Ideal S1024 .f32)
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_arg11 : W (Proc.devRef .tc main_arg11) = x11) :
    after (seg1 (F := Ideal)) W (Proc.devRef .tc main_arg0) = x0
      ∧ after (seg1 (F := Ideal)) W (Proc.devRef .tc main_arg2) = x2
      ∧ after (seg1 (F := Ideal)) W (Proc.devRef .tc main_arg3) = x3
      ∧ after (seg1 (F := Ideal)) W (Proc.devRef .tc main_arg4) = x4
      ∧ after (seg1 (F := Ideal)) W (Proc.devRef .tc main_arg5) = x5
      ∧ after (seg1 (F := Ideal)) W (Proc.devRef .tc main_arg6) = x6
      ∧ after (seg1 (F := Ideal)) W (Proc.devRef .tc main_arg7) = x7
      ∧ after (seg1 (F := Ideal)) W (Proc.devRef .tc main_arg8) = x8
      ∧ after (seg1 (F := Ideal)) W (Proc.devRef .tc main_arg9) = x9
      ∧ after (seg1 (F := Ideal)) W (Proc.devRef .tc main_arg10) = x10
      ∧ after (seg1 (F := Ideal)) W (Proc.devRef .tc main_arg11) = x11
      ∧ after (seg1 (F := Ideal)) W (Proc.devRef .tc main_v4) = Cert.ReferenceIdeal.Stages.vis x1 :=
  ⟨(show after (seg1 (F := Ideal)) W (Proc.devRef .tc main_arg0) = W (Proc.devRef .tc main_arg0) by after_results_simp).trans h_main_arg0,
   (show after (seg1 (F := Ideal)) W (Proc.devRef .tc main_arg2) = W (Proc.devRef .tc main_arg2) by after_results_simp).trans h_main_arg2,
   (show after (seg1 (F := Ideal)) W (Proc.devRef .tc main_arg3) = W (Proc.devRef .tc main_arg3) by after_results_simp).trans h_main_arg3,
   (show after (seg1 (F := Ideal)) W (Proc.devRef .tc main_arg4) = W (Proc.devRef .tc main_arg4) by after_results_simp).trans h_main_arg4,
   (show after (seg1 (F := Ideal)) W (Proc.devRef .tc main_arg5) = W (Proc.devRef .tc main_arg5) by after_results_simp).trans h_main_arg5,
   (show after (seg1 (F := Ideal)) W (Proc.devRef .tc main_arg6) = W (Proc.devRef .tc main_arg6) by after_results_simp).trans h_main_arg6,
   (show after (seg1 (F := Ideal)) W (Proc.devRef .tc main_arg7) = W (Proc.devRef .tc main_arg7) by after_results_simp).trans h_main_arg7,
   (show after (seg1 (F := Ideal)) W (Proc.devRef .tc main_arg8) = W (Proc.devRef .tc main_arg8) by after_results_simp).trans h_main_arg8,
   (show after (seg1 (F := Ideal)) W (Proc.devRef .tc main_arg9) = W (Proc.devRef .tc main_arg9) by after_results_simp).trans h_main_arg9,
   (show after (seg1 (F := Ideal)) W (Proc.devRef .tc main_arg10) = W (Proc.devRef .tc main_arg10) by after_results_simp).trans h_main_arg10,
   (show after (seg1 (F := Ideal)) W (Proc.devRef .tc main_arg11) = W (Proc.devRef .tc main_arg11) by after_results_simp).trans h_main_arg11,
   (by
      after_results_simp
      simp only [h_main_arg0, h_main_arg1, h_main_arg2, h_main_arg3, h_main_arg4, h_main_arg5, h_main_arg6, h_main_arg7, h_main_arg8, h_main_arg9, h_main_arg10, h_main_arg11]
      rfl)⟩

set_option maxRecDepth 65536 in
theorem seg2_spec (W : Valuation τ sig (Elt Ideal)) (x0 : FVec Ideal S32x4096x3 .f32) (x1 : IVec S32x1x4096 32) (x2 : FVec Ideal S128x3 .f32) (x3 x4 : FVec Ideal S128 .f32) (x5 : FVec Ideal S256x128 .f32) (x6 : FVec Ideal S256 .f32) (x7 : FVec Ideal S512x512 .f32) (x8 x9 : FVec Ideal S512 .f32) (x10 : FVec Ideal S1024x512 .f32) (x11 : FVec Ideal S1024 .f32)
    (h_main_arg0 : W (Proc.devRef .tc main_arg0) = x0)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_arg11 : W (Proc.devRef .tc main_arg11) = x11)
    (h_main_v4 : W (Proc.devRef .tc main_v4) = Cert.ReferenceIdeal.Stages.vis x1) :
    after (seg2 (F := Ideal)) W (Proc.devRef .tc main_arg3) = x3
      ∧ after (seg2 (F := Ideal)) W (Proc.devRef .tc main_arg4) = x4
      ∧ after (seg2 (F := Ideal)) W (Proc.devRef .tc main_arg5) = x5
      ∧ after (seg2 (F := Ideal)) W (Proc.devRef .tc main_arg6) = x6
      ∧ after (seg2 (F := Ideal)) W (Proc.devRef .tc main_arg7) = x7
      ∧ after (seg2 (F := Ideal)) W (Proc.devRef .tc main_arg8) = x8
      ∧ after (seg2 (F := Ideal)) W (Proc.devRef .tc main_arg9) = x9
      ∧ after (seg2 (F := Ideal)) W (Proc.devRef .tc main_arg10) = x10
      ∧ after (seg2 (F := Ideal)) W (Proc.devRef .tc main_arg11) = x11
      ∧ after (seg2 (F := Ideal)) W (Proc.devRef .tc main_v4) = Cert.ReferenceIdeal.Stages.vis x1
      ∧ after (seg2 (F := Ideal)) W (Proc.devRef .tc main_v5) = Cert.ReferenceIdeal.Stages.h0 x0 x2 :=
  ⟨(show after (seg2 (F := Ideal)) W (Proc.devRef .tc main_arg3) = W (Proc.devRef .tc main_arg3) by after_results_simp).trans h_main_arg3,
   (show after (seg2 (F := Ideal)) W (Proc.devRef .tc main_arg4) = W (Proc.devRef .tc main_arg4) by after_results_simp).trans h_main_arg4,
   (show after (seg2 (F := Ideal)) W (Proc.devRef .tc main_arg5) = W (Proc.devRef .tc main_arg5) by after_results_simp).trans h_main_arg5,
   (show after (seg2 (F := Ideal)) W (Proc.devRef .tc main_arg6) = W (Proc.devRef .tc main_arg6) by after_results_simp).trans h_main_arg6,
   (show after (seg2 (F := Ideal)) W (Proc.devRef .tc main_arg7) = W (Proc.devRef .tc main_arg7) by after_results_simp).trans h_main_arg7,
   (show after (seg2 (F := Ideal)) W (Proc.devRef .tc main_arg8) = W (Proc.devRef .tc main_arg8) by after_results_simp).trans h_main_arg8,
   (show after (seg2 (F := Ideal)) W (Proc.devRef .tc main_arg9) = W (Proc.devRef .tc main_arg9) by after_results_simp).trans h_main_arg9,
   (show after (seg2 (F := Ideal)) W (Proc.devRef .tc main_arg10) = W (Proc.devRef .tc main_arg10) by after_results_simp).trans h_main_arg10,
   (show after (seg2 (F := Ideal)) W (Proc.devRef .tc main_arg11) = W (Proc.devRef .tc main_arg11) by after_results_simp).trans h_main_arg11,
   (show after (seg2 (F := Ideal)) W (Proc.devRef .tc main_v4) = W (Proc.devRef .tc main_v4) by after_results_simp).trans h_main_v4,
   (by
      after_results_simp
      simp only [h_main_arg0, h_main_arg2, h_main_arg3, h_main_arg4, h_main_arg5, h_main_arg6, h_main_arg7, h_main_arg8, h_main_arg9, h_main_arg10, h_main_arg11, h_main_v4]
      rfl)⟩

set_option maxRecDepth 65536 in
theorem seg3_spec (W : Valuation τ sig (Elt Ideal)) (x0 : FVec Ideal S32x4096x3 .f32) (x1 : IVec S32x1x4096 32) (x2 : FVec Ideal S128x3 .f32) (x3 x4 : FVec Ideal S128 .f32) (x5 : FVec Ideal S256x128 .f32) (x6 : FVec Ideal S256 .f32) (x7 : FVec Ideal S512x512 .f32) (x8 x9 : FVec Ideal S512 .f32) (x10 : FVec Ideal S1024x512 .f32) (x11 : FVec Ideal S1024 .f32)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_arg11 : W (Proc.devRef .tc main_arg11) = x11)
    (h_main_v4 : W (Proc.devRef .tc main_v4) = Cert.ReferenceIdeal.Stages.vis x1)
    (h_main_v5 : W (Proc.devRef .tc main_v5) = Cert.ReferenceIdeal.Stages.h0 x0 x2) :
    after (seg3 (F := Ideal)) W (Proc.devRef .tc main_arg5) = x5
      ∧ after (seg3 (F := Ideal)) W (Proc.devRef .tc main_arg6) = x6
      ∧ after (seg3 (F := Ideal)) W (Proc.devRef .tc main_arg7) = x7
      ∧ after (seg3 (F := Ideal)) W (Proc.devRef .tc main_arg8) = x8
      ∧ after (seg3 (F := Ideal)) W (Proc.devRef .tc main_arg9) = x9
      ∧ after (seg3 (F := Ideal)) W (Proc.devRef .tc main_arg10) = x10
      ∧ after (seg3 (F := Ideal)) W (Proc.devRef .tc main_arg11) = x11
      ∧ after (seg3 (F := Ideal)) W (Proc.devRef .tc main_v4) = Cert.ReferenceIdeal.Stages.vis x1
      ∧ after (seg3 (F := Ideal)) W (Proc.devRef .tc main_v31) = Cert.ReferenceIdeal.Stages.h1 x0 x1 x2 x3 x4 :=
  ⟨(show after (seg3 (F := Ideal)) W (Proc.devRef .tc main_arg5) = W (Proc.devRef .tc main_arg5) by after_results_simp).trans h_main_arg5,
   (show after (seg3 (F := Ideal)) W (Proc.devRef .tc main_arg6) = W (Proc.devRef .tc main_arg6) by after_results_simp).trans h_main_arg6,
   (show after (seg3 (F := Ideal)) W (Proc.devRef .tc main_arg7) = W (Proc.devRef .tc main_arg7) by after_results_simp).trans h_main_arg7,
   (show after (seg3 (F := Ideal)) W (Proc.devRef .tc main_arg8) = W (Proc.devRef .tc main_arg8) by after_results_simp).trans h_main_arg8,
   (show after (seg3 (F := Ideal)) W (Proc.devRef .tc main_arg9) = W (Proc.devRef .tc main_arg9) by after_results_simp).trans h_main_arg9,
   (show after (seg3 (F := Ideal)) W (Proc.devRef .tc main_arg10) = W (Proc.devRef .tc main_arg10) by after_results_simp).trans h_main_arg10,
   (show after (seg3 (F := Ideal)) W (Proc.devRef .tc main_arg11) = W (Proc.devRef .tc main_arg11) by after_results_simp).trans h_main_arg11,
   (show after (seg3 (F := Ideal)) W (Proc.devRef .tc main_v4) = W (Proc.devRef .tc main_v4) by after_results_simp).trans h_main_v4,
   (by
      after_results_simp
      simp only [h_main_arg3, h_main_arg4, h_main_arg5, h_main_arg6, h_main_arg7, h_main_arg8, h_main_arg9, h_main_arg10, h_main_arg11, h_main_v4, h_main_v5]
      rfl)⟩

set_option maxRecDepth 65536 in
/-- The rectifier stretch over any array held at its operand. -/
theorem seg4_any (W : Valuation τ sig (Elt Ideal)) (A : FVec Ideal S32x4096x128 .f32) (hA : W (Proc.devRef .tc main_v31) = A) :
    after (seg4 (F := Ideal)) W (Proc.devRef .tc main_v32)
      = maximumf A (broadcastInDim S32x4096x128 ![] bcast_S_S32x4096x128 (constant S_ .f32 0x00000000#32)) := by
  after_results_simp
  simp only [hA]
  rfl

set_option maxRecDepth 65536 in
theorem seg4_spec (W : Valuation τ sig (Elt Ideal)) (x0 : FVec Ideal S32x4096x3 .f32) (x1 : IVec S32x1x4096 32) (x2 : FVec Ideal S128x3 .f32) (x3 x4 : FVec Ideal S128 .f32) (x5 : FVec Ideal S256x128 .f32) (x6 : FVec Ideal S256 .f32) (x7 : FVec Ideal S512x512 .f32) (x8 x9 : FVec Ideal S512 .f32) (x10 : FVec Ideal S1024x512 .f32) (x11 : FVec Ideal S1024 .f32)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_arg11 : W (Proc.devRef .tc main_arg11) = x11)
    (h_main_v4 : W (Proc.devRef .tc main_v4) = Cert.ReferenceIdeal.Stages.vis x1)
    (h_main_v31 : W (Proc.devRef .tc main_v31) = Cert.ReferenceIdeal.Stages.h1 x0 x1 x2 x3 x4) :
    after (seg4 (F := Ideal)) W (Proc.devRef .tc main_arg5) = x5
      ∧ after (seg4 (F := Ideal)) W (Proc.devRef .tc main_arg6) = x6
      ∧ after (seg4 (F := Ideal)) W (Proc.devRef .tc main_arg7) = x7
      ∧ after (seg4 (F := Ideal)) W (Proc.devRef .tc main_arg8) = x8
      ∧ after (seg4 (F := Ideal)) W (Proc.devRef .tc main_arg9) = x9
      ∧ after (seg4 (F := Ideal)) W (Proc.devRef .tc main_arg10) = x10
      ∧ after (seg4 (F := Ideal)) W (Proc.devRef .tc main_arg11) = x11
      ∧ after (seg4 (F := Ideal)) W (Proc.devRef .tc main_v4) = Cert.ReferenceIdeal.Stages.vis x1
      ∧ after (seg4 (F := Ideal)) W (Proc.devRef .tc main_v32) = Cert.ReferenceIdeal.Stages.h2 x0 x1 x2 x3 x4 :=
  ⟨(show after (seg4 (F := Ideal)) W (Proc.devRef .tc main_arg5) = W (Proc.devRef .tc main_arg5) by after_results_simp).trans h_main_arg5,
   (show after (seg4 (F := Ideal)) W (Proc.devRef .tc main_arg6) = W (Proc.devRef .tc main_arg6) by after_results_simp).trans h_main_arg6,
   (show after (seg4 (F := Ideal)) W (Proc.devRef .tc main_arg7) = W (Proc.devRef .tc main_arg7) by after_results_simp).trans h_main_arg7,
   (show after (seg4 (F := Ideal)) W (Proc.devRef .tc main_arg8) = W (Proc.devRef .tc main_arg8) by after_results_simp).trans h_main_arg8,
   (show after (seg4 (F := Ideal)) W (Proc.devRef .tc main_arg9) = W (Proc.devRef .tc main_arg9) by after_results_simp).trans h_main_arg9,
   (show after (seg4 (F := Ideal)) W (Proc.devRef .tc main_arg10) = W (Proc.devRef .tc main_arg10) by after_results_simp).trans h_main_arg10,
   (show after (seg4 (F := Ideal)) W (Proc.devRef .tc main_arg11) = W (Proc.devRef .tc main_arg11) by after_results_simp).trans h_main_arg11,
   (show after (seg4 (F := Ideal)) W (Proc.devRef .tc main_v4) = W (Proc.devRef .tc main_v4) by after_results_simp).trans h_main_v4,
   ((seg4_any W _ h_main_v31).trans rfl)⟩

set_option maxRecDepth 65536 in
theorem seg5_spec (W : Valuation τ sig (Elt Ideal)) (x0 : FVec Ideal S32x4096x3 .f32) (x1 : IVec S32x1x4096 32) (x2 : FVec Ideal S128x3 .f32) (x3 x4 : FVec Ideal S128 .f32) (x5 : FVec Ideal S256x128 .f32) (x6 : FVec Ideal S256 .f32) (x7 : FVec Ideal S512x512 .f32) (x8 x9 : FVec Ideal S512 .f32) (x10 : FVec Ideal S1024x512 .f32) (x11 : FVec Ideal S1024 .f32)
    (h_main_arg5 : W (Proc.devRef .tc main_arg5) = x5)
    (h_main_arg6 : W (Proc.devRef .tc main_arg6) = x6)
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_arg11 : W (Proc.devRef .tc main_arg11) = x11)
    (h_main_v4 : W (Proc.devRef .tc main_v4) = Cert.ReferenceIdeal.Stages.vis x1)
    (h_main_v32 : W (Proc.devRef .tc main_v32) = Cert.ReferenceIdeal.Stages.h2 x0 x1 x2 x3 x4) :
    after (seg5 (F := Ideal)) W (Proc.devRef .tc main_arg7) = x7
      ∧ after (seg5 (F := Ideal)) W (Proc.devRef .tc main_arg8) = x8
      ∧ after (seg5 (F := Ideal)) W (Proc.devRef .tc main_arg9) = x9
      ∧ after (seg5 (F := Ideal)) W (Proc.devRef .tc main_arg10) = x10
      ∧ after (seg5 (F := Ideal)) W (Proc.devRef .tc main_arg11) = x11
      ∧ after (seg5 (F := Ideal)) W (Proc.devRef .tc main_v4) = Cert.ReferenceIdeal.Stages.vis x1
      ∧ after (seg5 (F := Ideal)) W (Proc.devRef .tc main_v36) = Cert.ReferenceIdeal.Stages.h3 x0 x1 x2 x3 x4 x5 x6 :=
  ⟨(show after (seg5 (F := Ideal)) W (Proc.devRef .tc main_arg7) = W (Proc.devRef .tc main_arg7) by after_results_simp).trans h_main_arg7,
   (show after (seg5 (F := Ideal)) W (Proc.devRef .tc main_arg8) = W (Proc.devRef .tc main_arg8) by after_results_simp).trans h_main_arg8,
   (show after (seg5 (F := Ideal)) W (Proc.devRef .tc main_arg9) = W (Proc.devRef .tc main_arg9) by after_results_simp).trans h_main_arg9,
   (show after (seg5 (F := Ideal)) W (Proc.devRef .tc main_arg10) = W (Proc.devRef .tc main_arg10) by after_results_simp).trans h_main_arg10,
   (show after (seg5 (F := Ideal)) W (Proc.devRef .tc main_arg11) = W (Proc.devRef .tc main_arg11) by after_results_simp).trans h_main_arg11,
   (show after (seg5 (F := Ideal)) W (Proc.devRef .tc main_v4) = W (Proc.devRef .tc main_v4) by after_results_simp).trans h_main_v4,
   (by
      after_results_simp
      simp only [h_main_arg5, h_main_arg6, h_main_arg7, h_main_arg8, h_main_arg9, h_main_arg10, h_main_arg11, h_main_v4, h_main_v32]
      rfl)⟩

set_option maxRecDepth 65536 in
theorem seg6_spec (W : Valuation τ sig (Elt Ideal)) (x0 : FVec Ideal S32x4096x3 .f32) (x1 : IVec S32x1x4096 32) (x2 : FVec Ideal S128x3 .f32) (x3 x4 : FVec Ideal S128 .f32) (x5 : FVec Ideal S256x128 .f32) (x6 : FVec Ideal S256 .f32) (x7 : FVec Ideal S512x512 .f32) (x8 x9 : FVec Ideal S512 .f32) (x10 : FVec Ideal S1024x512 .f32) (x11 : FVec Ideal S1024 .f32)
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_arg11 : W (Proc.devRef .tc main_arg11) = x11)
    (h_main_v4 : W (Proc.devRef .tc main_v4) = Cert.ReferenceIdeal.Stages.vis x1)
    (h_main_v36 : W (Proc.devRef .tc main_v36) = Cert.ReferenceIdeal.Stages.h3 x0 x1 x2 x3 x4 x5 x6) :
    after (seg6 (F := Ideal)) W (Proc.devRef .tc main_arg7) = x7
      ∧ after (seg6 (F := Ideal)) W (Proc.devRef .tc main_arg8) = x8
      ∧ after (seg6 (F := Ideal)) W (Proc.devRef .tc main_arg9) = x9
      ∧ after (seg6 (F := Ideal)) W (Proc.devRef .tc main_arg10) = x10
      ∧ after (seg6 (F := Ideal)) W (Proc.devRef .tc main_arg11) = x11
      ∧ after (seg6 (F := Ideal)) W (Proc.devRef .tc main_v4) = Cert.ReferenceIdeal.Stages.vis x1
      ∧ after (seg6 (F := Ideal)) W (Proc.devRef .tc main_v36) = Cert.ReferenceIdeal.Stages.h3 x0 x1 x2 x3 x4 x5 x6
      ∧ after (seg6 (F := Ideal)) W (Proc.devRef .tc main_v37) = Cert.ReferenceIdeal.Stages.gmax x0 x1 x2 x3 x4 x5 x6 :=
  ⟨(show after (seg6 (F := Ideal)) W (Proc.devRef .tc main_arg7) = W (Proc.devRef .tc main_arg7) by after_results_simp).trans h_main_arg7,
   (show after (seg6 (F := Ideal)) W (Proc.devRef .tc main_arg8) = W (Proc.devRef .tc main_arg8) by after_results_simp).trans h_main_arg8,
   (show after (seg6 (F := Ideal)) W (Proc.devRef .tc main_arg9) = W (Proc.devRef .tc main_arg9) by after_results_simp).trans h_main_arg9,
   (show after (seg6 (F := Ideal)) W (Proc.devRef .tc main_arg10) = W (Proc.devRef .tc main_arg10) by after_results_simp).trans h_main_arg10,
   (show after (seg6 (F := Ideal)) W (Proc.devRef .tc main_arg11) = W (Proc.devRef .tc main_arg11) by after_results_simp).trans h_main_arg11,
   (show after (seg6 (F := Ideal)) W (Proc.devRef .tc main_v4) = W (Proc.devRef .tc main_v4) by after_results_simp).trans h_main_v4,
   (show after (seg6 (F := Ideal)) W (Proc.devRef .tc main_v36) = W (Proc.devRef .tc main_v36) by after_results_simp).trans h_main_v36,
   (by
      after_results_simp
      simp only [h_main_arg7, h_main_arg8, h_main_arg9, h_main_arg10, h_main_arg11, h_main_v4, h_main_v36]
      rfl)⟩

set_option maxRecDepth 65536 in
theorem seg7_spec (W : Valuation τ sig (Elt Ideal)) (x0 : FVec Ideal S32x4096x3 .f32) (x1 : IVec S32x1x4096 32) (x2 : FVec Ideal S128x3 .f32) (x3 x4 : FVec Ideal S128 .f32) (x5 : FVec Ideal S256x128 .f32) (x6 : FVec Ideal S256 .f32) (x7 : FVec Ideal S512x512 .f32) (x8 x9 : FVec Ideal S512 .f32) (x10 : FVec Ideal S1024x512 .f32) (x11 : FVec Ideal S1024 .f32)
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_arg11 : W (Proc.devRef .tc main_arg11) = x11)
    (h_main_v4 : W (Proc.devRef .tc main_v4) = Cert.ReferenceIdeal.Stages.vis x1)
    (h_main_v36 : W (Proc.devRef .tc main_v36) = Cert.ReferenceIdeal.Stages.h3 x0 x1 x2 x3 x4 x5 x6)
    (h_main_v37 : W (Proc.devRef .tc main_v37) = Cert.ReferenceIdeal.Stages.gmax x0 x1 x2 x3 x4 x5 x6) :
    after (seg7 (F := Ideal)) W (Proc.devRef .tc main_arg7) = x7
      ∧ after (seg7 (F := Ideal)) W (Proc.devRef .tc main_arg8) = x8
      ∧ after (seg7 (F := Ideal)) W (Proc.devRef .tc main_arg9) = x9
      ∧ after (seg7 (F := Ideal)) W (Proc.devRef .tc main_arg10) = x10
      ∧ after (seg7 (F := Ideal)) W (Proc.devRef .tc main_arg11) = x11
      ∧ after (seg7 (F := Ideal)) W (Proc.devRef .tc main_v4) = Cert.ReferenceIdeal.Stages.vis x1
      ∧ after (seg7 (F := Ideal)) W (Proc.devRef .tc main_v36) = Cert.ReferenceIdeal.Stages.h3 x0 x1 x2 x3 x4 x5 x6
      ∧ after (seg7 (F := Ideal)) W (Proc.devRef .tc main_v39) = Cert.ReferenceIdeal.Stages.gmaxB x0 x1 x2 x3 x4 x5 x6 :=
  ⟨(show after (seg7 (F := Ideal)) W (Proc.devRef .tc main_arg7) = W (Proc.devRef .tc main_arg7) by after_results_simp).trans h_main_arg7,
   (show after (seg7 (F := Ideal)) W (Proc.devRef .tc main_arg8) = W (Proc.devRef .tc main_arg8) by after_results_simp).trans h_main_arg8,
   (show after (seg7 (F := Ideal)) W (Proc.devRef .tc main_arg9) = W (Proc.devRef .tc main_arg9) by after_results_simp).trans h_main_arg9,
   (show after (seg7 (F := Ideal)) W (Proc.devRef .tc main_arg10) = W (Proc.devRef .tc main_arg10) by after_results_simp).trans h_main_arg10,
   (show after (seg7 (F := Ideal)) W (Proc.devRef .tc main_arg11) = W (Proc.devRef .tc main_arg11) by after_results_simp).trans h_main_arg11,
   (show after (seg7 (F := Ideal)) W (Proc.devRef .tc main_v4) = W (Proc.devRef .tc main_v4) by after_results_simp).trans h_main_v4,
   (show after (seg7 (F := Ideal)) W (Proc.devRef .tc main_v36) = W (Proc.devRef .tc main_v36) by after_results_simp).trans h_main_v36,
   (by
      after_results_simp
      simp only [h_main_arg7, h_main_arg8, h_main_arg9, h_main_arg10, h_main_arg11, h_main_v4, h_main_v36, h_main_v37]
      rfl)⟩

set_option maxRecDepth 65536 in
theorem seg8_spec (W : Valuation τ sig (Elt Ideal)) (x0 : FVec Ideal S32x4096x3 .f32) (x1 : IVec S32x1x4096 32) (x2 : FVec Ideal S128x3 .f32) (x3 x4 : FVec Ideal S128 .f32) (x5 : FVec Ideal S256x128 .f32) (x6 : FVec Ideal S256 .f32) (x7 : FVec Ideal S512x512 .f32) (x8 x9 : FVec Ideal S512 .f32) (x10 : FVec Ideal S1024x512 .f32) (x11 : FVec Ideal S1024 .f32)
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_arg11 : W (Proc.devRef .tc main_arg11) = x11)
    (h_main_v4 : W (Proc.devRef .tc main_v4) = Cert.ReferenceIdeal.Stages.vis x1)
    (h_main_v36 : W (Proc.devRef .tc main_v36) = Cert.ReferenceIdeal.Stages.h3 x0 x1 x2 x3 x4 x5 x6)
    (h_main_v39 : W (Proc.devRef .tc main_v39) = Cert.ReferenceIdeal.Stages.gmaxB x0 x1 x2 x3 x4 x5 x6) :
    after (seg8 (F := Ideal)) W (Proc.devRef .tc main_arg7) = x7
      ∧ after (seg8 (F := Ideal)) W (Proc.devRef .tc main_arg8) = x8
      ∧ after (seg8 (F := Ideal)) W (Proc.devRef .tc main_arg9) = x9
      ∧ after (seg8 (F := Ideal)) W (Proc.devRef .tc main_arg10) = x10
      ∧ after (seg8 (F := Ideal)) W (Proc.devRef .tc main_arg11) = x11
      ∧ after (seg8 (F := Ideal)) W (Proc.devRef .tc main_v4) = Cert.ReferenceIdeal.Stages.vis x1
      ∧ after (seg8 (F := Ideal)) W (Proc.devRef .tc main_v40) = Cert.ReferenceIdeal.Stages.dist x0 x1 x2 x3 x4 x5 x6 :=
  ⟨(show after (seg8 (F := Ideal)) W (Proc.devRef .tc main_arg7) = W (Proc.devRef .tc main_arg7) by after_results_simp).trans h_main_arg7,
   (show after (seg8 (F := Ideal)) W (Proc.devRef .tc main_arg8) = W (Proc.devRef .tc main_arg8) by after_results_simp).trans h_main_arg8,
   (show after (seg8 (F := Ideal)) W (Proc.devRef .tc main_arg9) = W (Proc.devRef .tc main_arg9) by after_results_simp).trans h_main_arg9,
   (show after (seg8 (F := Ideal)) W (Proc.devRef .tc main_arg10) = W (Proc.devRef .tc main_arg10) by after_results_simp).trans h_main_arg10,
   (show after (seg8 (F := Ideal)) W (Proc.devRef .tc main_arg11) = W (Proc.devRef .tc main_arg11) by after_results_simp).trans h_main_arg11,
   (show after (seg8 (F := Ideal)) W (Proc.devRef .tc main_v4) = W (Proc.devRef .tc main_v4) by after_results_simp).trans h_main_v4,
   (by
      after_results_simp
      rw [h_main_v39, h_main_v36]
      rfl)⟩

set_option maxRecDepth 65536 in
theorem seg9_spec (W : Valuation τ sig (Elt Ideal)) (x0 : FVec Ideal S32x4096x3 .f32) (x1 : IVec S32x1x4096 32) (x2 : FVec Ideal S128x3 .f32) (x3 x4 : FVec Ideal S128 .f32) (x5 : FVec Ideal S256x128 .f32) (x6 : FVec Ideal S256 .f32) (x7 : FVec Ideal S512x512 .f32) (x8 x9 : FVec Ideal S512 .f32) (x10 : FVec Ideal S1024x512 .f32) (x11 : FVec Ideal S1024 .f32)
    (h_main_arg7 : W (Proc.devRef .tc main_arg7) = x7)
    (h_main_arg8 : W (Proc.devRef .tc main_arg8) = x8)
    (h_main_arg9 : W (Proc.devRef .tc main_arg9) = x9)
    (h_main_arg10 : W (Proc.devRef .tc main_arg10) = x10)
    (h_main_arg11 : W (Proc.devRef .tc main_arg11) = x11)
    (h_main_v4 : W (Proc.devRef .tc main_v4) = Cert.ReferenceIdeal.Stages.vis x1)
    (h_main_v40 : W (Proc.devRef .tc main_v40) = Cert.ReferenceIdeal.Stages.dist x0 x1 x2 x3 x4 x5 x6) :
    after (seg9 (F := Ideal)) W (Proc.devRef .tc main_arg8) = x8
      ∧ after (seg9 (F := Ideal)) W (Proc.devRef .tc main_arg9) = x9
      ∧ after (seg9 (F := Ideal)) W (Proc.devRef .tc main_arg10) = x10
      ∧ after (seg9 (F := Ideal)) W (Proc.devRef .tc main_arg11) = x11
      ∧ after (seg9 (F := Ideal)) W (Proc.devRef .tc main_v4) = Cert.ReferenceIdeal.Stages.vis x1
      ∧ after (seg9 (F := Ideal)) W (Proc.devRef .tc main_v41) = Cert.ReferenceIdeal.Stages.h4 x0 x1 x2 x3 x4 x5 x6 x7 :=
  ⟨(show after (seg9 (F := Ideal)) W (Proc.devRef .tc main_arg8) = W (Proc.devRef .tc main_arg8) by after_results_simp).trans h_main_arg8,
   (show after (seg9 (F := Ideal)) W (Proc.devRef .tc main_arg9) = W (Proc.devRef .tc main_arg9) by after_results_simp).trans h_main_arg9,
   (show after (seg9 (F := Ideal)) W (Proc.devRef .tc main_arg10) = W (Proc.devRef .tc main_arg10) by after_results_simp).trans h_main_arg10,
   (show after (seg9 (F := Ideal)) W (Proc.devRef .tc main_arg11) = W (Proc.devRef .tc main_arg11) by after_results_simp).trans h_main_arg11,
   (show after (seg9 (F := Ideal)) W (Proc.devRef .tc main_v4) = W (Proc.devRef .tc main_v4) by after_results_simp).trans h_main_v4,
   (by
      after_results_simp
      simp only [h_main_arg7, h_main_arg8, h_main_arg9, h_main_arg10, h_main_arg11, h_main_v4, h_main_v40]
      rfl)⟩

set_option maxRecDepth 65536 in
theorem seg10_spec (W : Valuation τ sig (Elt Ideal)) (x0 : FVec Ideal S32x4096x3 .f32) (x1 : IVec S32x1x4096 32) (x2 : FVec Ideal S128x3 .f32) (x3 x4 : FVec Ideal S128 .f32) (x5 : FVec Ideal S256x128 .f32) (x6 : FVec Ideal S256 .f32) (x7 : FVec Ideal S512x512 .f32) (x8 x9 : FVec Ideal S512 .f32) (x10 : FVec Ideal S1024x512 .f32) (x11 : FVec Ideal S1024 .f32)
    (h_main_arg8 : W (Proc.devRef .tc main_arg8) = x8)
    (h_main_arg9 : W (Proc.devRef .tc main_arg9) = x9)
    (h_main_arg10 : W (Proc.devRef .tc main_arg10) = x10)
    (h_main_arg11 : W (Proc.devRef .tc main_arg11) = x11)
    (h_main_v4 : W (Proc.devRef .tc main_v4) = Cert.ReferenceIdeal.Stages.vis x1)
    (h_main_v41 : W (Proc.devRef .tc main_v41) = Cert.ReferenceIdeal.Stages.h4 x0 x1 x2 x3 x4 x5 x6 x7) :
    after (seg10 (F := Ideal)) W (Proc.devRef .tc main_arg10) = x10
      ∧ after (seg10 (F := Ideal)) W (Proc.devRef .tc main_arg11) = x11
      ∧ after (seg10 (F := Ideal)) W (Proc.devRef .tc main_v67) = Cert.ReferenceIdeal.Stages.h5 x0 x1 x2 x3 x4 x5 x6 x7 x8 x9 :=
  ⟨(show after (seg10 (F := Ideal)) W (Proc.devRef .tc main_arg10) = W (Proc.devRef .tc main_arg10) by after_results_simp).trans h_main_arg10,
   (show after (seg10 (F := Ideal)) W (Proc.devRef .tc main_arg11) = W (Proc.devRef .tc main_arg11) by after_results_simp).trans h_main_arg11,
   (by
      after_results_simp
      simp only [h_main_arg8, h_main_arg9, h_main_arg10, h_main_arg11, h_main_v4, h_main_v41]
      rfl)⟩

set_option maxRecDepth 65536 in
/-- The rectifier stretch over any array held at its operand. -/
theorem seg11_any (W : Valuation τ sig (Elt Ideal)) (A : FVec Ideal S32x4096x512 .f32) (hA : W (Proc.devRef .tc main_v67) = A) :
    after (seg11 (F := Ideal)) W (Proc.devRef .tc main_v68)
      = maximumf A (broadcastInDim S32x4096x512 ![] bcast_S_S32x4096x512 (constant S_ .f32 0x00000000#32)) := by
  after_results_simp
  simp only [hA]
  rfl

set_option maxRecDepth 65536 in
theorem seg11_spec (W : Valuation τ sig (Elt Ideal)) (x0 : FVec Ideal S32x4096x3 .f32) (x1 : IVec S32x1x4096 32) (x2 : FVec Ideal S128x3 .f32) (x3 x4 : FVec Ideal S128 .f32) (x5 : FVec Ideal S256x128 .f32) (x6 : FVec Ideal S256 .f32) (x7 : FVec Ideal S512x512 .f32) (x8 x9 : FVec Ideal S512 .f32) (x10 : FVec Ideal S1024x512 .f32) (x11 : FVec Ideal S1024 .f32)
    (h_main_arg10 : W (Proc.devRef .tc main_arg10) = x10)
    (h_main_arg11 : W (Proc.devRef .tc main_arg11) = x11)
    (h_main_v67 : W (Proc.devRef .tc main_v67) = Cert.ReferenceIdeal.Stages.h5 x0 x1 x2 x3 x4 x5 x6 x7 x8 x9) :
    after (seg11 (F := Ideal)) W (Proc.devRef .tc main_arg10) = x10
      ∧ after (seg11 (F := Ideal)) W (Proc.devRef .tc main_arg11) = x11
      ∧ after (seg11 (F := Ideal)) W (Proc.devRef .tc main_v68) = Cert.ReferenceIdeal.Stages.h6 x0 x1 x2 x3 x4 x5 x6 x7 x8 x9 :=
  ⟨(show after (seg11 (F := Ideal)) W (Proc.devRef .tc main_arg10) = W (Proc.devRef .tc main_arg10) by after_results_simp).trans h_main_arg10,
   (show after (seg11 (F := Ideal)) W (Proc.devRef .tc main_arg11) = W (Proc.devRef .tc main_arg11) by after_results_simp).trans h_main_arg11,
   ((seg11_any W _ h_main_v67).trans rfl)⟩

set_option maxRecDepth 65536 in
theorem seg12_spec (W : Valuation τ sig (Elt Ideal)) (x0 : FVec Ideal S32x4096x3 .f32) (x1 : IVec S32x1x4096 32) (x2 : FVec Ideal S128x3 .f32) (x3 x4 : FVec Ideal S128 .f32) (x5 : FVec Ideal S256x128 .f32) (x6 : FVec Ideal S256 .f32) (x7 : FVec Ideal S512x512 .f32) (x8 x9 : FVec Ideal S512 .f32) (x10 : FVec Ideal S1024x512 .f32) (x11 : FVec Ideal S1024 .f32)
    (h_main_arg10 : W (Proc.devRef .tc main_arg10) = x10)
    (h_main_arg11 : W (Proc.devRef .tc main_arg11) = x11)
    (h_main_v68 : W (Proc.devRef .tc main_v68) = Cert.ReferenceIdeal.Stages.h6 x0 x1 x2 x3 x4 x5 x6 x7 x8 x9) :
    after (seg12 (F := Ideal)) W (Proc.devRef .tc main_v72) = Cert.ReferenceIdeal.Stages.h7 x0 x1 x2 x3 x4 x5 x6 x7 x8 x9 x10 x11 :=
  (by
      after_results_simp
      simp only [h_main_arg10, h_main_arg11, h_main_v68]
      rfl)

set_option maxRecDepth 65536 in
theorem seg13_spec (W : Valuation τ sig (Elt Ideal)) (x0 : FVec Ideal S32x4096x3 .f32) (x1 : IVec S32x1x4096 32) (x2 : FVec Ideal S128x3 .f32) (x3 x4 : FVec Ideal S128 .f32) (x5 : FVec Ideal S256x128 .f32) (x6 : FVec Ideal S256 .f32) (x7 : FVec Ideal S512x512 .f32) (x8 x9 : FVec Ideal S512 .f32) (x10 : FVec Ideal S1024x512 .f32) (x11 : FVec Ideal S1024 .f32)
    (h_main_v72 : W (Proc.devRef .tc main_v72) = Cert.ReferenceIdeal.Stages.h7 x0 x1 x2 x3 x4 x5 x6 x7 x8 x9 x10 x11) :
    after (seg13 (F := Ideal)) W (Proc.devRef .tc main_v73) = Cert.ReferenceIdeal.Stages.out x0 x1 x2 x3 x4 x5 x6 x7 x8 x9 x10 x11 :=
  (by
      after_results_simp
      simp only [h_main_v72]
      rfl)

set_option maxRecDepth 65536 in
/-- From any contents the result buffer ends at the last stage of the argument arrays. -/
theorem out_eq (V : Valuation τ sig (Elt Ideal)) :
    after (ops (F := Ideal)) V (Proc.devRef .tc main_v73)
      = Cert.ReferenceIdeal.Stages.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [ops_eq]
  simp only [after_append]
  obtain ⟨s1_main_arg0, s1_main_arg2, s1_main_arg3, s1_main_arg4, s1_main_arg5, s1_main_arg6, s1_main_arg7, s1_main_arg8, s1_main_arg9, s1_main_arg10, s1_main_arg11, s1_main_v4⟩ := seg1_spec (V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) rfl rfl rfl rfl rfl rfl rfl rfl rfl rfl rfl rfl
  obtain ⟨s2_main_arg3, s2_main_arg4, s2_main_arg5, s2_main_arg6, s2_main_arg7, s2_main_arg8, s2_main_arg9, s2_main_arg10, s2_main_arg11, s2_main_v4, s2_main_v5⟩ := seg2_spec (after seg1 (V)) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) s1_main_arg0 s1_main_arg2 s1_main_arg3 s1_main_arg4 s1_main_arg5 s1_main_arg6 s1_main_arg7 s1_main_arg8 s1_main_arg9 s1_main_arg10 s1_main_arg11 s1_main_v4
  obtain ⟨s3_main_arg5, s3_main_arg6, s3_main_arg7, s3_main_arg8, s3_main_arg9, s3_main_arg10, s3_main_arg11, s3_main_v4, s3_main_v31⟩ := seg3_spec (after seg2 (after seg1 (V))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) s2_main_arg3 s2_main_arg4 s2_main_arg5 s2_main_arg6 s2_main_arg7 s2_main_arg8 s2_main_arg9 s2_main_arg10 s2_main_arg11 s2_main_v4 s2_main_v5
  obtain ⟨s4_main_arg5, s4_main_arg6, s4_main_arg7, s4_main_arg8, s4_main_arg9, s4_main_arg10, s4_main_arg11, s4_main_v4, s4_main_v32⟩ := seg4_spec (after seg3 (after seg2 (after seg1 (V)))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) s3_main_arg5 s3_main_arg6 s3_main_arg7 s3_main_arg8 s3_main_arg9 s3_main_arg10 s3_main_arg11 s3_main_v4 s3_main_v31
  obtain ⟨s5_main_arg7, s5_main_arg8, s5_main_arg9, s5_main_arg10, s5_main_arg11, s5_main_v4, s5_main_v36⟩ := seg5_spec (after seg4 (after seg3 (after seg2 (after seg1 (V))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) s4_main_arg5 s4_main_arg6 s4_main_arg7 s4_main_arg8 s4_main_arg9 s4_main_arg10 s4_main_arg11 s4_main_v4 s4_main_v32
  obtain ⟨s6_main_arg7, s6_main_arg8, s6_main_arg9, s6_main_arg10, s6_main_arg11, s6_main_v4, s6_main_v36, s6_main_v37⟩ := seg6_spec (after seg5 (after seg4 (after seg3 (after seg2 (after seg1 (V)))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) s5_main_arg7 s5_main_arg8 s5_main_arg9 s5_main_arg10 s5_main_arg11 s5_main_v4 s5_main_v36
  obtain ⟨s7_main_arg7, s7_main_arg8, s7_main_arg9, s7_main_arg10, s7_main_arg11, s7_main_v4, s7_main_v36, s7_main_v39⟩ := seg7_spec (after seg6 (after seg5 (after seg4 (after seg3 (after seg2 (after seg1 (V))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) s6_main_arg7 s6_main_arg8 s6_main_arg9 s6_main_arg10 s6_main_arg11 s6_main_v4 s6_main_v36 s6_main_v37
  obtain ⟨s8_main_arg7, s8_main_arg8, s8_main_arg9, s8_main_arg10, s8_main_arg11, s8_main_v4, s8_main_v40⟩ := seg8_spec (after seg7 (after seg6 (after seg5 (after seg4 (after seg3 (after seg2 (after seg1 (V)))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) s7_main_arg7 s7_main_arg8 s7_main_arg9 s7_main_arg10 s7_main_arg11 s7_main_v4 s7_main_v36 s7_main_v39
  obtain ⟨s9_main_arg8, s9_main_arg9, s9_main_arg10, s9_main_arg11, s9_main_v4, s9_main_v41⟩ := seg9_spec (after seg8 (after seg7 (after seg6 (after seg5 (after seg4 (after seg3 (after seg2 (after seg1 (V))))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) s8_main_arg7 s8_main_arg8 s8_main_arg9 s8_main_arg10 s8_main_arg11 s8_main_v4 s8_main_v40
  obtain ⟨s10_main_arg10, s10_main_arg11, s10_main_v67⟩ := seg10_spec (after seg9 (after seg8 (after seg7 (after seg6 (after seg5 (after seg4 (after seg3 (after seg2 (after seg1 (V)))))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) s9_main_arg8 s9_main_arg9 s9_main_arg10 s9_main_arg11 s9_main_v4 s9_main_v41
  obtain ⟨s11_main_arg10, s11_main_arg11, s11_main_v68⟩ := seg11_spec (after seg10 (after seg9 (after seg8 (after seg7 (after seg6 (after seg5 (after seg4 (after seg3 (after seg2 (after seg1 (V))))))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) s10_main_arg10 s10_main_arg11 s10_main_v67
  obtain s12_main_v72 := seg12_spec (after seg11 (after seg10 (after seg9 (after seg8 (after seg7 (after seg6 (after seg5 (after seg4 (after seg3 (after seg2 (after seg1 (V)))))))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) s11_main_arg10 s11_main_arg11 s11_main_v68
  obtain s13_main_v73 := seg13_spec (after seg12 (after seg11 (after seg10 (after seg9 (after seg8 (after seg7 (after seg6 (after seg5 (after seg4 (after seg3 (after seg2 (after seg1 (V))))))))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) s12_main_v72
  exact s13_main_v73

set_option maxRecDepth 65536 in
set_option maxHeartbeats 36400000 in
/-- Every weakly fair execution of the reference terminates with the result at the last stage of the argument arrays and
    the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v73) = Cert.ReferenceIdeal.Stages.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v73).trans (out_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl)⟩)
    (run_seq scopedRefs_eq scopedSems_eq defs main (fun _ => ops) main_eq (fun _ => ops_sub) m ρ)

end Cert.ReferenceIdeal.RefRun

end
-- ==== Proof.lean ====
/-
  A masked point-cloud network in one fused kernel against its plain reference, over the extended reals.

  For each of 32 clouds of 4096 points the network mixes the three coordinates into 128 channels, normalises each
  point's channels (mean, variance plus a constant, reciprocal square root, gain and offset), zeroes masked points,
  rectifies, mixes into 256 channels with a bias, takes each channel's maximum over all points, joins that row in front
  of every point's 256 channels, mixes the 512 into 512, normalises, masks and rectifies again, mixes into 1024 with a
  bias, and takes each channel's maximum over the points.  The kernel keeps channels on the rows and points on the
  columns, multiplies in the opposite order, and takes the last maximum block by block of 1024 points with a running
  maximum; the reference keeps points on the rows.  Sums and maxima over finitely many extended reals do not depend
  on order or grouping and products commute, so the two results are equal entry by entry; nothing here needs the
  inputs to be finite.  The three frames are the programs' runs with the result dropped.
-/
import proofs.«116878_j73383811219637_2_alg».proof.Defs
import proofs.«116878_j73383811219637_2_alg».proof.Proof.Gen.Kernel
import proofs.«116878_j73383811219637_2_alg».proof.Proof.Gen.Kernel.Skeleton
import proofs.«116878_j73383811219637_2_alg».proof.Proof.Gen.Kernel.Loops
import proofs.«116878_j73383811219637_2_alg».proof.Proof.Gen.Kernel.Launch
import proofs.«116878_j73383811219637_2_alg».proof.Proof.Gen.Kernel.Points
import proofs.«116878_j73383811219637_2_alg».proof.Proof.Gen.Kernel.Frame
import proofs.«116878_j73383811219637_2_alg».proof.Proof.Gen.KernelIdeal
import proofs.«116878_j73383811219637_2_alg».proof.Proof.Gen.KernelIdeal.Skeleton
import proofs.«116878_j73383811219637_2_alg».proof.Proof.Gen.KernelIdeal.Loops
import proofs.«116878_j73383811219637_2_alg».proof.Proof.Gen.KernelIdeal.Launch
import proofs.«116878_j73383811219637_2_alg».proof.Proof.Gen.KernelIdeal.Points
import proofs.«116878_j73383811219637_2_alg».proof.Proof.Gen.KernelIdeal.Frame
import proofs.«116878_j73383811219637_2_alg».proof.Proof.Gen.ReferenceIdeal
import proofs.«116878_j73383811219637_2_alg».proof.Proof.Gen.Pre_finite_inputs
import proofs.«116878_j73383811219637_2_alg».proof.Proof.KernelValue
import proofs.«116878_j73383811219637_2_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

/-- Both programs end at the reference's last stage of the argument arrays, which agree. -/
theorem algebraic : Cert.algebraic_KernelIdeal_ReferenceIdeal := by
  intro m ρ m' ρ' _ hagree
  refine ⟨fun c => Cert.ReferenceIdeal.Stages.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Hand.run m ρ, ?_⟩
  refine (θ_run Cert.ReferenceIdeal.defs _ _).mono (fun _ h c => ⟨(h c).1.trans ?_, (h c).2⟩)
    (Cert.ReferenceIdeal.RefRun.run m' ρ')
  obtain ⟨a0, a1, a2, a3, a4, a5, a6, a7, a8, a9, a10, a11⟩ := hagree c
  rw [a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
